-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v152) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S8192x2 : Shape := ⟨2, ![8192, 2]⟩
abbrev S8x2048x2816 : Shape := ⟨3, ![8, 2048, 2816]⟩
abbrev S8x1408x2048 : Shape := ⟨3, ![8, 1408, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8192x2 : S_.BroadcastsInDim S8192x2 (![] : Fin 0 → Fin S8192x2.rank)
  reducesTo_S8192x2_S_d0_1 : S8192x2.ReducesTo [0, 1] S_
  bcast_S_S8x2048x2816 : S_.BroadcastsInDim S8x2048x2816 (![] : Fin 0 → Fin S8x2048x2816.rank)
  reducesTo_S8x2048x2816_S_d0_1_2 : S8x2048x2816.ReducesTo [0, 1, 2] S_
  bcast_S_S8x1408x2048 : S_.BroadcastsInDim S8x1408x2048 (![] : Fin 0 → Fin S8x1408x2048.rank)
  reducesTo_S8x1408x2048_S_d0_1_2 : S8x1408x2048.ReducesTo [0, 1, 2] S_

variable [Facts]

def fn_part1 {F : FTy → Type} [FloatOps F] (main_v13 : IVec S_ 1) (main_v16 : IVec S8x1408x2048 1) : IVec S_ 1 :=
  let main_c_5 : IVec S_ 1 := constantI S_ 1 1#1
  let main_v17 : IVec S_ 1 := (fun x v => Host.reduce IntOp.andi x v reducesTo_S8x1408x2048_S_d0_1_2 h_S_) main_v16 main_c_5
  let main_v18 : IVec S_ 1 := andi main_v13 main_v17
  main_v18

def fn {F : FTy → Type} [FloatOps F] (main_arg0 : FVec F S8192x2048 .f32) (main_arg1 : IVec S8192x2 32) (main_arg2 : FVec F S8192x2 .f32) (main_arg3 : FVec F S8x2048x2816 .f32) (main_arg4 : FVec F S8x1408x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2 .f32 := Host.absf main_arg2
  let main_cst_0 : FVec F S_ .f32 := constant S_ .f32 0x7F800000#32
  let main_v5 : FVec F S8192x2 .f32 := broadcastInDim S8192x2 ![] bcast_S_S8192x2 main_cst_0
  let main_v6 : IVec S8192x2 1 := cmpf .olt main_v4 main_v5
  let main_c_1 : IVec S_ 1 := constantI S_ 1 1#1
  let main_v7 : IVec S_ 1 := (fun x v => Host.reduce IntOp.andi x v reducesTo_S8192x2_S_d0_1 h_S_) main_v6 main_c_1
  let main_v8 : IVec S_ 1 := andi main_v3 main_v7
  let main_v9 : FVec F S8x2048x2816 .f32 := Host.absf main_arg3
  let main_cst_2 : FVec F S_ .f32 := constant S_ .f32 0x7F800000#32
  let main_v10 : FVec F S8x2048x2816 .f32 := broadcastInDim S8x2048x2816 ![] bcast_S_S8x2048x2816 main_cst_2
  let main_v11 : IVec S8x2048x2816 1 := cmpf .olt main_v9 main_v10
  let main_c_3 : IVec S_ 1 := constantI S_ 1 1#1
  let main_v12 : IVec S_ 1 := (fun x v => Host.reduce IntOp.andi x v reducesTo_S8x2048x2816_S_d0_1_2 h_S_) main_v11 main_c_3
  let main_v13 : IVec S_ 1 := andi main_v8 main_v12
  let main_v14 : FVec F S8x1408x2048 .f32 := Host.absf main_arg4
  let main_cst_4 : FVec F S_ .f32 := constant S_ .f32 0x7F800000#32
  let main_v15 : FVec F S8x1408x2048 .f32 := broadcastInDim S8x1408x2048 ![] bcast_S_S8x1408x2048 main_cst_4
  let main_v16 : IVec S8x1408x2048 1 := cmpf .olt main_v14 main_v15
  fn_part1 (F := F) main_v13 main_v16
-- ==== Kernel.lean ====
abbrev S8192x2048 : Shape := ⟨2, ![8192, 2048]⟩
abbrev S8192x2 : Shape := ⟨2, ![8192, 2]⟩
abbrev S8x2048x2816 : Shape := ⟨3, ![8, 2048, 2816]⟩
abbrev S8x1408x2048 : Shape := ⟨3, ![8, 1408, 2048]⟩
abbrev S8 : Shape := ⟨1, ![8]⟩
abbrev S8192x2x1 : Shape := ⟨3, ![8192, 2, 1]⟩
abbrev S1x1x8 : Shape := ⟨3, ![1, 1, 8]⟩
abbrev S8192x2x8 : Shape := ⟨3, ![8192, 2, 8]⟩
abbrev S_ : Shape := ⟨0, ![]⟩
abbrev S8192x8 : Shape := ⟨2, ![8192, 8]⟩
abbrev S8192x1 : Shape := ⟨2, ![8192, 1]⟩
abbrev S1x2048x2816 : Shape := ⟨3, ![1, 2048, 2816]⟩
abbrev S2048x2816 : Shape := ⟨2, ![2048, 2816]⟩
abbrev S1x1408x2048 : Shape := ⟨3, ![1, 1408, 2048]⟩
abbrev S1408x2048 : Shape := ⟨2, ![1408, 2048]⟩
abbrev S256x2048 : Shape := ⟨2, ![256, 2048]⟩
abbrev S256x1 : Shape := ⟨2, ![256, 1]⟩
abbrev S256x2816 : Shape := ⟨2, ![256, 2816]⟩
abbrev S256x1408 : Shape := ⟨2, ![256, 1408]⟩

abbrev nBuf : Space → Nat
  | .hbm => 70
  | .vmem => 80
  | .smem => 0
  | _ => 0

abbrev bufTy : (tb : Table) → Fin (tcTables nBuf tb) → BufTy
  | .hbm, ⟨0, _⟩ => ⟨S8192x2048, .f32⟩
  | .hbm, ⟨1, _⟩ => ⟨S8192x2, .i32⟩
  | .hbm, ⟨2, _⟩ => ⟨S8192x2, .f32⟩
  | .hbm, ⟨3, _⟩ => ⟨S8x2048x2816, .f32⟩
  | .hbm, ⟨4, _⟩ => ⟨S8x1408x2048, .f32⟩
  | .hbm, ⟨5, _⟩ => ⟨S8, .i32⟩
  | .hbm, ⟨6, _⟩ => ⟨S8192x2x1, .i32⟩
  | .hbm, ⟨7, _⟩ => ⟨S1x1x8, .i32⟩
  | .hbm, ⟨8, _⟩ => ⟨S8192x2x8, .i32⟩
  | .hbm, ⟨9, _⟩ => ⟨S8192x2x8, .i32⟩
  | .hbm, ⟨10, _⟩ => ⟨S8192x2x8, .i1⟩
  | .hbm, ⟨11, _⟩ => ⟨S8192x2x1, .f32⟩
  | .hbm, ⟨12, _⟩ => ⟨S8192x2x8, .f32⟩
  | .hbm, ⟨13, _⟩ => ⟨S8192x2x8, .f32⟩
  | .hbm, ⟨14, _⟩ => ⟨S8192x2x8, .f32⟩
  | .hbm, ⟨15, _⟩ => ⟨S_, .f32⟩
  | .hbm, ⟨16, _⟩ => ⟨S8192x8, .f32⟩
  | .hbm, ⟨17, _⟩ => ⟨S8192x2048, .bf16⟩
  | .hbm, ⟨18, _⟩ => ⟨S8x2048x2816, .bf16⟩
  | .hbm, ⟨19, _⟩ => ⟨S8x1408x2048, .bf16⟩
  | .hbm, ⟨20, _⟩ => ⟨S_, .f32⟩
  | .hbm, ⟨21, _⟩ => ⟨S8192x2048, .f32⟩
  | .hbm, ⟨22, _⟩ => ⟨S8192x1, .f32⟩
  | .hbm, ⟨23, _⟩ => ⟨S1x2048x2816, .bf16⟩
  | .hbm, ⟨24, _⟩ => ⟨S2048x2816, .bf16⟩
  | .hbm, ⟨25, _⟩ => ⟨S1x1408x2048, .bf16⟩
  | .hbm, ⟨26, _⟩ => ⟨S1408x2048, .bf16⟩
  | .hbm, ⟨27, _⟩ => ⟨S8192x2048, .f32⟩
  | .hbm, ⟨28, _⟩ => ⟨S8192x1, .f32⟩
  | .hbm, ⟨29, _⟩ => ⟨S1x2048x2816, .bf16⟩
  | .hbm, ⟨30, _⟩ => ⟨S2048x2816, .bf16⟩
  | .hbm, ⟨31, _⟩ => ⟨S1x1408x2048, .bf16⟩
  | .hbm, ⟨32, _⟩ => ⟨S1408x2048, .bf16⟩
  | .hbm, ⟨33, _⟩ => ⟨S8192x2048, .f32⟩
  | .hbm, ⟨34, _⟩ => ⟨S8192x1, .f32⟩
  | .hbm, ⟨35, _⟩ => ⟨S1x2048x2816, .bf16⟩
  | .hbm, ⟨36, _⟩ => ⟨S2048x2816, .bf16⟩
  | .hbm, ⟨37, _⟩ => ⟨S1x1408x2048, .bf16⟩
  | .hbm, ⟨38, _⟩ => ⟨S1408x2048, .bf16⟩
  | .hbm, ⟨39, _⟩ => ⟨S8192x2048, .f32⟩
  | .hbm, ⟨40, _⟩ => ⟨S8192x1, .f32⟩
  | .hbm, ⟨41, _⟩ => ⟨S1x2048x2816, .bf16⟩
  | .hbm, ⟨42, _⟩ => ⟨S2048x2816, .bf16⟩
  | .hbm, ⟨43, _⟩ => ⟨S1x1408x2048, .bf16⟩
  | .hbm, ⟨44, _⟩ => ⟨S1408x2048, .bf16⟩
  | .hbm, ⟨45, _⟩ => ⟨S8192x2048, .f32⟩
  | .hbm, ⟨46, _⟩ => ⟨S8192x1, .f32⟩
  | .hbm, ⟨47, _⟩ => ⟨S1x2048x2816, .bf16⟩
  | .hbm, ⟨48, _⟩ => ⟨S2048x2816, .bf16⟩
  | .hbm, ⟨49, _⟩ => ⟨S1x1408x2048, .bf16⟩
  | .hbm, ⟨50, _⟩ => ⟨S1408x2048, .bf16⟩
  | .hbm, ⟨51, _⟩ => ⟨S8192x2048, .f32⟩
  | .hbm, ⟨52, _⟩ => ⟨S8192x1, .f32⟩
  | .hbm, ⟨53, _⟩ => ⟨S1x2048x2816, .bf16⟩
  | .hbm, ⟨54, _⟩ => ⟨S2048x2816, .bf16⟩
  | .hbm, ⟨55, _⟩ => ⟨S1x1408x2048, .bf16⟩
  | .hbm, ⟨56, _⟩ => ⟨S1408x2048, .bf16⟩
  | .hbm, ⟨57, _⟩ => ⟨S8192x2048, .f32⟩
  | .hbm, ⟨58, _⟩ => ⟨S8192x1, .f32⟩
  | .hbm, ⟨59, _⟩ => ⟨S1x2048x2816, .bf16⟩
  | .hbm, ⟨60, _⟩ => ⟨S2048x2816, .bf16⟩
  | .hbm, ⟨61, _⟩ => ⟨S1x1408x2048, .bf16⟩
  | .hbm, ⟨62, _⟩ => ⟨S1408x2048, .bf16⟩
  | .hbm, ⟨63, _⟩ => ⟨S8192x2048, .f32⟩
  | .hbm, ⟨64, _⟩ => ⟨S8192x1, .f32⟩
  | .hbm, ⟨65, _⟩ => ⟨S1x2048x2816, .bf16⟩
  | .hbm, ⟨66, _⟩ => ⟨S2048x2816, .bf16⟩
  | .hbm, ⟨67, _⟩ => ⟨S1x1408x2048, .bf16⟩
  | .hbm, ⟨68, _⟩ => ⟨S1408x2048, .bf16⟩
  | .hbm, ⟨69, _⟩ => ⟨S8192x2048, .f32⟩
  | .local _ .vmem, ⟨0, _⟩ => ⟨S256x2048, .bf16⟩
  | .local _ .vmem, ⟨1, _⟩ => ⟨S256x2048, .bf16⟩
  | .local _ .vmem, ⟨2, _⟩ => ⟨S2048x2816, .bf16⟩
  | .local _ .vmem, ⟨3, _⟩ => ⟨S1408x2048, .bf16⟩
  | .local _ .vmem, ⟨4, _⟩ => ⟨S256x1, .f32⟩
  | .local _ .vmem, ⟨5, _⟩ => ⟨S256x1, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S2048x2816, .bf16⟩
  | .local _ .vmem, ⟨13, _⟩ => ⟨S1408x2048, .bf16⟩
  | .local _ .vmem, ⟨14, _⟩ => ⟨S256x1, .f32⟩
  | .local _ .vmem, ⟨15, _⟩ => ⟨S256x1, .f32⟩
  | .local _ .vmem, ⟨16, _⟩ => ⟨S256x2048, .f32⟩
  | .local _ .vmem, ⟨17, _⟩ => ⟨S256x2048, .f32⟩
  | .local _ .vmem, ⟨18, _⟩ => ⟨S256x2048, .f32⟩
  | .local _ .vmem, ⟨19, _⟩ => ⟨S256x2048, .f32⟩
  | .local _ .vmem, ⟨20, _⟩ => ⟨S256x2048, .bf16⟩
  | .local _ .vmem, ⟨21, _⟩ => ⟨S256x2048, .bf16⟩
  | .local _ .vmem, ⟨22, _⟩ => ⟨S2048x2816, .bf16⟩
  | .local _ .vmem, ⟨23, _⟩ => ⟨S1408x2048, .bf16⟩
  | .local _ .vmem, ⟨24, _⟩ => ⟨S256x1, .f32⟩
  | .local _ .vmem, ⟨25, _⟩ => ⟨S256x1, .f32⟩
  | .local _ .vmem, ⟨26, _⟩ => ⟨S256x2048, .f32⟩
  | .local _ .vmem, ⟨27, _⟩ => ⟨S256x2048, .f32⟩
  | .local _ .vmem, ⟨28, _⟩ => ⟨S256x2048, .f32⟩
  | .local _ .vmem, ⟨29, _⟩ => ⟨S256x2048, .f32⟩
  | .local _ .vmem, ⟨30, _⟩ => ⟨S256x2048, .bf16⟩
  | .local _ .vmem, ⟨31, _⟩ => ⟨S256x2048, .bf16⟩
  | .local _ .vmem, ⟨32, _⟩ => ⟨S2048x2816, .bf16⟩
  | .local _ .vmem, ⟨33, _⟩ => ⟨S1408x2048, .bf16⟩
  | .local _ .vmem, ⟨34, _⟩ => ⟨S256x1, .f32⟩
  | .local _ .vmem, ⟨35, _⟩ => ⟨S256x1, .f32⟩
  | .local _ .vmem, ⟨36, _⟩ => ⟨S256x2048, .f32⟩
  | .local _ .vmem, ⟨37, _⟩ => ⟨S256x2048, .f32⟩
  | .local _ .vmem, ⟨38, _⟩ => ⟨S256x2048, .f32⟩
  | .local _ .vmem, ⟨39, _⟩ => ⟨S256x2048, .f32⟩
  | .local _ .vmem, ⟨40, _⟩ => ⟨S256x2048, .bf16⟩
  | .local _ .vmem, ⟨41, _⟩ => ⟨S256x2048, .bf16⟩
  | .local _ .vmem, ⟨42, _⟩ => ⟨S2048x2816, .bf16⟩
  | .local _ .vmem, ⟨43, _⟩ => ⟨S1408x2048, .bf16⟩
  | .local _ .vmem, ⟨44, _⟩ => ⟨S256x1, .f32⟩
  | .local _ .vmem, ⟨45, _⟩ => ⟨S256x1, .f32⟩
  | .local _ .vmem, ⟨46, _⟩ => ⟨S256x2048, .f32⟩
  | .local _ .vmem, ⟨47, _⟩ => ⟨S256x2048, .f32⟩
  | .local _ .vmem, ⟨48, _⟩ => ⟨S256x2048, .f32⟩
  | .local _ .vmem, ⟨49, _⟩ => ⟨S256x2048, .f32⟩
  | .local _ .vmem, ⟨50, _⟩ => ⟨S256x2048, .bf16⟩
  | .local _ .vmem, ⟨51, _⟩ => ⟨S256x2048, .bf16⟩
  | .local _ .vmem, ⟨52, _⟩ => ⟨S2048x2816, .bf16⟩
  | .local _ .vmem, ⟨53, _⟩ => ⟨S1408x2048, .bf16⟩
  | .local _ .vmem, ⟨54, _⟩ => ⟨S256x1, .f32⟩
  | .local _ .vmem, ⟨55, _⟩ => ⟨S256x1, .f32⟩
  | .local _ .vmem, ⟨56, _⟩ => ⟨S256x2048, .f32⟩
  | .local _ .vmem, ⟨57, _⟩ => ⟨S256x2048, .f32⟩
  | .local _ .vmem, ⟨58, _⟩ => ⟨S256x2048, .f32⟩
  | .local _ .vmem, ⟨59, _⟩ => ⟨S256x2048, .f32⟩
  | .local _ .vmem, ⟨60, _⟩ => ⟨S256x2048, .bf16⟩
  | .local _ .vmem, ⟨61, _⟩ => ⟨S256x2048, .bf16⟩
  | .local _ .vmem, ⟨62, _⟩ => ⟨S2048x2816, .bf16⟩
  | .local _ .vmem, ⟨63, _⟩ => ⟨S1408x2048, .bf16⟩
  | .local _ .vmem, ⟨64, _⟩ => ⟨S256x1, .f32⟩
  | .local _ .vmem, ⟨65, _⟩ => ⟨S256x1, .f32⟩
  | .local _ .vmem, ⟨66, _⟩ => ⟨S256x2048, .f32⟩
  | .local _ .vmem, ⟨67, _⟩ => ⟨S256x2048, .f32⟩
  | .local _ .vmem, ⟨68, _⟩ => ⟨S256x2048, .f32⟩
  | .local _ .vmem, ⟨69, _⟩ => ⟨S256x2048, .f32⟩
  | .local _ .vmem, ⟨70, _⟩ => ⟨S256x2048, .bf16⟩
  | .local _ .vmem, ⟨71, _⟩ => ⟨S256x2048, .bf16⟩
  | .local _ .vmem, ⟨72, _⟩ => ⟨S2048x2816, .bf16⟩
  | .local _ .vmem, ⟨73, _⟩ => ⟨S1408x2048, .bf16⟩
  | .local _ .vmem, ⟨74, _⟩ => ⟨S256x1, .f32⟩
  | .local _ .vmem, ⟨75, _⟩ => ⟨S256x1, .f32⟩
  | .local _ .vmem, ⟨76, _⟩ => ⟨S256x2048, .f32⟩
  | .local _ .vmem, ⟨77, _⟩ => ⟨S256x2048, .f32⟩
  | .local _ .vmem, ⟨78, _⟩ => ⟨S256x2048, .f32⟩
  | .local _ .vmem, ⟨79, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | _, _ => false

abbrev semScoped : Fin 0 → Bool
  | ⟨_, h⟩ => absurd h (Nat.not_lt_zero _)

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  ofTc nBuf bufTy 0 80 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg5_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg3_1 : Ref sig .tc := ⟨.vmem, 35, rfl⟩
abbrev cc3_stg4_0 : Ref sig .tc := ⟨.vmem, 36, rfl⟩
abbrev cc3_stg4_1 : Ref sig .tc := ⟨.vmem, 37, rfl⟩
abbrev cc3_stg5_0 : Ref sig .tc := ⟨.vmem, 38, rfl⟩
abbrev cc3_stg5_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg2_0 : Ref sig .tc := ⟨.vmem, 43, rfl⟩
abbrev cc4_stg3_0 : Ref sig .tc := ⟨.vmem, 44, rfl⟩
abbrev cc4_stg3_1 : Ref sig .tc := ⟨.vmem, 45, rfl⟩
abbrev cc4_stg4_0 : Ref sig .tc := ⟨.vmem, 46, rfl⟩
abbrev cc4_stg4_1 : Ref sig .tc := ⟨.vmem, 47, rfl⟩
abbrev cc4_stg5_0 : Ref sig .tc := ⟨.vmem, 48, rfl⟩
abbrev cc4_stg5_1 : Ref sig .tc := ⟨.vmem, 49, rfl⟩
abbrev cc5_stg0_0 : Ref sig .tc := ⟨.vmem, 50, rfl⟩
abbrev cc5_stg0_1 : Ref sig .tc := ⟨.vmem, 51, rfl⟩
abbrev cc5_stg1_0 : Ref sig .tc := ⟨.vmem, 52, rfl⟩
abbrev cc5_stg2_0 : Ref sig .tc := ⟨.vmem, 53, rfl⟩
abbrev cc5_stg3_0 : Ref sig .tc := ⟨.vmem, 54, rfl⟩
abbrev cc5_stg3_1 : Ref sig .tc := ⟨.vmem, 55, rfl⟩
abbrev cc5_stg4_0 : Ref sig .tc := ⟨.vmem, 56, rfl⟩
abbrev cc5_stg4_1 : Ref sig .tc := ⟨.vmem, 57, rfl⟩
abbrev cc5_stg5_0 : Ref sig .tc := ⟨.vmem, 58, rfl⟩
abbrev cc5_stg5_1 : Ref sig .tc := ⟨.vmem, 59, rfl⟩
abbrev cc6_stg0_0 : Ref sig .tc := ⟨.vmem, 60, rfl⟩
abbrev cc6_stg0_1 : Ref sig .tc := ⟨.vmem, 61, rfl⟩
abbrev cc6_stg1_0 : Ref sig .tc := ⟨.vmem, 62, rfl⟩
abbrev cc6_stg2_0 : Ref sig .tc := ⟨.vmem, 63, rfl⟩
abbrev cc6_stg3_0 : Ref sig .tc := ⟨.vmem, 64, rfl⟩
abbrev cc6_stg3_1 : Ref sig .tc := ⟨.vmem, 65, rfl⟩
abbrev cc6_stg4_0 : Ref sig .tc := ⟨.vmem, 66, rfl⟩
abbrev cc6_stg4_1 : Ref sig .tc := ⟨.vmem, 67, rfl⟩
abbrev cc6_stg5_0 : Ref sig .tc := ⟨.vmem, 68, rfl⟩
abbrev cc6_stg5_1 : Ref sig .tc := ⟨.vmem, 69, rfl⟩
abbrev cc7_stg0_0 : Ref sig .tc := ⟨.vmem, 70, rfl⟩
abbrev cc7_stg0_1 : Ref sig .tc := ⟨.vmem, 71, rfl⟩
abbrev cc7_stg1_0 : Ref sig .tc := ⟨.vmem, 72, rfl⟩
abbrev cc7_stg2_0 : Ref sig .tc := ⟨.vmem, 73, rfl⟩
abbrev cc7_stg3_0 : Ref sig .tc := ⟨.vmem, 74, rfl⟩
abbrev cc7_stg3_1 : Ref sig .tc := ⟨.vmem, 75, rfl⟩
abbrev cc7_stg4_0 : Ref sig .tc := ⟨.vmem, 76, rfl⟩
abbrev cc7_stg4_1 : Ref sig .tc := ⟨.vmem, 77, rfl⟩
abbrev cc7_stg5_0 : Ref sig .tc := ⟨.vmem, 78, rfl⟩
abbrev cc7_stg5_1 : Ref sig .tc := ⟨.vmem, 79, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem3_1 : DmaSem sig := 25
abbrev cc2_sem4_0 : DmaSem sig := 26
abbrev cc2_sem4_1 : DmaSem sig := 27
abbrev cc2_sem5_0 : DmaSem sig := 28
abbrev cc2_sem5_1 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem3_1 : DmaSem sig := 35
abbrev cc3_sem4_0 : DmaSem sig := 36
abbrev cc3_sem4_1 : DmaSem sig := 37
abbrev cc3_sem5_0 : DmaSem sig := 38
abbrev cc3_sem5_1 : DmaSem sig := 39
abbrev cc4_sem0_0 : DmaSem sig := 40
abbrev cc4_sem0_1 : DmaSem sig := 41
abbrev cc4_sem1_0 : DmaSem sig := 42
abbrev cc4_sem2_0 : DmaSem sig := 43
abbrev cc4_sem3_0 : DmaSem sig := 44
abbrev cc4_sem3_1 : DmaSem sig := 45
abbrev cc4_sem4_0 : DmaSem sig := 46
abbrev cc4_sem4_1 : DmaSem sig := 47
abbrev cc4_sem5_0 : DmaSem sig := 48
abbrev cc4_sem5_1 : DmaSem sig := 49
abbrev cc5_sem0_0 : DmaSem sig := 50
abbrev cc5_sem0_1 : DmaSem sig := 51
abbrev cc5_sem1_0 : DmaSem sig := 52
abbrev cc5_sem2_0 : DmaSem sig := 53
abbrev cc5_sem3_0 : DmaSem sig := 54
abbrev cc5_sem3_1 : DmaSem sig := 55
abbrev cc5_sem4_0 : DmaSem sig := 56
abbrev cc5_sem4_1 : DmaSem sig := 57
abbrev cc5_sem5_0 : DmaSem sig := 58
abbrev cc5_sem5_1 : DmaSem sig := 59
abbrev cc6_sem0_0 : DmaSem sig := 60
abbrev cc6_sem0_1 : DmaSem sig := 61
abbrev cc6_sem1_0 : DmaSem sig := 62
abbrev cc6_sem2_0 : DmaSem sig := 63
abbrev cc6_sem3_0 : DmaSem sig := 64
abbrev cc6_sem3_1 : DmaSem sig := 65
abbrev cc6_sem4_0 : DmaSem sig := 66
abbrev cc6_sem4_1 : DmaSem sig := 67
abbrev cc6_sem5_0 : DmaSem sig := 68
abbrev cc6_sem5_1 : DmaSem sig := 69
abbrev cc7_sem0_0 : DmaSem sig := 70
abbrev cc7_sem0_1 : DmaSem sig := 71
abbrev cc7_sem1_0 : DmaSem sig := 72
abbrev cc7_sem2_0 : DmaSem sig := 73
abbrev cc7_sem3_0 : DmaSem sig := 74
abbrev cc7_sem3_1 : DmaSem sig := 75
abbrev cc7_sem4_0 : DmaSem sig := 76
abbrev cc7_sem4_1 : DmaSem sig := 77
abbrev cc7_sem5_0 : DmaSem sig := 78
abbrev cc7_sem5_1 : DmaSem sig := 79

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1408x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2816 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1408x2048 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2048x2816 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1408x2048 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S256x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S256x2048 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S256x2048 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S2048x2816 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1408x2048 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S256x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S256x2048 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S256x2048 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![32], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S256x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S2048x2816 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1408x2048 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S256x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S256x2048 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S256x2048 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![32], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S256x2048 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S2048x2816 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1408x2048 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S256x1 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S256x2048 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S256x2048 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![32], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S256x2048 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S2048x2816 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1408x2048 .bf16 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S256x1 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S256x2048 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S256x2048 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![32], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S256x2048 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S2048x2816 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1408x2048 .bf16 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S256x1 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S256x2048 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 2 → Memref sig .tc .vmem S256x2048 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

class Facts₀ : Prop where
  bcast_S8192x2_S8192x2x1_0_1 : S8192x2.BroadcastsInDim S8192x2x1 (![0, 1] : Fin 2 → Fin S8192x2x1.rank)
  bcast_S8_S1x1x8_2 : S8.BroadcastsInDim S1x1x8 (![2] : Fin 1 → Fin S1x1x8.rank)
  bcast_S8192x2x1_S8192x2x8_0_1_2 : S8192x2x1.BroadcastsInDim S8192x2x8 (![0, 1, 2] : Fin 3 → Fin S8192x2x8.rank)
  bcast_S1x1x8_S8192x2x8_0_1_2 : S1x1x8.BroadcastsInDim S8192x2x8 (![0, 1, 2] : Fin 3 → Fin S8192x2x8.rank)
  reducesTo_S8192x2x8_S8192x8_d1 : S8192x2x8.ReducesTo [1] S8192x8
  h_S_ : 0 < S_.numel
  bitsLt_bf16_f32 : FTy.bits .bf16 < FTy.bits .f32
  bcast_S_S8192x2048 : S_.BroadcastsInDim S8192x2048 (![] : Fin 0 → Fin S8192x2048.rank)
  slices_S8192x8_S8192x1_0_0 : S8192x8.Slices ![0, 0] S8192x1
  slices_S8x2048x2816_S1x2048x2816_0_0_0 : S8x2048x2816.Slices ![0, 0, 0] S1x2048x2816
  shapeCasts_S1x2048x2816_S2048x2816 : S1x2048x2816.ShapeCasts S2048x2816
  slices_S8x1408x2048_S1x1408x2048_0_0_0 : S8x1408x2048.Slices ![0, 0, 0] S1x1408x2048
  shapeCasts_S1x1408x2048_S1408x2048 : S1x1408x2048.ShapeCasts S1408x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S2048x2816_S2048x2816_0_0 : ∀ a, (![0, 0] : Fin 2 → Nat) a + S2048x2816.size a ≤ S2048x2816.size a
  h_S2048x2816 : 0 < S2048x2816.numel
  shapeCasts_S2048x2816_S2048x2816 : S2048x2816.ShapeCasts S2048x2816
  slices_S256x2816_o0_0_S256x1408 : S256x2816.Slices ![0, 0] S256x1408
  slices_S256x2816_o0_1408_S256x1408 : S256x2816.Slices ![0, 1408] S256x1408
  inb_S1408x2048_S1408x2048_0_0 : ∀ a, (![0, 0] : Fin 2 → Nat) a + S1408x2048.size a ≤ S1408x2048.size a
  h_S1408x2048 : 0 < S1408x2048.numel
  shapeCasts_S1408x2048_S1408x2048 : S1408x2048.ShapeCasts S1408x2048
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x2048 : S256x1.Broadcasts S256x2048
  slices_S8192x8_S8192x1_0_1 : S8192x8.Slices ![0, 1] S8192x1
  slices_S8x2048x2816_S1x2048x2816_1_0_0 : S8x2048x2816.Slices ![1, 0, 0] S1x2048x2816
  slices_S8x1408x2048_S1x1408x2048_1_0_0 : S8x1408x2048.Slices ![1, 0, 0] S1x1408x2048
  slices_S8192x8_S8192x1_0_2 : S8192x8.Slices ![0, 2] S8192x1
  slices_S8x2048x2816_S1x2048x2816_2_0_0 : S8x2048x2816.Slices ![2, 0, 0] S1x2048x2816
  slices_S8x1408x2048_S1x1408x2048_2_0_0 : S8x1408x2048.Slices ![2, 0, 0] S1x1408x2048
  slices_S8192x8_S8192x1_0_3 : S8192x8.Slices ![0, 3] S8192x1
  slices_S8x2048x2816_S1x2048x2816_3_0_0 : S8x2048x2816.Slices ![3, 0, 0] S1x2048x2816
  slices_S8x1408x2048_S1x1408x2048_3_0_0 : S8x1408x2048.Slices ![3, 0, 0] S1x1408x2048
  slices_S8192x8_S8192x1_0_4 : S8192x8.Slices ![0, 4] S8192x1
  slices_S8x2048x2816_S1x2048x2816_4_0_0 : S8x2048x2816.Slices ![4, 0, 0] S1x2048x2816
  slices_S8x1408x2048_S1x1408x2048_4_0_0 : S8x1408x2048.Slices ![4, 0, 0] S1x1408x2048
  slices_S8192x8_S8192x1_0_5 : S8192x8.Slices ![0, 5] S8192x1
  slices_S8x2048x2816_S1x2048x2816_5_0_0 : S8x2048x2816.Slices ![5, 0, 0] S1x2048x2816
  slices_S8x1408x2048_S1x1408x2048_5_0_0 : S8x1408x2048.Slices ![5, 0, 0] S1x1408x2048
  slices_S8192x8_S8192x1_0_6 : S8192x8.Slices ![0, 6] S8192x1
  slices_S8x2048x2816_S1x2048x2816_6_0_0 : S8x2048x2816.Slices ![6, 0, 0] S1x2048x2816
  slices_S8x1408x2048_S1x1408x2048_6_0_0 : S8x1408x2048.Slices ![6, 0, 0] S1x1408x2048
  slices_S8192x8_S8192x1_0_7 : S8192x8.Slices ![0, 7] S8192x1
  slices_S8x2048x2816_S1x2048x2816_7_0_0 : S8x2048x2816.Slices ![7, 0, 0] S1x2048x2816
  slices_S8x1408x2048_S1x1408x2048_7_0_0 : S8x1408x2048.Slices ![7, 0, 0] S1x1408x2048
  dot_S256x2048_S2048x2816_S256x2816_1_0_0_1_n_n_wf : DotDims.WF S256x2048 S2048x2816 S256x2816 [1] [0] [0] [1] [] []
  dot_S256x1408_S1408x2048_S256x2048_1_0_0_1_n_n_wf : DotDims.WF S256x1408 S1408x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S8192x2048.size a
  hwx0_0 : ∀ i : grid0.Coords, EltTy.bits .bf16 = 32 ∨ (Rect.block (s := S8192x2048) S256x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2816.size a ≤ S2048x2816.size a
  hwx0_1 : ∀ i : grid0.Coords, EltTy.bits .bf16 = 32 ∨ (Rect.block (s := S2048x2816) S2048x2816.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1408x2048.size a ≤ S1408x2048.size a
  hwx0_2 : ∀ i : grid0.Coords, EltTy.bits .bf16 = 32 ∨ (Rect.block (s := S1408x2048) S1408x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S8192x1.size a
  hwx0_3 : ∀ i : grid0.Coords, EltTy.bits .f32 = 32 ∨ (Rect.block (s := S8192x1) S256x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x2048.size a ≤ S8192x2048.size a
  hwx0_4 : ∀ i : grid0.Coords, EltTy.bits .f32 = 32 ∨ (Rect.block (s := S8192x2048) S256x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x2048.size a ≤ S8192x2048.size a
  hwx0_5 : ∀ i : grid0.Coords, EltTy.bits .f32 = 32 ∨ (Rect.block (s := S8192x2048) S256x2048.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x2048.size a ≤ S8192x2048.size a
  hwx1_0 : ∀ i : grid1.Coords, EltTy.bits .bf16 = 32 ∨ (Rect.block (s := S8192x2048) S256x2048.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x2816.size a ≤ S2048x2816.size a
  hwx1_1 : ∀ i : grid1.Coords, EltTy.bits .bf16 = 32 ∨ (Rect.block (s := S2048x2816) S2048x2816.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1408x2048.size a ≤ S1408x2048.size a
  hwx1_2 : ∀ i : grid1.Coords, EltTy.bits .bf16 = 32 ∨ (Rect.block (s := S1408x2048) S1408x2048.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x1.size a ≤ S8192x1.size a
  hwx1_3 : ∀ i : grid1.Coords, EltTy.bits .f32 = 32 ∨ (Rect.block (s := S8192x1) S256x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x2048.size a ≤ S8192x2048.size a
  hwx1_4 : ∀ i : grid1.Coords, EltTy.bits .f32 = 32 ∨ (Rect.block (s := S8192x2048) S256x2048.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x2048.size a ≤ S8192x2048.size a
  hwx1_5 : ∀ i : grid1.Coords, EltTy.bits .f32 = 32 ∨ (Rect.block (s := S8192x2048) S256x2048.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x2048.size a ≤ S8192x2048.size a
  hwx2_0 : ∀ i : grid2.Coords, EltTy.bits .bf16 = 32 ∨ (Rect.block (s := S8192x2048) S256x2048.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2048x2816.size a ≤ S2048x2816.size a
  hwx2_1 : ∀ i : grid2.Coords, EltTy.bits .bf16 = 32 ∨ (Rect.block (s := S2048x2816) S2048x2816.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1408x2048.size a ≤ S1408x2048.size a
  hwx2_2 : ∀ i : grid2.Coords, EltTy.bits .bf16 = 32 ∨ (Rect.block (s := S1408x2048) S1408x2048.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x1.size a ≤ S8192x1.size a
  hwx2_3 : ∀ i : grid2.Coords, EltTy.bits .f32 = 32 ∨ (Rect.block (s := S8192x1) S256x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S256x2048.size a ≤ S8192x2048.size a
  hwx2_4 : ∀ i : grid2.Coords, EltTy.bits .f32 = 32 ∨ (Rect.block (s := S8192x2048) S256x2048.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S256x2048.size a ≤ S8192x2048.size a
  hwx2_5 : ∀ i : grid2.Coords, EltTy.bits .f32 = 32 ∨ (Rect.block (s := S8192x2048) S256x2048.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x2048.size a ≤ S8192x2048.size a
  hwx3_0 : ∀ i : grid3.Coords, EltTy.bits .bf16 = 32 ∨ (Rect.block (s := S8192x2048) S256x2048.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S2048x2816.size a ≤ S2048x2816.size a
  hwx3_1 : ∀ i : grid3.Coords, EltTy.bits .bf16 = 32 ∨ (Rect.block (s := S2048x2816) S2048x2816.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1408x2048.size a ≤ S1408x2048.size a
  hwx3_2 : ∀ i : grid3.Coords, EltTy.bits .bf16 = 32 ∨ (Rect.block (s := S1408x2048) S1408x2048.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S256x1.size a ≤ S8192x1.size a
  hwx3_3 : ∀ i : grid3.Coords, EltTy.bits .f32 = 32 ∨ (Rect.block (s := S8192x1) S256x1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S256x2048.size a ≤ S8192x2048.size a
  hwx3_4 : ∀ i : grid3.Coords, EltTy.bits .f32 = 32 ∨ (Rect.block (s := S8192x2048) S256x2048.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S256x2048.size a ≤ S8192x2048.size a
  hwx3_5 : ∀ i : grid3.Coords, EltTy.bits .f32 = 32 ∨ (Rect.block (s := S8192x2048) S256x2048.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S256x2048.size a ≤ S8192x2048.size a
  hwx4_0 : ∀ i : grid4.Coords, EltTy.bits .bf16 = 32 ∨ (Rect.block (s := S8192x2048) S256x2048.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S2048x2816.size a ≤ S2048x2816.size a
  hwx4_1 : ∀ i : grid4.Coords, EltTy.bits .bf16 = 32 ∨ (Rect.block (s := S2048x2816) S2048x2816.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1408x2048.size a ≤ S1408x2048.size a
  hwx4_2 : ∀ i : grid4.Coords, EltTy.bits .bf16 = 32 ∨ (Rect.block (s := S1408x2048) S1408x2048.size (cc4_transform_2 i) (hinb4_2 i)).WholeWords (EltTy.packing .bf16)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S256x1.size a ≤ S8192x1.size a
  hwx4_3 : ∀ i : grid4.Coords, EltTy.bits .f32 = 32 ∨ (Rect.block (s := S8192x1) S256x1.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S256x2048.size a ≤ S8192x2048.size a
  hwx4_4 : ∀ i : grid4.Coords, EltTy.bits .f32 = 32 ∨ (Rect.block (s := S8192x2048) S256x2048.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S256x2048.size a ≤ S8192x2048.size a
  hwx4_5 : ∀ i : grid4.Coords, EltTy.bits .f32 = 32 ∨ (Rect.block (s := S8192x2048) S256x2048.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S256x2048.size a ≤ S8192x2048.size a
  hwx5_0 : ∀ i : grid5.Coords, EltTy.bits .bf16 = 32 ∨ (Rect.block (s := S8192x2048) S256x2048.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S2048x2816.size a ≤ S2048x2816.size a
  hwx5_1 : ∀ i : grid5.Coords, EltTy.bits .bf16 = 32 ∨ (Rect.block (s := S2048x2816) S2048x2816.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1408x2048.size a ≤ S1408x2048.size a
  hwx5_2 : ∀ i : grid5.Coords, EltTy.bits .bf16 = 32 ∨ (Rect.block (s := S1408x2048) S1408x2048.size (cc5_transform_2 i) (hinb5_2 i)).WholeWords (EltTy.packing .bf16)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S256x1.size a ≤ S8192x1.size a
  hwx5_3 : ∀ i : grid5.Coords, EltTy.bits .f32 = 32 ∨ (Rect.block (s := S8192x1) S256x1.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S256x2048.size a ≤ S8192x2048.size a
  hwx5_4 : ∀ i : grid5.Coords, EltTy.bits .f32 = 32 ∨ (Rect.block (s := S8192x2048) S256x2048.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S256x2048.size a ≤ S8192x2048.size a
  hwx5_5 : ∀ i : grid5.Coords, EltTy.bits .f32 = 32 ∨ (Rect.block (s := S8192x2048) S256x2048.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S256x2048.size a ≤ S8192x2048.size a
  hwx6_0 : ∀ i : grid6.Coords, EltTy.bits .bf16 = 32 ∨ (Rect.block (s := S8192x2048) S256x2048.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S2048x2816.size a ≤ S2048x2816.size a
  hwx6_1 : ∀ i : grid6.Coords, EltTy.bits .bf16 = 32 ∨ (Rect.block (s := S2048x2816) S2048x2816.size (cc6_transform_1 i) (hinb6_1 i)).WholeWords (EltTy.packing .bf16)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1408x2048.size a ≤ S1408x2048.size a
  hwx6_2 : ∀ i : grid6.Coords, EltTy.bits .bf16 = 32 ∨ (Rect.block (s := S1408x2048) S1408x2048.size (cc6_transform_2 i) (hinb6_2 i)).WholeWords (EltTy.packing .bf16)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S256x1.size a ≤ S8192x1.size a
  hwx6_3 : ∀ i : grid6.Coords, EltTy.bits .f32 = 32 ∨ (Rect.block (s := S8192x1) S256x1.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S256x2048.size a ≤ S8192x2048.size a
  hwx6_4 : ∀ i : grid6.Coords, EltTy.bits .f32 = 32 ∨ (Rect.block (s := S8192x2048) S256x2048.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S256x2048.size a ≤ S8192x2048.size a
  hwx6_5 : ∀ i : grid6.Coords, EltTy.bits .f32 = 32 ∨ (Rect.block (s := S8192x2048) S256x2048.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S256x2048.size a ≤ S8192x2048.size a
  hwx7_0 : ∀ i : grid7.Coords, EltTy.bits .bf16 = 32 ∨ (Rect.block (s := S8192x2048) S256x2048.size (cc7_transform_0 i) (hinb7_0 i)).WholeWords (EltTy.packing .bf16)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S2048x2816.size a ≤ S2048x2816.size a
  hwx7_1 : ∀ i : grid7.Coords, EltTy.bits .bf16 = 32 ∨ (Rect.block (s := S2048x2816) S2048x2816.size (cc7_transform_1 i) (hinb7_1 i)).WholeWords (EltTy.packing .bf16)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1408x2048.size a ≤ S1408x2048.size a
  hwx7_2 : ∀ i : grid7.Coords, EltTy.bits .bf16 = 32 ∨ (Rect.block (s := S1408x2048) S1408x2048.size (cc7_transform_2 i) (hinb7_2 i)).WholeWords (EltTy.packing .bf16)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S256x1.size a ≤ S8192x1.size a
  hwx7_3 : ∀ i : grid7.Coords, EltTy.bits .f32 = 32 ∨ (Rect.block (s := S8192x1) S256x1.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S256x2048.size a ≤ S8192x2048.size a
  hwx7_4 : ∀ i : grid7.Coords, EltTy.bits .f32 = 32 ∨ (Rect.block (s := S8192x2048) S256x2048.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S256x2048.size a ≤ S8192x2048.size a
  hwx7_5 : ∀ i : grid7.Coords, EltTy.bits .f32 = 32 ∨ (Rect.block (s := S8192x2048) S256x2048.size (cc7_transform_5 i) (hinb7_5 i)).WholeWords (EltTy.packing .f32)

variable [Facts₀]

def dot_S256x2048_S2048x2816_S256x2816_1_0_0_1_n_n : DotDims S256x2048 S2048x2816 S256x2816 where
  lhsContracting := [1]
  rhsContracting := [0]
  lhsNonContracting := [0]
  rhsNonContracting := [1]
  lhsBatch := []
  rhsBatch := []
  wf := dot_S256x2048_S2048x2816_S256x2816_1_0_0_1_n_n_wf
def dot_S256x1408_S1408x2048_S256x2048_1_0_0_1_n_n : DotDims S256x1408 S1408x2048 S256x2048 where
  lhsContracting := [1]
  rhsContracting := [0]
  lhsNonContracting := [0]
  rhsNonContracting := [1]
  lhsBatch := []
  rhsBatch := []
  wf := dot_S256x1408_S1408x2048_S256x2048_1_0_0_1_n_n_wf

abbrev win0_0 : Pipeline.Window sig grid0 :=
  Pipeline.Window.ofSpec (Memref.whole main_v11) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S2048x2816.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1408x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S256x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14) S256x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v20) S256x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v11) S256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S2048x2816.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v25) S1408x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21) S256x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v20) S256x2048.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v26) S256x2048.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v11) S256x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S2048x2816.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v31) S1408x2048.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v27) S256x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v26) S256x2048.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v32) S256x2048.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v11) S256x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v35) S2048x2816.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v37) S1408x2048.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v33) S256x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v32) S256x2048.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v38) S256x2048.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v11) S256x2048.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v41) S2048x2816.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v43) S1408x2048.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v39) S256x1.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v38) S256x2048.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v44) S256x2048.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v11) S256x2048.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v47) S2048x2816.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v49) S1408x2048.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v45) S256x1.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v44) S256x2048.size cc5_transform_4 reads5_4 false false 2 stage5_4 sem5_4
    hrank5 hreads5_4 hinb5_4 nbuf5_4 (Memref.isWhole_whole _) hwx5_4 hstage5_4

abbrev win5_5 : Pipeline.Window sig grid5 :=
  Pipeline.Window.ofSpec (Memref.whole main_v50) S256x2048.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v11) S256x2048.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v53) S2048x2816.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v55) S1408x2048.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v51) S256x1.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_v50) S256x2048.size cc6_transform_4 reads6_4 false false 2 stage6_4 sem6_4
    hrank6 hreads6_4 hinb6_4 nbuf6_4 (Memref.isWhole_whole _) hwx6_4 hstage6_4

abbrev win6_5 : Pipeline.Window sig grid6 :=
  Pipeline.Window.ofSpec (Memref.whole main_v56) S256x2048.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v11) S256x2048.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v59) S2048x2816.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v61) S1408x2048.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v57) S256x1.size cc7_transform_3 reads7_3 false false 2 stage7_3 sem7_3
    hrank7 hreads7_3 hinb7_3 nbuf7_3 (Memref.isWhole_whole _) hwx7_3 hstage7_3

abbrev win7_4 : Pipeline.Window sig grid7 :=
  Pipeline.Window.ofSpec (Memref.whole main_v56) S256x2048.size cc7_transform_4 reads7_4 false false 2 stage7_4 sem7_4
    hrank7 hreads7_4 hinb7_4 nbuf7_4 (Memref.isWhole_whole _) hwx7_4 hstage7_4

abbrev win7_5 : Pipeline.Window sig grid7 :=
  Pipeline.Window.ofSpec (Memref.whole main_v62) S256x2048.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

class Facts : Prop extends Facts₀ where
  halias0_5 : Pipeline.Aliased win0 4 5
  halias1_5 : Pipeline.Aliased win1 4 5
  halias2_5 : Pipeline.Aliased win2 4 5
  halias3_5 : Pipeline.Aliased win3 4 5
  halias4_5 : Pipeline.Aliased win4 4 5
  halias5_5 : Pipeline.Aliased win5 4 5
  halias6_5 : Pipeline.Aliased win6 4 5
  halias7_5 : Pipeline.Aliased win7 4 5

variable [Facts]
-- ==== ReferenceIdeal.lean ====
abbrev S8192x2048 : Shape := ⟨2, ![8192, 2048]⟩
abbrev S8192x2 : Shape := ⟨2, ![8192, 2]⟩
abbrev S8x2048x2816 : Shape := ⟨3, ![8, 2048, 2816]⟩
abbrev S8x1408x2048 : Shape := ⟨3, ![8, 1408, 2048]⟩
abbrev S_ : Shape := ⟨0, ![]⟩
abbrev S8192 : Shape := ⟨1, ![8192]⟩
abbrev S1x2048x2816 : Shape := ⟨3, ![1, 2048, 2816]⟩
abbrev S2048x2816 : Shape := ⟨2, ![2048, 2816]⟩
abbrev S8192x2816 : Shape := ⟨2, ![8192, 2816]⟩
abbrev S8192x1408 : Shape := ⟨2, ![8192, 1408]⟩
abbrev S1x1408x2048 : Shape := ⟨3, ![1, 1408, 2048]⟩
abbrev S1408x2048 : Shape := ⟨2, ![1408, 2048]⟩
abbrev S8192x1 : Shape := ⟨2, ![8192, 1]⟩

abbrev nBuf : Space → Nat
  | .hbm => 239
  | .vmem => 0
  | .smem => 0
  | _ => 0

abbrev hbmTy0_0 (i : Nat) : BufTy := match i % 128 with
  | 0 => ⟨S8192x2048, .f32⟩
  | 1 => ⟨S8192x2, .i32⟩
  | 2 => ⟨S8192x2, .f32⟩
  | 3 => ⟨S8x2048x2816, .f32⟩
  | 4 => ⟨S8x1408x2048, .f32⟩
  | 5 => ⟨S_, .f32⟩
  | 6 => ⟨S8192x2048, .f32⟩
  | 7 => ⟨S_, .i32⟩
  | 8 => ⟨S8192x2, .i32⟩
  | 9 => ⟨S8192x2, .i1⟩
  | 10 => ⟨S8192x2, .f32⟩
  | 11 => ⟨S8192x2, .f32⟩
  | 12 => ⟨S_, .f32⟩
  | 13 => ⟨S8192, .f32⟩
  | 14 => ⟨S1x2048x2816, .f32⟩
  | 15 => ⟨S2048x2816, .f32⟩
  | 16 => ⟨S8192x2816, .f32⟩
  | 17 => ⟨S8192x1408, .f32⟩
  | 18 => ⟨S8192x1408, .f32⟩
  | 19 => ⟨S8192x1408, .f32⟩
  | 20 => ⟨S8192x1408, .f32⟩
  | 21 => ⟨S_, .f32⟩
  | 22 => ⟨S8192x1408, .f32⟩
  | 23 => ⟨S8192x1408, .f32⟩
  | 24 => ⟨S_, .f32⟩
  | 25 => ⟨S8192x1408, .f32⟩
  | 26 => ⟨S8192x1408, .f32⟩
  | 27 => ⟨S8192x1408, .f32⟩
  | 28 => ⟨S8192x1408, .f32⟩
  | 29 => ⟨S1x1408x2048, .f32⟩
  | 30 => ⟨S1408x2048, .f32⟩
  | 31 => ⟨S8192x2048, .f32⟩
  | 32 => ⟨S8192x1, .f32⟩
  | 33 => ⟨S8192x2048, .f32⟩
  | 34 => ⟨S8192x2048, .f32⟩
  | 35 => ⟨S8192x2048, .f32⟩
  | 36 => ⟨S_, .i32⟩
  | 37 => ⟨S8192x2, .i32⟩
  | 38 => ⟨S8192x2, .i1⟩
  | 39 => ⟨S8192x2, .f32⟩
  | 40 => ⟨S8192x2, .f32⟩
  | 41 => ⟨S_, .f32⟩
  | 42 => ⟨S8192, .f32⟩
  | 43 => ⟨S1x2048x2816, .f32⟩
  | 44 => ⟨S2048x2816, .f32⟩
  | 45 => ⟨S8192x2816, .f32⟩
  | 46 => ⟨S8192x1408, .f32⟩
  | 47 => ⟨S8192x1408, .f32⟩
  | 48 => ⟨S8192x1408, .f32⟩
  | 49 => ⟨S8192x1408, .f32⟩
  | 50 => ⟨S_, .f32⟩
  | 51 => ⟨S8192x1408, .f32⟩
  | 52 => ⟨S8192x1408, .f32⟩
  | 53 => ⟨S_, .f32⟩
  | 54 => ⟨S8192x1408, .f32⟩
  | 55 => ⟨S8192x1408, .f32⟩
  | 56 => ⟨S8192x1408, .f32⟩
  | 57 => ⟨S8192x1408, .f32⟩
  | 58 => ⟨S1x1408x2048, .f32⟩
  | 59 => ⟨S1408x2048, .f32⟩
  | 60 => ⟨S8192x2048, .f32⟩
  | 61 => ⟨S8192x1, .f32⟩
  | 62 => ⟨S8192x2048, .f32⟩
  | 63 => ⟨S8192x2048, .f32⟩
  | 64 => ⟨S8192x2048, .f32⟩
  | 65 => ⟨S_, .i32⟩
  | 66 => ⟨S8192x2, .i32⟩
  | 67 => ⟨S8192x2, .i1⟩
  | 68 => ⟨S8192x2, .f32⟩
  | 69 => ⟨S8192x2, .f32⟩
  | 70 => ⟨S_, .f32⟩
  | 71 => ⟨S8192, .f32⟩
  | 72 => ⟨S1x2048x2816, .f32⟩
  | 73 => ⟨S2048x2816, .f32⟩
  | 74 => ⟨S8192x2816, .f32⟩
  | 75 => ⟨S8192x1408, .f32⟩
  | 76 => ⟨S8192x1408, .f32⟩
  | 77 => ⟨S8192x1408, .f32⟩
  | 78 => ⟨S8192x1408, .f32⟩
  | 79 => ⟨S_, .f32⟩
  | 80 => ⟨S8192x1408, .f32⟩
  | 81 => ⟨S8192x1408, .f32⟩
  | 82 => ⟨S_, .f32⟩
  | 83 => ⟨S8192x1408, .f32⟩
  | 84 => ⟨S8192x1408, .f32⟩
  | 85 => ⟨S8192x1408, .f32⟩
  | 86 => ⟨S8192x1408, .f32⟩
  | 87 => ⟨S1x1408x2048, .f32⟩
  | 88 => ⟨S1408x2048, .f32⟩
  | 89 => ⟨S8192x2048, .f32⟩
  | 90 => ⟨S8192x1, .f32⟩
  | 91 => ⟨S8192x2048, .f32⟩
  | 92 => ⟨S8192x2048, .f32⟩
  | 93 => ⟨S8192x2048, .f32⟩
  | 94 => ⟨S_, .i32⟩
  | 95 => ⟨S8192x2, .i32⟩
  | 96 => ⟨S8192x2, .i1⟩
  | 97 => ⟨S8192x2, .f32⟩
  | 98 => ⟨S8192x2, .f32⟩
  | 99 => ⟨S_, .f32⟩
  | 100 => ⟨S8192, .f32⟩
  | 101 => ⟨S1x2048x2816, .f32⟩
  | 102 => ⟨S2048x2816, .f32⟩
  | 103 => ⟨S8192x2816, .f32⟩
  | 104 => ⟨S8192x1408, .f32⟩
  | 105 => ⟨S8192x1408, .f32⟩
  | 106 => ⟨S8192x1408, .f32⟩
  | 107 => ⟨S8192x1408, .f32⟩
  | 108 => ⟨S_, .f32⟩
  | 109 => ⟨S8192x1408, .f32⟩
  | 110 => ⟨S8192x1408, .f32⟩
  | 111 => ⟨S_, .f32⟩
  | 112 => ⟨S8192x1408, .f32⟩
  | 113 => ⟨S8192x1408, .f32⟩
  | 114 => ⟨S8192x1408, .f32⟩
  | 115 => ⟨S8192x1408, .f32⟩
  | 116 => ⟨S1x1408x2048, .f32⟩
  | 117 => ⟨S1408x2048, .f32⟩
  | 118 => ⟨S8192x2048, .f32⟩
  | 119 => ⟨S8192x1, .f32⟩
  | 120 => ⟨S8192x2048, .f32⟩
  | 121 => ⟨S8192x2048, .f32⟩
  | 122 => ⟨S8192x2048, .f32⟩
  | 123 => ⟨S_, .i32⟩
  | 124 => ⟨S8192x2, .i32⟩
  | 125 => ⟨S8192x2, .i1⟩
  | 126 => ⟨S8192x2, .f32⟩
  | 127 => ⟨S8192x2, .f32⟩
  | _ => ⟨S8192x2048, .f32⟩

abbrev hbmTy0_1 (i : Nat) : BufTy := match i % 128 with
  | 0 => ⟨S_, .f32⟩
  | 1 => ⟨S8192, .f32⟩
  | 2 => ⟨S1x2048x2816, .f32⟩
  | 3 => ⟨S2048x2816, .f32⟩
  | 4 => ⟨S8192x2816, .f32⟩
  | 5 => ⟨S8192x1408, .f32⟩
  | 6 => ⟨S8192x1408, .f32⟩
  | 7 => ⟨S8192x1408, .f32⟩
  | 8 => ⟨S8192x1408, .f32⟩
  | 9 => ⟨S_, .f32⟩
  | 10 => ⟨S8192x1408, .f32⟩
  | 11 => ⟨S8192x1408, .f32⟩
  | 12 => ⟨S_, .f32⟩
  | 13 => ⟨S8192x1408, .f32⟩
  | 14 => ⟨S8192x1408, .f32⟩
  | 15 => ⟨S8192x1408, .f32⟩
  | 16 => ⟨S8192x1408, .f32⟩
  | 17 => ⟨S1x1408x2048, .f32⟩
  | 18 => ⟨S1408x2048, .f32⟩
  | 19 => ⟨S8192x2048, .f32⟩
  | 20 => ⟨S8192x1, .f32⟩
  | 21 => ⟨S8192x2048, .f32⟩
  | 22 => ⟨S8192x2048, .f32⟩
  | 23 => ⟨S8192x2048, .f32⟩
  | 24 => ⟨S_, .i32⟩
  | 25 => ⟨S8192x2, .i32⟩
  | 26 => ⟨S8192x2, .i1⟩
  | 27 => ⟨S8192x2, .f32⟩
  | 28 => ⟨S8192x2, .f32⟩
  | 29 => ⟨S_, .f32⟩
  | 30 => ⟨S8192, .f32⟩
  | 31 => ⟨S1x2048x2816, .f32⟩
  | 32 => ⟨S2048x2816, .f32⟩
  | 33 => ⟨S8192x2816, .f32⟩
  | 34 => ⟨S8192x1408, .f32⟩
  | 35 => ⟨S8192x1408, .f32⟩
  | 36 => ⟨S8192x1408, .f32⟩
  | 37 => ⟨S8192x1408, .f32⟩
  | 38 => ⟨S_, .f32⟩
  | 39 => ⟨S8192x1408, .f32⟩
  | 40 => ⟨S8192x1408, .f32⟩
  | 41 => ⟨S_, .f32⟩
  | 42 => ⟨S8192x1408, .f32⟩
  | 43 => ⟨S8192x1408, .f32⟩
  | 44 => ⟨S8192x1408, .f32⟩
  | 45 => ⟨S8192x1408, .f32⟩
  | 46 => ⟨S1x1408x2048, .f32⟩
  | 47 => ⟨S1408x2048, .f32⟩
  | 48 => ⟨S8192x2048, .f32⟩
  | 49 => ⟨S8192x1, .f32⟩
  | 50 => ⟨S8192x2048, .f32⟩
  | 51 => ⟨S8192x2048, .f32⟩
  | 52 => ⟨S8192x2048, .f32⟩
  | 53 => ⟨S_, .i32⟩
  | 54 => ⟨S8192x2, .i32⟩
  | 55 => ⟨S8192x2, .i1⟩
  | 56 => ⟨S8192x2, .f32⟩
  | 57 => ⟨S8192x2, .f32⟩
  | 58 => ⟨S_, .f32⟩
  | 59 => ⟨S8192, .f32⟩
  | 60 => ⟨S1x2048x2816, .f32⟩
  | 61 => ⟨S2048x2816, .f32⟩
  | 62 => ⟨S8192x2816, .f32⟩
  | 63 => ⟨S8192x1408, .f32⟩
  | 64 => ⟨S8192x1408, .f32⟩
  | 65 => ⟨S8192x1408, .f32⟩
  | 66 => ⟨S8192x1408, .f32⟩
  | 67 => ⟨S_, .f32⟩
  | 68 => ⟨S8192x1408, .f32⟩
  | 69 => ⟨S8192x1408, .f32⟩
  | 70 => ⟨S_, .f32⟩
  | 71 => ⟨S8192x1408, .f32⟩
  | 72 => ⟨S8192x1408, .f32⟩
  | 73 => ⟨S8192x1408, .f32⟩
  | 74 => ⟨S8192x1408, .f32⟩
  | 75 => ⟨S1x1408x2048, .f32⟩
  | 76 => ⟨S1408x2048, .f32⟩
  | 77 => ⟨S8192x2048, .f32⟩
  | 78 => ⟨S8192x1, .f32⟩
  | 79 => ⟨S8192x2048, .f32⟩
  | 80 => ⟨S8192x2048, .f32⟩
  | 81 => ⟨S8192x2048, .f32⟩
  | 82 => ⟨S_, .i32⟩
  | 83 => ⟨S8192x2, .i32⟩
  | 84 => ⟨S8192x2, .i1⟩
  | 85 => ⟨S8192x2, .f32⟩
  | 86 => ⟨S8192x2, .f32⟩
  | 87 => ⟨S_, .f32⟩
  | 88 => ⟨S8192, .f32⟩
  | 89 => ⟨S1x2048x2816, .f32⟩
  | 90 => ⟨S2048x2816, .f32⟩
  | 91 => ⟨S8192x2816, .f32⟩
  | 92 => ⟨S8192x1408, .f32⟩
  | 93 => ⟨S8192x1408, .f32⟩
  | 94 => ⟨S8192x1408, .f32⟩
  | 95 => ⟨S8192x1408, .f32⟩
  | 96 => ⟨S_, .f32⟩
  | 97 => ⟨S8192x1408, .f32⟩
  | 98 => ⟨S8192x1408, .f32⟩
  | 99 => ⟨S_, .f32⟩
  | 100 => ⟨S8192x1408, .f32⟩
  | 101 => ⟨S8192x1408, .f32⟩
  | 102 => ⟨S8192x1408, .f32⟩
  | 103 => ⟨S8192x1408, .f32⟩
  | 104 => ⟨S1x1408x2048, .f32⟩
  | 105 => ⟨S1408x2048, .f32⟩
  | 106 => ⟨S8192x2048, .f32⟩
  | 107 => ⟨S8192x1, .f32⟩
  | 108 => ⟨S8192x2048, .f32⟩
  | 109 => ⟨S8192x2048, .f32⟩
  | 110 => ⟨S8192x2048, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_call0_v5 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_1 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_call1_v0 : Ref sig .tc := ⟨.hbm, 48, rfl⟩
abbrev main_call1_v1 : Ref sig .tc := ⟨.hbm, 49, rfl⟩
abbrev main_call1_cst : Ref sig .tc := ⟨.hbm, 50, rfl⟩
abbrev main_call1_v2 : Ref sig .tc := ⟨.hbm, 51, rfl⟩
abbrev main_call1_v3 : Ref sig .tc := ⟨.hbm, 52, rfl⟩
abbrev main_call1_cst_0 : Ref sig .tc := ⟨.hbm, 53, rfl⟩
abbrev main_call1_v4 : Ref sig .tc := ⟨.hbm, 54, rfl⟩
abbrev main_call1_v5 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_c_3 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_4 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_call2_v0 : Ref sig .tc := ⟨.hbm, 77, rfl⟩
abbrev main_call2_v1 : Ref sig .tc := ⟨.hbm, 78, rfl⟩
abbrev main_call2_cst : Ref sig .tc := ⟨.hbm, 79, rfl⟩
abbrev main_call2_v2 : Ref sig .tc := ⟨.hbm, 80, rfl⟩
abbrev main_call2_v3 : Ref sig .tc := ⟨.hbm, 81, rfl⟩
abbrev main_call2_cst_0 : Ref sig .tc := ⟨.hbm, 82, rfl⟩
abbrev main_call2_v4 : Ref sig .tc := ⟨.hbm, 83, rfl⟩
abbrev main_call2_v5 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_c_5 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_cst_6 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_call3_v0 : Ref sig .tc := ⟨.hbm, 106, rfl⟩
abbrev main_call3_v1 : Ref sig .tc := ⟨.hbm, 107, rfl⟩
abbrev main_call3_cst : Ref sig .tc := ⟨.hbm, 108, rfl⟩
abbrev main_call3_v2 : Ref sig .tc := ⟨.hbm, 109, rfl⟩
abbrev main_call3_v3 : Ref sig .tc := ⟨.hbm, 110, rfl⟩
abbrev main_call3_cst_0 : Ref sig .tc := ⟨.hbm, 111, rfl⟩
abbrev main_call3_v4 : Ref sig .tc := ⟨.hbm, 112, rfl⟩
abbrev main_call3_v5 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_c_7 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_cst_8 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_call4_v0 : Ref sig .tc := ⟨.hbm, 135, rfl⟩
abbrev main_call4_v1 : Ref sig .tc := ⟨.hbm, 136, rfl⟩
abbrev main_call4_cst : Ref sig .tc := ⟨.hbm, 137, rfl⟩
abbrev main_call4_v2 : Ref sig .tc := ⟨.hbm, 138, rfl⟩
abbrev main_call4_v3 : Ref sig .tc := ⟨.hbm, 139, rfl⟩
abbrev main_call4_cst_0 : Ref sig .tc := ⟨.hbm, 140, rfl⟩
abbrev main_call4_v4 : Ref sig .tc := ⟨.hbm, 141, rfl⟩
abbrev main_call4_v5 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_c_9 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_cst_10 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_call5_v0 : Ref sig .tc := ⟨.hbm, 164, rfl⟩
abbrev main_call5_v1 : Ref sig .tc := ⟨.hbm, 165, rfl⟩
abbrev main_call5_cst : Ref sig .tc := ⟨.hbm, 166, rfl⟩
abbrev main_call5_v2 : Ref sig .tc := ⟨.hbm, 167, rfl⟩
abbrev main_call5_v3 : Ref sig .tc := ⟨.hbm, 168, rfl⟩
abbrev main_call5_cst_0 : Ref sig .tc := ⟨.hbm, 169, rfl⟩
abbrev main_call5_v4 : Ref sig .tc := ⟨.hbm, 170, rfl⟩
abbrev main_call5_v5 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_v113 : Ref sig .tc := ⟨.hbm, 179, rfl⟩
abbrev main_v114 : Ref sig .tc := ⟨.hbm, 180, rfl⟩
abbrev main_c_11 : Ref sig .tc := ⟨.hbm, 181, rfl⟩
abbrev main_v115 : Ref sig .tc := ⟨.hbm, 182, rfl⟩
abbrev main_v116 : Ref sig .tc := ⟨.hbm, 183, rfl⟩
abbrev main_v117 : Ref sig .tc := ⟨.hbm, 184, rfl⟩
abbrev main_v118 : Ref sig .tc := ⟨.hbm, 185, rfl⟩
abbrev main_cst_12 : Ref sig .tc := ⟨.hbm, 186, rfl⟩
abbrev main_v119 : Ref sig .tc := ⟨.hbm, 187, rfl⟩
abbrev main_v120 : Ref sig .tc := ⟨.hbm, 188, rfl⟩
abbrev main_v121 : Ref sig .tc := ⟨.hbm, 189, rfl⟩
abbrev main_v122 : Ref sig .tc := ⟨.hbm, 190, rfl⟩
abbrev main_v123 : Ref sig .tc := ⟨.hbm, 191, rfl⟩
abbrev main_v124 : Ref sig .tc := ⟨.hbm, 192, rfl⟩
abbrev main_call6_v0 : Ref sig .tc := ⟨.hbm, 193, rfl⟩
abbrev main_call6_v1 : Ref sig .tc := ⟨.hbm, 194, rfl⟩
abbrev main_call6_cst : Ref sig .tc := ⟨.hbm, 195, rfl⟩
abbrev main_call6_v2 : Ref sig .tc := ⟨.hbm, 196, rfl⟩
abbrev main_call6_v3 : Ref sig .tc := ⟨.hbm, 197, rfl⟩
abbrev main_call6_cst_0 : Ref sig .tc := ⟨.hbm, 198, rfl⟩
abbrev main_call6_v4 : Ref sig .tc := ⟨.hbm, 199, rfl⟩
abbrev main_call6_v5 : Ref sig .tc := ⟨.hbm, 200, rfl⟩
abbrev main_v125 : Ref sig .tc := ⟨.hbm, 201, rfl⟩
abbrev main_v126 : Ref sig .tc := ⟨.hbm, 202, rfl⟩
abbrev main_v127 : Ref sig .tc := ⟨.hbm, 203, rfl⟩
abbrev main_v128 : Ref sig .tc := ⟨.hbm, 204, rfl⟩
abbrev main_v129 : Ref sig .tc := ⟨.hbm, 205, rfl⟩
abbrev main_v130 : Ref sig .tc := ⟨.hbm, 206, rfl⟩
abbrev main_v131 : Ref sig .tc := ⟨.hbm, 207, rfl⟩
abbrev main_v132 : Ref sig .tc := ⟨.hbm, 208, rfl⟩
abbrev main_v133 : Ref sig .tc := ⟨.hbm, 209, rfl⟩
abbrev main_c_13 : Ref sig .tc := ⟨.hbm, 210, rfl⟩
abbrev main_v134 : Ref sig .tc := ⟨.hbm, 211, rfl⟩
abbrev main_v135 : Ref sig .tc := ⟨.hbm, 212, rfl⟩
abbrev main_v136 : Ref sig .tc := ⟨.hbm, 213, rfl⟩
abbrev main_v137 : Ref sig .tc := ⟨.hbm, 214, rfl⟩
abbrev main_cst_14 : Ref sig .tc := ⟨.hbm, 215, rfl⟩
abbrev main_v138 : Ref sig .tc := ⟨.hbm, 216, rfl⟩
abbrev main_v139 : Ref sig .tc := ⟨.hbm, 217, rfl⟩
abbrev main_v140 : Ref sig .tc := ⟨.hbm, 218, rfl⟩
abbrev main_v141 : Ref sig .tc := ⟨.hbm, 219, rfl⟩
abbrev main_v142 : Ref sig .tc := ⟨.hbm, 220, rfl⟩
abbrev main_v143 : Ref sig .tc := ⟨.hbm, 221, rfl⟩
abbrev main_call7_v0 : Ref sig .tc := ⟨.hbm, 222, rfl⟩
abbrev main_call7_v1 : Ref sig .tc := ⟨.hbm, 223, rfl⟩
abbrev main_call7_cst : Ref sig .tc := ⟨.hbm, 224, rfl⟩
abbrev main_call7_v2 : Ref sig .tc := ⟨.hbm, 225, rfl⟩
abbrev main_call7_v3 : Ref sig .tc := ⟨.hbm, 226, rfl⟩
abbrev main_call7_cst_0 : Ref sig .tc := ⟨.hbm, 227, rfl⟩
abbrev main_call7_v4 : Ref sig .tc := ⟨.hbm, 228, rfl⟩
abbrev main_call7_v5 : Ref sig .tc := ⟨.hbm, 229, rfl⟩
abbrev main_v144 : Ref sig .tc := ⟨.hbm, 230, rfl⟩
abbrev main_v145 : Ref sig .tc := ⟨.hbm, 231, rfl⟩
abbrev main_v146 : Ref sig .tc := ⟨.hbm, 232, rfl⟩
abbrev main_v147 : Ref sig .tc := ⟨.hbm, 233, rfl⟩
abbrev main_v148 : Ref sig .tc := ⟨.hbm, 234, rfl⟩
abbrev main_v149 : Ref sig .tc := ⟨.hbm, 235, rfl⟩
abbrev main_v150 : Ref sig .tc := ⟨.hbm, 236, rfl⟩
abbrev main_v151 : Ref sig .tc := ⟨.hbm, 237, rfl⟩
abbrev main_v152 : Ref sig .tc := ⟨.hbm, 238, rfl⟩

abbrev nD : Nat := 1
abbrev τ : Topo := Topo.v7x

variable {F : FTy → Type} [FloatOps F]

class Facts₀ : Prop where
  bcast_S_S8192x2048 : S_.BroadcastsInDim S8192x2048 (![] : Fin 0 → Fin S8192x2048.rank)
  bcast_S_S8192x2 : S_.BroadcastsInDim S8192x2 (![] : Fin 0 → Fin S8192x2.rank)
  reducesTo_S8192x2_S8192_d1 : S8192x2.ReducesTo [1] S8192
  h_S_ : 0 < S_.numel
  slices_S8x2048x2816_S1x2048x2816_0_0_0 : S8x2048x2816.Slices ![0, 0, 0] S1x2048x2816
  shapeCasts_S1x2048x2816_S2048x2816 : S1x2048x2816.ShapeCasts S2048x2816
  slices_S8192x2816_S8192x1408_0_0 : S8192x2816.Slices ![0, 0] S8192x1408
  slices_S8192x2816_S8192x1408_0_1408 : S8192x2816.Slices ![0, 1408] S8192x1408
  bcast_S_S8192x1408 : S_.BroadcastsInDim S8192x1408 (![] : Fin 0 → Fin S8192x1408.rank)
  slices_S8x1408x2048_S1x1408x2048_0_0_0 : S8x1408x2048.Slices ![0, 0, 0] S1x1408x2048
  shapeCasts_S1x1408x2048_S1408x2048 : S1x1408x2048.ShapeCasts S1408x2048
  bcast_S8192_S8192x1_0 : S8192.BroadcastsInDim S8192x1 (![0] : Fin 1 → Fin S8192x1.rank)
  bcast_S8192x1_S8192x2048_0_1 : S8192x1.BroadcastsInDim S8192x2048 (![0, 1] : Fin 2 → Fin S8192x2048.rank)
  slices_S8x2048x2816_S1x2048x2816_1_0_0 : S8x2048x2816.Slices ![1, 0, 0] S1x2048x2816
  slices_S8x1408x2048_S1x1408x2048_1_0_0 : S8x1408x2048.Slices ![1, 0, 0] S1x1408x2048
  slices_S8x2048x2816_S1x2048x2816_2_0_0 : S8x2048x2816.Slices ![2, 0, 0] S1x2048x2816
  slices_S8x1408x2048_S1x1408x2048_2_0_0 : S8x1408x2048.Slices ![2, 0, 0] S1x1408x2048
  slices_S8x2048x2816_S1x2048x2816_3_0_0 : S8x2048x2816.Slices ![3, 0, 0] S1x2048x2816
  slices_S8x1408x2048_S1x1408x2048_3_0_0 : S8x1408x2048.Slices ![3, 0, 0] S1x1408x2048
  slices_S8x2048x2816_S1x2048x2816_4_0_0 : S8x2048x2816.Slices ![4, 0, 0] S1x2048x2816
  slices_S8x1408x2048_S1x1408x2048_4_0_0 : S8x1408x2048.Slices ![4, 0, 0] S1x1408x2048
  slices_S8x2048x2816_S1x2048x2816_5_0_0 : S8x2048x2816.Slices ![5, 0, 0] S1x2048x2816
  slices_S8x1408x2048_S1x1408x2048_5_0_0 : S8x1408x2048.Slices ![5, 0, 0] S1x1408x2048
  slices_S8x2048x2816_S1x2048x2816_6_0_0 : S8x2048x2816.Slices ![6, 0, 0] S1x2048x2816
  slices_S8x1408x2048_S1x1408x2048_6_0_0 : S8x1408x2048.Slices ![6, 0, 0] S1x1408x2048
  slices_S8x2048x2816_S1x2048x2816_7_0_0 : S8x2048x2816.Slices ![7, 0, 0] S1x2048x2816
  slices_S8x1408x2048_S1x1408x2048_7_0_0 : S8x1408x2048.Slices ![7, 0, 0] S1x1408x2048
  dot_S8192x2048_S2048x2816_S8192x2816_1_0_0_1_n_n_wf : DotDims.WF S8192x2048 S2048x2816 S8192x2816 [1] [0] [0] [1] [] []
  dot_S8192x1408_S1408x2048_S8192x2048_1_0_0_1_n_n_wf : DotDims.WF S8192x1408 S1408x2048 S8192x2048 [1] [0] [0] [1] [] []

variable [Facts₀]

def dot_S8192x2048_S2048x2816_S8192x2816_1_0_0_1_n_n : DotDims S8192x2048 S2048x2816 S8192x2816 where
  lhsContracting := [1]
  rhsContracting := [0]
  lhsNonContracting := [0]
  rhsNonContracting := [1]
  lhsBatch := []
  rhsBatch := []
  wf := dot_S8192x2048_S2048x2816_S8192x2816_1_0_0_1_n_n_wf
def dot_S8192x1408_S1408x2048_S8192x2048_1_0_0_1_n_n : DotDims S8192x1408 S1408x2048 S8192x2048 where
  lhsContracting := [1]
  rhsContracting := [0]
  lhsNonContracting := [0]
  rhsNonContracting := [1]
  lhsBatch := []
  rhsBatch := []
  wf := dot_S8192x1408_S1408x2048_S8192x2048_1_0_0_1_n_n_wf

class Facts : Prop extends Facts₀ where

variable [Facts]
-- ==== Proof.MoeRun.lean ====
/-
  The idealized kernel program's run with its last boundary named. The program is sixteen segments: eight stretches of
  host operations, each followed by one call of the expert kernel. Every weakly fair execution from a memory with zero
  counters terminates without a fault, and every buffer that outlives the calls ends at the contents of the last
  boundary of the fold through the segments (each stretch's operations applied in order, each call's result array at
  what its write-backs leave, every other buffer carried over). The frame conjunct reads the five argument buffers
  off this; the value conjunct reads the result buffer.
-/
import proofs.«121777_j6605659701457_1_alg».proof.Proof.Gen.KernelIdeal.Frame

set_option maxRecDepth 16384

noncomputable section

namespace Cert.KernelIdeal.MoeRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every buffer that outlives the calls ends at the last boundary's contents. -/
theorem run_last : θ_run defs (onTc (τ := τ) (main (F := F))) ⟨m, fun _ => 0, ρ⟩ (fun r => ∀ c : Dev nD,
      ∀ b ∈ Pipeline.ucRefs τ sig, r.2.mem (((c : Thread nD τ)).1, b) = W16 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c => h c)

/-- The run read at the result buffer and at the five argument buffers. -/
theorem run_result : θ_run defs (onTc (τ := τ) (main (F := F))) ⟨m, fun _ => 0, ρ⟩ (fun r => ∀ c : Dev nD,
      r.2.mem ((c.tc : Thread nD τ).loc main_v62) = W16 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun s h c =>
      ⟨h c _ (mem_uc main_v62 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c)⟩)
    (run_last m ρ)

end Cert.KernelIdeal.MoeRun

end
-- ==== Proof.LibLayoutCols.lean ====
/-
  Layout operations, a row reduction and a matrix product READ AT AN INDEX GIVEN BY COORDINATES, in the forms a
  "keep the reduced axis as a unit column" computation meets and the library's index-by-coordinates lemmas leave out:

  * a vector [a] cast to the column [a, 1], and a column [a, 1] broadcast over [a, b]
    (the row forms [a] -> [1, a] and [1, b] -> [a, b] are the library's shapeCast_a_1a_apply and
    broadcastTo_1b_ab_apply);
  * a matrix reduced along its second axis, at the extended reals: the sum, or the fold of max, over the row;
  * a matrix product [m, k] . [k, n] accumulated into the zero splat, at the extended reals: the sum over the
    contracted coordinate of the products.
  All general in the extents.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LayoutCols

open Idealize.ShloMosaic Idealize.ShloMosaic.ValueIdx

variable {α : Type}

/-! ## A unit column -/

/-- An [a] array cast to the column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A matrix reduced along its second axis, at the extended reals -/

/-- Over a matrix reduced along axis 1, the source index above row r with the coordinate q put back is (r, q). -/
theorem lift_axis1 {a b : ℕ} (h : (⟨2, ![a, b]⟩ : Shape).Reduces [1] ⟨1, ![a]⟩) (r : Fin a) (q : Fin b) :
    h.lift (ix1 r) q = ix2 r q :=
  funext fun c => Fin.ext (by
    match c with
    | ⟨0, _⟩ => rfl
    | ⟨1, _⟩ => rfl)

/-- A sum-reduction of an f32 matrix along axis 1 from the zero pattern reads, at row r, the sum of that row. -/
theorem multiReduction_add_axis1_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (r : Fin a) :
    multiReduction .add [1] ⟨1, ![a]⟩ src 0x00000000#32 h hφ hacc (ix1 r) = ∑ q : Fin b, src (ix2 r q) :=
  (Ideal.multiReduction_add_single src 0x00000000#32 h hφ hacc (ix1 r)).trans
    (Finset.sum_congr rfl fun q _ => congrArg src (lift_axis1 h r q))

/-- The f32 pattern of minus infinity is the bottom of the extended reals. -/
theorem ofBits_neg_inf_f32 : Ideal.ofBits .f32 0xFF800000#32 = ⊥ := by simp [Ideal.ofBits, Ideal.ieee]

/-- A max-reduction of an f32 matrix along axis 1 from the minus-infinity pattern reads, at row r, the fold of max
    from the bottom over that row. -/
theorem multiReduction_maximumf_axis1_apply {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = 0xFF800000#32) (r : Fin a) :
    multiReduction .maximumf [1] ⟨1, ![a]⟩ src 0xFF800000#32 h hφ hacc (ix1 r)
      = (Finset.univ : Finset (Fin b)).fold max ⊥ (fun q => src (ix2 r q)) := by
  refine (Ideal.multiReduction_maximumf_single src 0xFF800000#32 h hφ hacc (ix1 r)).trans ?_
  show (Finset.univ : Finset (Fin b)).fold max (Ideal.ofBits .f32 0xFF800000#32) (src ∘ h.lift (ix1 r)) = _
  rw [ofBits_neg_inf_f32]
  exact congrArg (fun f => (Finset.univ : Finset (Fin b)).fold max ⊥ f) (funext fun q => congrArg src (lift_axis1 h r q))

/-! ## A matrix product into the zero splat, at the extended reals -/

section Plain
variable {m k n : ℕ}

/-- The dimension numbers of a plain matrix product [m, k] . [k, n]: contract the first operand's columns with the
    second's rows, no batch axis. -/
abbrev plainOf (wf : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], wf⟩

variable (wf : DotDims.WF ⟨2, ![m, k]⟩ ⟨2, ![k, n]⟩ ⟨2, ![m, n]⟩ [1] [0] [0] [1] [] [])

/-- The first operand's row is the result's row ... -/
theorem plain_lhs0 (j : (⟨2, ![m, n]⟩ : Shape).Idx) (qq : (plainOf wf).contr.Idx) :
    ((plainOf wf).lhsIdx j qq 0).val = (j 0).val := by
  unfold DotDims.lhsIdx
  rw [dif_neg (show ¬(0 : Fin (⟨2, ![m, k]⟩ : Shape).rank) ∈ (plainOf wf).lhsBatch from List.not_mem_nil),
    dif_pos (show (0 : Fin (⟨2, ![m, k]⟩ : Shape).rank) ∈ (plainOf wf).lhsNonContracting from List.mem_singleton.mpr rfl)]
  rfl
/-- ... its column the contracted coordinate; -/
theorem plain_lhs1 (j : (⟨2, ![m, n]⟩ : Shape).Idx) (qq : (plainOf wf).contr.Idx) :
    ((plainOf wf).lhsIdx j qq 1).val = (qq ⟨0, Nat.one_pos⟩).val :=
  (plainOf wf).lhsIdx_val_of_single rfl j qq
/-- the second operand's row is the contracted coordinate ... -/
theorem plain_rhs0 (j : (⟨2, ![m, n]⟩ : Shape).Idx) (qq : (plainOf wf).contr.Idx) :
    ((plainOf wf).rhsIdx j qq 0).val = (qq ⟨0, Nat.one_pos⟩).val :=
  (plainOf wf).rhsIdx_val_of_single rfl j qq
/-- ... and its column the result's column. -/
theorem plain_rhs1 (j : (⟨2, ![m, n]⟩ : Shape).Idx) (qq : (plainOf wf).contr.Idx) :
    ((plainOf wf).rhsIdx j qq 1).val = (j 1).val := by
  unfold DotDims.rhsIdx
  rw [dif_neg (show ¬(1 : Fin (⟨2, ![k, n]⟩ : Shape).rank) ∈ (plainOf wf).rhsBatch from List.not_mem_nil),
    dif_pos (show (1 : Fin (⟨2, ![k, n]⟩ : Shape).rank) ∈ (plainOf wf).rhsNonContracting from List.mem_singleton.mpr rfl)]
  rfl

/-- The plain product into the f32 zero splat, at (r, c): the sum over q of A (r, q) * B (q, c). -/
theorem matmul_plainOf_zero_apply {φ₁ φ₂ : FTy} (prec : Option ContractPrecision) (A : FVec Ideal ⟨2, ![m, k]⟩ φ₁)
    (B : FVec Ideal ⟨2, ![k, n]⟩ φ₂) (r : Fin m) (c : Fin n) :
    matmul (plainOf wf) prec A B (constant ⟨2, ![m, n]⟩ .f32 0x00000000#32) (ix2 r c)
      = ∑ q : Fin k, A (ix2 r q) * B (ix2 q c) := by
  simp only [matmul]
  rw [Ideal.matmul_constant_zero_apply, ← Equiv.sum_comp (contrEquiv1 (plainOf wf) k rfl rfl).symm]
  refine Finset.sum_congr rfl fun q _ => ?_
  have hq := contrEquiv1_symm_val (plainOf wf) k rfl rfl q
  have el : (plainOf wf).lhsIdx (ix2 r c) ((contrEquiv1 (plainOf wf) k rfl rfl).symm q) = ix2 r q :=
    funext fun a => Fin.ext (by
      match a with
      | ⟨0, _⟩ => exact plain_lhs0 wf _ _
      | ⟨1, _⟩ => exact (plain_lhs1 wf _ _).trans hq)
  have er : (plainOf wf).rhsIdx (ix2 r c) ((contrEquiv1 (plainOf wf) k rfl rfl).symm q) = ix2 q c :=
    funext fun a => Fin.ext (by
      match a with
      | ⟨0, _⟩ => exact (plain_rhs0 wf _ _).trans hq
      | ⟨1, _⟩ => exact plain_rhs1 wf _ _)
  rw [el, er]

end Plain

/-- A product of an [m, k] by a [k, n] matrix whose dimension numbers are the plain ones (contracting the first's
    columns with the second's rows, no batch axis), accumulated into the f32 zero splat, reads, at (r, c), the sum
    over q of A (r, q) * B (q, c). -/
theorem matmul_plain_zero_apply {m k n : ℕ} {φ₁ φ₂ : FTy} (D : DotDims ⟨2, ![m, k]⟩ ⟨2, ![k, n]⟩ ⟨2, ![m, n]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (A : FVec Ideal ⟨2, ![m, k]⟩ φ₁) (B : FVec Ideal ⟨2, ![k, n]⟩ φ₂) (r : Fin m) (c : Fin n) :
    matmul D prec A B (constant ⟨2, ![m, n]⟩ .f32 0x00000000#32) (ix2 r c) = ∑ q : Fin k, A (ix2 r q) * B (ix2 q c) := by
  obtain ⟨lc, rc, ln, rn, lb, rb, wf⟩ := D
  dsimp only at hlc hrc hln hrn hlb hrb
  subst hlc hrc hln hrn hlb hrb
  exact matmul_plainOf_zero_apply wf prec A B r c

end Cert.LayoutCols

end
-- ==== Proof.MoeSpec.lean ====
/-
  One expert of a gated mixture-of-experts feed-forward layer, as a function of a block of token rows, read entry by
  entry on the extended reals.

  For n token rows x : [n, 2048], an up-projection up : [2048, 2816], a down-projection down : [1408, 2048], a column
  of routing weights w : [n, 1] and a running output acc : [n, 2048]:

    hid  p j = sum over c of x (p, c) * up (c, j)                               the hidden pre-activation, 2816 wide
    act  p d = hid p d * logistic (hid p d) * hid p (1408 + d)                  the gate half through x * sigmoid x, times the other half
    next p q = acc (p, q) + w (p, 0) * sum over d of act p d * down (d, q)      the expert's weighted term added to the running output

  Every row of the result depends on that row of x, w and acc only (expertAt_rows): a block of rows of the whole
  computation is the same computation on the block.

  The layer itself chains eight of these from the zero array, expert e using slab e of the stacked projections and
  column e of the table of routing weights, each weight the sum over a token's two routing slots of the slot's score
  where the slot names expert e (layer).
-/
import Idealize.ShloMosaic.PureOps.Ideal
import Idealize.ShloMosaic.Lib.ValueIdx

noncomputable section

namespace Cert.Moe

open Idealize.ShloMosaic Idealize.ShloMosaic.ValueIdx

/-- An a-by-b array of extended reals. -/
abbrev Mat (a b : ℕ) : Type := (⟨2, ![a, b]⟩ : Shape).Idx → EReal

/-- Column d of the gate half of the hidden pre-activation. -/
abbrev colLo (d : Fin 1408) : Fin 2816 := ⟨d.val, by have := d.isLt; omega⟩
/-- Column d of the other half: 1408 further on. -/
abbrev colHi (d : Fin 1408) : Fin 2816 := ⟨1408 + d.val, by have := d.isLt; omega⟩

/-- The hidden pre-activation of row p at column j: row p of x against column j of up. -/
def hid {n : ℕ} (x : Mat n 2048) (up : Mat 2048 2816) (p : Fin n) (j : Fin 2816) : EReal :=
  ∑ c : Fin 2048, x (ix2 p c) * up (ix2 c j)

/-- The gated activation of row p at column d: the gate half through x * sigmoid x, times the other half. -/
def act {n : ℕ} (x : Mat n 2048) (up : Mat 2048 2816) (p : Fin n) (d : Fin 1408) : EReal :=
  hid x up p (colLo d) * Ideal.logistic (hid x up p (colLo d)) * hid x up p (colHi d)

/-- The running output after this expert, at row p and column q. -/
def expertAt {n : ℕ} (x : Mat n 2048) (up : Mat 2048 2816) (down : Mat 1408 2048) (w : Mat n 1) (acc : Mat n 2048)
    (p : Fin n) (q : Fin 2048) : EReal :=
  acc (ix2 p q) + w (ix2 p (0 : Fin 1)) * ∑ d : Fin 1408, act x up p d * down (ix2 d q)

/-- The running output after this expert, as an array. -/
def expertStep {n : ℕ} (x : Mat n 2048) (up : Mat 2048 2816) (down : Mat 1408 2048) (w : Mat n 1) (acc : Mat n 2048) :
    Mat n 2048 := fun i => expertAt x up down w acc (i 0) (i 1)

theorem expertStep_apply {n : ℕ} (x : Mat n 2048) (up : Mat 2048 2816) (down : Mat 1408 2048) (w : Mat n 1)
    (acc : Mat n 2048) (p : Fin n) (q : Fin 2048) :
    expertStep x up down w acc (ix2 p q) = expertAt x up down w acc p q := rfl

/-- Row p of one block of rows and row p' of another give the same entry when the two rows of x, of w and of acc
    agree: nothing else of the row operands is read. -/
theorem expertAt_rows {n n' : ℕ} (x : Mat n 2048) (x' : Mat n' 2048) (up : Mat 2048 2816) (down : Mat 1408 2048)
    (w : Mat n 1) (w' : Mat n' 1) (acc : Mat n 2048) (acc' : Mat n' 2048) (p : Fin n) (p' : Fin n') (q : Fin 2048)
    (hx : ∀ c : Fin 2048, x (ix2 p c) = x' (ix2 p' c)) (hw : w (ix2 p (0 : Fin 1)) = w' (ix2 p' (0 : Fin 1)))
    (hacc : acc (ix2 p q) = acc' (ix2 p' q)) :
    expertAt x up down w acc p q = expertAt x' up down w' acc' p' q := by
  have hh : ∀ j : Fin 2816, hid x up p j = hid x' up p' j := fun j => by
    unfold hid; exact Finset.sum_congr rfl fun c _ => by rw [hx c]
  have ha : ∀ d : Fin 1408, act x up p d = act x' up p' d := fun d => by
    unfold act; rw [hh, hh]
  unfold expertAt
  rw [hacc, hw]
  exact congrArg _ (congrArg _ (Finset.sum_congr rfl fun d _ => by rw [ha d]))

end Cert.Moe

end
-- ==== Proof.MoeBody.lean ====
/-
  The kernel body's one stored value, read at row r and column q of its 256-row block: the block's accumulator entry
  plus the block's routing weight of row r times the expert's output at (r, q) — row r of the x block against the
  up-projection gives the hidden row, its first 1408 columns go through x * sigmoid x and multiply the last 1408, and
  that row goes against column q of the down-projection. Both products accumulate into zero, so each is a plain sum
  over the contracted coordinate; the change of float format between them is the identity on the extended reals.
  This is the expert step of the specification on a 256-row block.
-/
import proofs.«121777_j6605659701457_1_alg».proof.Proof.Gen.KernelIdeal.Skeleton
import proofs.«121777_j6605659701457_1_alg».proof.Proof.LibLayoutCols
import proofs.«121777_j6605659701457_1_alg».proof.Proof.MoeSpec
import Idealize.ShloMosaic.Lib.Pipeline.Value
import Idealize.ShloMosaic.Lib.ValueIdx

noncomputable section

namespace Cert.KernelIdeal.MoeBody

open Cert.KernelIdeal Cert.KernelIdeal.Gen Idealize.ShloMosaic Idealize.ShloMosaic.ValueIdx Cert.Moe

/-- Column d of the first 1408 columns of a 256 x 2816 array. -/
theorem slice_lo (v : FVec Ideal S256x2816 .f32) (r : Fin 256) (d : Fin 1408) :
    extractStridedSlice S256x1408 ![0, 0] v slices_S256x2816_o0_0_S256x1408 (ix2 r d) = v (ix2 r (colLo d)) :=
  extractStridedSlice_apply _ v _ (ix2 r d) (ix2 r (colLo d)) fun a => by
    match a with
    | ⟨0, _⟩ => show r.val = 0 + r.val; omega
    | ⟨1, _⟩ => show d.val = 0 + d.val; omega

/-- Column d of the last 1408 columns. -/
theorem slice_hi (v : FVec Ideal S256x2816 .f32) (r : Fin 256) (d : Fin 1408) :
    extractStridedSlice S256x1408 ![0, 1408] v slices_S256x2816_o0_1408_S256x1408 (ix2 r d) = v (ix2 r (colHi d)) :=
  extractStridedSlice_apply _ v _ (ix2 r d) (ix2 r (colHi d)) fun a => by
    match a with
    | ⟨0, _⟩ => show r.val = 0 + r.val; omega
    | ⟨1, _⟩ => rfl

/-- The hidden row: the x block against the up-projection, into zero. -/
theorem hidden_at (x0 : Vec Ideal S256x2048 .bf16) (x1 : Vec Ideal S2048x2816 .bf16) (r : Fin 256) (j : Fin 2816) :
    matmul (F := Ideal) (φ₁ := .bf16) (φ₂ := .bf16) dot_S256x2048_S2048x2816_S256x2816_1_0_0_1_n_n none x0 x1
        (constant S256x2816 .f32 0x00000000#32) (ix2 r j)
      = hid (n := 256) x0 x1 r j :=
  Cert.LayoutCols.matmul_plain_zero_apply (φ₁ := .bf16) (φ₂ := .bf16) _ rfl rfl rfl rfl rfl rfl none x0 x1 r j

/-- The stored value at (r, q). -/
theorem body_at (x0 : Vec Ideal S256x2048 .bf16) (x1 : Vec Ideal S2048x2816 .bf16) (x2 : Vec Ideal S1408x2048 .bf16)
    (x4 : Vec Ideal S256x2048 .f32) (x3 : Vec Ideal S256x1 .f32) (r : Fin 256) (q : Fin 2048) :
    k0_pay1 (F := Ideal) x0 x1 x2 x4 x3 (ix2 r q) = expertAt (n := 256) x0 x1 x2 x3 x4 r q := by
  unfold k0_pay1 expertAt
  simp only [shapeCast_self]
  refine congrArg₂ (· + ·) rfl (congrArg₂ (· * ·) ?_ ?_)
  · exact Cert.LayoutCols.broadcastTo_a1_ab_apply x3 _ r q
  · refine (Cert.LayoutCols.matmul_plain_zero_apply (φ₁ := .bf16) (φ₂ := .bf16) _ rfl rfl rfl rfl rfl rfl none _ x2 r q).trans ?_
    refine Finset.sum_congr rfl fun d _ => congrArg (· * x2 (ix2 d q)) ?_
    have hlo := (slice_lo (matmul (F := Ideal) (φ₁ := .bf16) (φ₂ := .bf16) dot_S256x2048_S2048x2816_S256x2816_1_0_0_1_n_n none x0 x1
      (constant S256x2816 .f32 0x00000000#32)) r d).trans (hidden_at x0 x1 r (colLo d))
    have hhi := (slice_hi (matmul (F := Ideal) (φ₁ := .bf16) (φ₂ := .bf16) dot_S256x2048_S2048x2816_S256x2816_1_0_0_1_n_n none x0 x1
      (constant S256x2816 .f32 0x00000000#32)) r d).trans (hidden_at x0 x1 r (colHi d))
    exact congrArg₂ (· * ·) (congrArg₂ (· * ·) hlo (congrArg Ideal.logistic hlo)) hhi

/-- The eight calls run one body: the other seven stored values are this one. -/
theorem pay1 : k1_pay1 (F := Ideal) = k0_pay1 := rfl
theorem pay2 : k2_pay1 (F := Ideal) = k0_pay1 := rfl
theorem pay3 : k3_pay1 (F := Ideal) = k0_pay1 := rfl
theorem pay4 : k4_pay1 (F := Ideal) = k0_pay1 := rfl
theorem pay5 : k5_pay1 (F := Ideal) = k0_pay1 := rfl
theorem pay6 : k6_pay1 (F := Ideal) = k0_pay1 := rfl
theorem pay7 : k7_pay1 (F := Ideal) = k0_pay1 := rfl

end Cert.KernelIdeal.MoeBody

end
-- ==== Proof.MoeRegion0.lean ====
/-
  Call 0 of the expert kernel, read as ONE array function. The grid has 32 points; point t takes rows 256 t ... 256 t + 255
  of the token array, of the routing-weight column and of the running output, the whole up- and down-projection, and
  writes the same rows of the result. Its stored block is the expert step on those 256 rows, and a row of the expert
  step reads only that row of the row operands, so the block is the block of the expert step on all 8192 rows. The 32
  blocks tile the result (row i lies in block i / 256), so the result array ends holding the expert step of the five
  arrays as the call found them.
-/
import proofs.«121777_j6605659701457_1_alg».proof.Proof.Gen.KernelIdeal.Frame
import proofs.«121777_j6605659701457_1_alg».proof.Proof.MoeBody
import Idealize.ShloMosaic.Lib.Pipeline.Value

noncomputable section

namespace Cert.KernelIdeal.MoeRegion0

open Cert.KernelIdeal Cert.KernelIdeal.Gen Idealize.ShloMosaic Idealize.ShloMosaic.TcCoe Idealize.ShloMosaic.ValueIdx
open Idealize.SL.Sem Cert.Moe
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row windows sit at block row t, the projections at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

theorem lt32 (t : Fin cfg0.N) : t.val < 32 := by
  have hN : cfg0.N = 32 := N_0
  have := t.isLt
  omega

/-- Row 256 t + r of an 8192-row array. -/
abbrev rowOf (t : Fin cfg0.N) (r : Fin 256) : Fin 8192 := ⟨256 * t.val + r.val, by have := lt32 t; have := r.isLt; omega⟩

/-- The result array after the call: the expert step of the five arrays as the call finds them. -/
def G (c : Dev nD) : Mat 8192 2048 :=
  expertStep (n := 8192) (V c main_v11) (V c main_v17) (V c main_v19) (V c main_v15) (V c main_v14)

/-- Row r of the token block at point t is row 256 t + r of the token array. -/
theorem xblk_at (c : Dev nD) (t : Fin cfg0.N) (r : Fin 256) (q : Fin 2048) :
    (iblk0 V c 0 t : Mat 256 2048) (ix2 r q) = (V c main_v11 : Mat 8192 2048) (ix2 (rowOf t r) q) := by
  obtain ⟨e0, e1, -⟩ := idx_facts t
  unfold iblk0
  rw [View.read_apply]
  show V c main_v11 _ = V c main_v11 _
  refine congrArg (V c main_v11) (funext fun a => Fin.ext ?_)
  match a with
  | ⟨0, _⟩ => show win0_0.index t (0 : Fin 2) * 256 + 1 * r.val = 256 * t.val + r.val; rw [e0]; omega
  | ⟨1, _⟩ => show win0_0.index t (1 : Fin 2) * 2048 + 1 * q.val = q.val; rw [e1]; omega

/-- Row r of the routing-weight block at point t is row 256 t + r of the routing-weight column. -/
theorem wblk_at (c : Dev nD) (t : Fin cfg0.N) (r : Fin 256) :
    (iblk0 V c 3 t : Mat 256 1) (ix2 r (0 : Fin 1)) = (V c main_v15 : Mat 8192 1) (ix2 (rowOf t r) (0 : Fin 1)) := by
  obtain ⟨-, -, -, -, -, -, e0, e1, -⟩ := idx_facts t
  unfold iblk0
  rw [View.read_apply]
  show V c main_v15 _ = V c main_v15 _
  refine congrArg (V c main_v15) (funext fun a => Fin.ext ?_)
  match a with
  | ⟨0, _⟩ => show win0_3.index t (0 : Fin 2) * 256 + 1 * r.val = 256 * t.val + r.val; rw [e0]; omega
  | ⟨1, _⟩ => show win0_3.index t (1 : Fin 2) * 1 + 1 * 0 = 0; rw [e1]

/-- Row r of the running-output block at point t is row 256 t + r of the running output. -/
theorem accblk_at (c : Dev nD) (t : Fin cfg0.N) (r : Fin 256) (q : Fin 2048) :
    (iblk0 V c 4 t : Mat 256 2048) (ix2 r q) = (V c main_v14 : Mat 8192 2048) (ix2 (rowOf t r) q) := by
  obtain ⟨-, -, -, -, -, -, -, -, e0, e1, -⟩ := idx_facts t
  unfold iblk0
  rw [View.read_apply]
  show V c main_v14 _ = V c main_v14 _
  refine congrArg (V c main_v14) (funext fun a => Fin.ext ?_)
  match a with
  | ⟨0, _⟩ => show win0_4.index t (0 : Fin 2) * 256 + 1 * r.val = 256 * t.val + r.val; rw [e0]; omega
  | ⟨1, _⟩ => show win0_4.index t (1 : Fin 2) * 2048 + 1 * q.val = q.val; rw [e1]; omega

/-- The up-projection's one block is the whole array. -/
theorem upblk (c : Dev nD) (t : Fin cfg0.N) : (iblk0 V c 1 t : Mat 2048 2816) = V c main_v17 := by
  obtain ⟨-, -, e0, e1, -⟩ := idx_facts t
  funext y
  unfold iblk0
  rw [View.read_apply]
  show V c main_v17 _ = V c main_v17 _
  refine congrArg (V c main_v17) (funext fun a => Fin.ext ?_)
  match a with
  | ⟨0, _⟩ => show win0_1.index t (0 : Fin 2) * 2048 + 1 * (y 0).val = (y 0).val; rw [e0]; omega
  | ⟨1, _⟩ => show win0_1.index t (1 : Fin 2) * 2816 + 1 * (y 1).val = (y 1).val; rw [e1]; omega

/-- The down-projection's one block is the whole array. -/
theorem dnblk (c : Dev nD) (t : Fin cfg0.N) : (iblk0 V c 2 t : Mat 1408 2048) = V c main_v19 := by
  obtain ⟨-, -, -, -, e0, e1, -⟩ := idx_facts t
  funext y
  unfold iblk0
  rw [View.read_apply]
  show V c main_v19 _ = V c main_v19 _
  refine congrArg (V c main_v19) (funext fun a => Fin.ext ?_)
  match a with
  | ⟨0, _⟩ => show win0_2.index t (0 : Fin 2) * 1408 + 1 * (y 0).val = (y 0).val; rw [e0]; omega
  | ⟨1, _⟩ => show win0_2.index t (1 : Fin 2) * 2048 + 1 * (y 1).val = (y 1).val; rw [e1]; omega

/-- What point t writes back is block t of G. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S256x2048) hz, View.ld_unit_zero (S := S2048x2816) hz,
    View.ld_unit_zero (S := S1408x2048) hz, View.ld_unit_zero (S := S256x1) hz]
  funext j
  obtain ⟨r, q, rfl⟩ : ∃ (r : Fin 256) (q : Fin 2048), j = ix2 r q := ⟨j 0, j 1, eq_ix2 j⟩
  obtain ⟨-, -, -, -, -, -, -, -, -, -, e0, e1⟩ := idx_facts t
  have he : ((cfg0.win 5).blk t).view.emb (ix2 r q) = ix2 (rowOf t r) q := by
    funext a
    apply Fin.ext
    match a with
    | ⟨0, _⟩ => show win0_5.index t (0 : Fin 2) * 256 + 1 * r.val = 256 * t.val + r.val; rw [e0]; omega
    | ⟨1, _⟩ => show win0_5.index t (1 : Fin 2) * 2048 + 1 * q.val = q.val; rw [e1]; omega
  rw [View.read_apply, he]
  show k0_pay1 (F := Ideal) (iblk0 V c 0 t) (iblk0 V c 1 t) (iblk0 V c 2 t) (iblk0 V c 4 t) (iblk0 V c 3 t) (ix2 r q)
      = expertAt (n := 8192) (V c main_v11) (V c main_v17) (V c main_v19) (V c main_v15) (V c main_v14) (rowOf t r) q
  refine (Cert.KernelIdeal.MoeBody.body_at (iblk0 V c 0 t) (iblk0 V c 1 t) (iblk0 V c 2 t) (iblk0 V c 4 t) (iblk0 V c 3 t) r q).trans ?_
  rw [upblk V c t, dnblk V c t]
  exact expertAt_rows (n := 256) (n' := 8192) _ _ _ _ _ _ _ _ r (rowOf t r) q
    (fun cc => xblk_at V c t r cc) (wblk_at V c t r) (accblk_at V c t r q)

/-- An index of the result lies in point t's block iff each coordinate lies in the block's range on its axis. -/
theorem mem_blk (t : Fin cfg0.N) (i : S8192x2048.Idx) :
    i ∈ ((cfg0.win 5).blk t).view.set ↔ ∀ a : Fin 2, win0_5.index t a * S256x2048.size a ≤ (i a).val ∧ (i a).val < win0_5.index t a * S256x2048.size a + S256x2048.size a := by
  show i ∈ ((View.whole main_v20).slice (win0_5.rect t)).set ↔ _
  rw [View.set_slice_whole, Rect.mem_set_unit]
  exact Iff.rfl

/-- The result array after the call. -/
theorem final (c : Dev nD) : (dat0 V c).arrAt 5 cfg0.N = G V c :=
  (dat0 V c).arrAt_eq_of_cover 5 (G V c) (fun t _ => flushed_eq V c t) fun i => by
    have hi0 : (i 0).val < 8192 := (i 0).isLt
    have hi1 : (i 1).val < 2048 := (i 1).isLt
    have hN : cfg0.N = 32 := N_0
    refine ⟨⟨(i 0).val / 256, by rw [hN]; omega⟩, flush0_5 _, ?_⟩
    rw [mem_blk]
    obtain ⟨-, -, -, -, -, -, -, -, -, -, e0, e1⟩ := idx_facts ⟨(i 0).val / 256, by rw [hN]; omega⟩
    intro a
    match a with
    | ⟨0, _⟩ =>
      show win0_5.index _ (0 : Fin 2) * 256 ≤ (i 0).val ∧ (i 0).val < win0_5.index _ (0 : Fin 2) * 256 + 256
      rw [e0]; show (i 0).val / 256 * 256 ≤ (i 0).val ∧ (i 0).val < (i 0).val / 256 * 256 + 256; omega
    | ⟨1, _⟩ =>
      show win0_5.index _ (1 : Fin 2) * 2048 ≤ (i 1).val ∧ (i 1).val < win0_5.index _ (1 : Fin 2) * 2048 + 2048
      rw [e1]; omega

end Cert.KernelIdeal.MoeRegion0

end
-- ==== Proof.MoeRegion1.lean ====
/-
  Call 1 of the expert kernel, read as ONE array function. The grid has 32 points; point t takes rows 256 t ... 256 t + 255
  of the token array, of the routing-weight column and of the running output, the whole up- and down-projection, and
  writes the same rows of the result. Its stored block is the expert step on those 256 rows, and a row of the expert
  step reads only that row of the row operands, so the block is the block of the expert step on all 8192 rows. The 32
  blocks tile the result (row i lies in block i / 256), so the result array ends holding the expert step of the five
  arrays as the call found them.
-/
import proofs.«121777_j6605659701457_1_alg».proof.Proof.Gen.KernelIdeal.Frame
import proofs.«121777_j6605659701457_1_alg».proof.Proof.MoeBody
import Idealize.ShloMosaic.Lib.Pipeline.Value

noncomputable section

namespace Cert.KernelIdeal.MoeRegion1

open Cert.KernelIdeal Cert.KernelIdeal.Gen Idealize.ShloMosaic Idealize.ShloMosaic.TcCoe Idealize.ShloMosaic.ValueIdx
open Idealize.SL.Sem Cert.Moe
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row windows sit at block row t, the projections at block (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

theorem lt32 (t : Fin cfg1.N) : t.val < 32 := by
  have hN : cfg1.N = 32 := N_1
  have := t.isLt
  omega

/-- Row 256 t + r of an 8192-row array. -/
abbrev rowOf (t : Fin cfg1.N) (r : Fin 256) : Fin 8192 := ⟨256 * t.val + r.val, by have := lt32 t; have := r.isLt; omega⟩

/-- The result array after the call: the expert step of the five arrays as the call finds them. -/
def G (c : Dev nD) : Mat 8192 2048 :=
  expertStep (n := 8192) (V c main_v11) (V c main_v23) (V c main_v25) (V c main_v21) (V c main_v20)

/-- Row r of the token block at point t is row 256 t + r of the token array. -/
theorem xblk_at (c : Dev nD) (t : Fin cfg1.N) (r : Fin 256) (q : Fin 2048) :
    (iblk1 V c 0 t : Mat 256 2048) (ix2 r q) = (V c main_v11 : Mat 8192 2048) (ix2 (rowOf t r) q) := by
  obtain ⟨e0, e1, -⟩ := idx_facts t
  unfold iblk1
  rw [View.read_apply]
  show V c main_v11 _ = V c main_v11 _
  refine congrArg (V c main_v11) (funext fun a => Fin.ext ?_)
  match a with
  | ⟨0, _⟩ => show win1_0.index t (0 : Fin 2) * 256 + 1 * r.val = 256 * t.val + r.val; rw [e0]; omega
  | ⟨1, _⟩ => show win1_0.index t (1 : Fin 2) * 2048 + 1 * q.val = q.val; rw [e1]; omega

/-- Row r of the routing-weight block at point t is row 256 t + r of the routing-weight column. -/
theorem wblk_at (c : Dev nD) (t : Fin cfg1.N) (r : Fin 256) :
    (iblk1 V c 3 t : Mat 256 1) (ix2 r (0 : Fin 1)) = (V c main_v21 : Mat 8192 1) (ix2 (rowOf t r) (0 : Fin 1)) := by
  obtain ⟨-, -, -, -, -, -, e0, e1, -⟩ := idx_facts t
  unfold iblk1
  rw [View.read_apply]
  show V c main_v21 _ = V c main_v21 _
  refine congrArg (V c main_v21) (funext fun a => Fin.ext ?_)
  match a with
  | ⟨0, _⟩ => show win1_3.index t (0 : Fin 2) * 256 + 1 * r.val = 256 * t.val + r.val; rw [e0]; omega
  | ⟨1, _⟩ => show win1_3.index t (1 : Fin 2) * 1 + 1 * 0 = 0; rw [e1]

/-- Row r of the running-output block at point t is row 256 t + r of the running output. -/
theorem accblk_at (c : Dev nD) (t : Fin cfg1.N) (r : Fin 256) (q : Fin 2048) :
    (iblk1 V c 4 t : Mat 256 2048) (ix2 r q) = (V c main_v20 : Mat 8192 2048) (ix2 (rowOf t r) q) := by
  obtain ⟨-, -, -, -, -, -, -, -, e0, e1, -⟩ := idx_facts t
  unfold iblk1
  rw [View.read_apply]
  show V c main_v20 _ = V c main_v20 _
  refine congrArg (V c main_v20) (funext fun a => Fin.ext ?_)
  match a with
  | ⟨0, _⟩ => show win1_4.index t (0 : Fin 2) * 256 + 1 * r.val = 256 * t.val + r.val; rw [e0]; omega
  | ⟨1, _⟩ => show win1_4.index t (1 : Fin 2) * 2048 + 1 * q.val = q.val; rw [e1]; omega

/-- The up-projection's one block is the whole array. -/
theorem upblk (c : Dev nD) (t : Fin cfg1.N) : (iblk1 V c 1 t : Mat 2048 2816) = V c main_v23 := by
  obtain ⟨-, -, e0, e1, -⟩ := idx_facts t
  funext y
  unfold iblk1
  rw [View.read_apply]
  show V c main_v23 _ = V c main_v23 _
  refine congrArg (V c main_v23) (funext fun a => Fin.ext ?_)
  match a with
  | ⟨0, _⟩ => show win1_1.index t (0 : Fin 2) * 2048 + 1 * (y 0).val = (y 0).val; rw [e0]; omega
  | ⟨1, _⟩ => show win1_1.index t (1 : Fin 2) * 2816 + 1 * (y 1).val = (y 1).val; rw [e1]; omega

/-- The down-projection's one block is the whole array. -/
theorem dnblk (c : Dev nD) (t : Fin cfg1.N) : (iblk1 V c 2 t : Mat 1408 2048) = V c main_v25 := by
  obtain ⟨-, -, -, -, e0, e1, -⟩ := idx_facts t
  funext y
  unfold iblk1
  rw [View.read_apply]
  show V c main_v25 _ = V c main_v25 _
  refine congrArg (V c main_v25) (funext fun a => Fin.ext ?_)
  match a with
  | ⟨0, _⟩ => show win1_2.index t (0 : Fin 2) * 1408 + 1 * (y 0).val = (y 0).val; rw [e0]; omega
  | ⟨1, _⟩ => show win1_2.index t (1 : Fin 2) * 2048 + 1 * (y 1).val = (y 1).val; rw [e1]; omega

/-- What point t writes back is block t of G. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S256x2048) hz, View.ld_unit_zero (S := S2048x2816) hz,
    View.ld_unit_zero (S := S1408x2048) hz, View.ld_unit_zero (S := S256x1) hz]
  funext j
  obtain ⟨r, q, rfl⟩ : ∃ (r : Fin 256) (q : Fin 2048), j = ix2 r q := ⟨j 0, j 1, eq_ix2 j⟩
  obtain ⟨-, -, -, -, -, -, -, -, -, -, e0, e1⟩ := idx_facts t
  have he : ((cfg1.win 5).blk t).view.emb (ix2 r q) = ix2 (rowOf t r) q := by
    funext a
    apply Fin.ext
    match a with
    | ⟨0, _⟩ => show win1_5.index t (0 : Fin 2) * 256 + 1 * r.val = 256 * t.val + r.val; rw [e0]; omega
    | ⟨1, _⟩ => show win1_5.index t (1 : Fin 2) * 2048 + 1 * q.val = q.val; rw [e1]; omega
  rw [View.read_apply, he]
  show k1_pay1 (F := Ideal) (iblk1 V c 0 t) (iblk1 V c 1 t) (iblk1 V c 2 t) (iblk1 V c 4 t) (iblk1 V c 3 t) (ix2 r q)
      = expertAt (n := 8192) (V c main_v11) (V c main_v23) (V c main_v25) (V c main_v21) (V c main_v20) (rowOf t r) q
  refine (Cert.KernelIdeal.MoeBody.body_at (iblk1 V c 0 t) (iblk1 V c 1 t) (iblk1 V c 2 t) (iblk1 V c 4 t) (iblk1 V c 3 t) r q).trans ?_
  rw [upblk V c t, dnblk V c t]
  exact expertAt_rows (n := 256) (n' := 8192) _ _ _ _ _ _ _ _ r (rowOf t r) q
    (fun cc => xblk_at V c t r cc) (wblk_at V c t r) (accblk_at V c t r q)

/-- An index of the result lies in point t's block iff each coordinate lies in the block's range on its axis. -/
theorem mem_blk (t : Fin cfg1.N) (i : S8192x2048.Idx) :
    i ∈ ((cfg1.win 5).blk t).view.set ↔ ∀ a : Fin 2, win1_5.index t a * S256x2048.size a ≤ (i a).val ∧ (i a).val < win1_5.index t a * S256x2048.size a + S256x2048.size a := by
  show i ∈ ((View.whole main_v26).slice (win1_5.rect t)).set ↔ _
  rw [View.set_slice_whole, Rect.mem_set_unit]
  exact Iff.rfl

/-- The result array after the call. -/
theorem final (c : Dev nD) : (dat1 V c).arrAt 5 cfg1.N = G V c :=
  (dat1 V c).arrAt_eq_of_cover 5 (G V c) (fun t _ => flushed_eq V c t) fun i => by
    have hi0 : (i 0).val < 8192 := (i 0).isLt
    have hi1 : (i 1).val < 2048 := (i 1).isLt
    have hN : cfg1.N = 32 := N_1
    refine ⟨⟨(i 0).val / 256, by rw [hN]; omega⟩, flush1_5 _, ?_⟩
    rw [mem_blk]
    obtain ⟨-, -, -, -, -, -, -, -, -, -, e0, e1⟩ := idx_facts ⟨(i 0).val / 256, by rw [hN]; omega⟩
    intro a
    match a with
    | ⟨0, _⟩ =>
      show win1_5.index _ (0 : Fin 2) * 256 ≤ (i 0).val ∧ (i 0).val < win1_5.index _ (0 : Fin 2) * 256 + 256
      rw [e0]; show (i 0).val / 256 * 256 ≤ (i 0).val ∧ (i 0).val < (i 0).val / 256 * 256 + 256; omega
    | ⟨1, _⟩ =>
      show win1_5.index _ (1 : Fin 2) * 2048 ≤ (i 1).val ∧ (i 1).val < win1_5.index _ (1 : Fin 2) * 2048 + 2048
      rw [e1]; omega

end Cert.KernelIdeal.MoeRegion1

end
-- ==== Proof.MoeRegion2.lean ====
/-
  Call 2 of the expert kernel, read as ONE array function. The grid has 32 points; point t takes rows 256 t ... 256 t + 255
  of the token array, of the routing-weight column and of the running output, the whole up- and down-projection, and
  writes the same rows of the result. Its stored block is the expert step on those 256 rows, and a row of the expert
  step reads only that row of the row operands, so the block is the block of the expert step on all 8192 rows. The 32
  blocks tile the result (row i lies in block i / 256), so the result array ends holding the expert step of the five
  arrays as the call found them.
-/
import proofs.«121777_j6605659701457_1_alg».proof.Proof.Gen.KernelIdeal.Frame
import proofs.«121777_j6605659701457_1_alg».proof.Proof.MoeBody
import Idealize.ShloMosaic.Lib.Pipeline.Value

noncomputable section

namespace Cert.KernelIdeal.MoeRegion2

open Cert.KernelIdeal Cert.KernelIdeal.Gen Idealize.ShloMosaic Idealize.ShloMosaic.TcCoe Idealize.ShloMosaic.ValueIdx
open Idealize.SL.Sem Cert.Moe
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row windows sit at block row t, the projections at block (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

theorem lt32 (t : Fin cfg2.N) : t.val < 32 := by
  have hN : cfg2.N = 32 := N_2
  have := t.isLt
  omega

/-- Row 256 t + r of an 8192-row array. -/
abbrev rowOf (t : Fin cfg2.N) (r : Fin 256) : Fin 8192 := ⟨256 * t.val + r.val, by have := lt32 t; have := r.isLt; omega⟩

/-- The result array after the call: the expert step of the five arrays as the call finds them. -/
def G (c : Dev nD) : Mat 8192 2048 :=
  expertStep (n := 8192) (V c main_v11) (V c main_v29) (V c main_v31) (V c main_v27) (V c main_v26)

/-- Row r of the token block at point t is row 256 t + r of the token array. -/
theorem xblk_at (c : Dev nD) (t : Fin cfg2.N) (r : Fin 256) (q : Fin 2048) :
    (iblk2 V c 0 t : Mat 256 2048) (ix2 r q) = (V c main_v11 : Mat 8192 2048) (ix2 (rowOf t r) q) := by
  obtain ⟨e0, e1, -⟩ := idx_facts t
  unfold iblk2
  rw [View.read_apply]
  show V c main_v11 _ = V c main_v11 _
  refine congrArg (V c main_v11) (funext fun a => Fin.ext ?_)
  match a with
  | ⟨0, _⟩ => show win2_0.index t (0 : Fin 2) * 256 + 1 * r.val = 256 * t.val + r.val; rw [e0]; omega
  | ⟨1, _⟩ => show win2_0.index t (1 : Fin 2) * 2048 + 1 * q.val = q.val; rw [e1]; omega

/-- Row r of the routing-weight block at point t is row 256 t + r of the routing-weight column. -/
theorem wblk_at (c : Dev nD) (t : Fin cfg2.N) (r : Fin 256) :
    (iblk2 V c 3 t : Mat 256 1) (ix2 r (0 : Fin 1)) = (V c main_v27 : Mat 8192 1) (ix2 (rowOf t r) (0 : Fin 1)) := by
  obtain ⟨-, -, -, -, -, -, e0, e1, -⟩ := idx_facts t
  unfold iblk2
  rw [View.read_apply]
  show V c main_v27 _ = V c main_v27 _
  refine congrArg (V c main_v27) (funext fun a => Fin.ext ?_)
  match a with
  | ⟨0, _⟩ => show win2_3.index t (0 : Fin 2) * 256 + 1 * r.val = 256 * t.val + r.val; rw [e0]; omega
  | ⟨1, _⟩ => show win2_3.index t (1 : Fin 2) * 1 + 1 * 0 = 0; rw [e1]

/-- Row r of the running-output block at point t is row 256 t + r of the running output. -/
theorem accblk_at (c : Dev nD) (t : Fin cfg2.N) (r : Fin 256) (q : Fin 2048) :
    (iblk2 V c 4 t : Mat 256 2048) (ix2 r q) = (V c main_v26 : Mat 8192 2048) (ix2 (rowOf t r) q) := by
  obtain ⟨-, -, -, -, -, -, -, -, e0, e1, -⟩ := idx_facts t
  unfold iblk2
  rw [View.read_apply]
  show V c main_v26 _ = V c main_v26 _
  refine congrArg (V c main_v26) (funext fun a => Fin.ext ?_)
  match a with
  | ⟨0, _⟩ => show win2_4.index t (0 : Fin 2) * 256 + 1 * r.val = 256 * t.val + r.val; rw [e0]; omega
  | ⟨1, _⟩ => show win2_4.index t (1 : Fin 2) * 2048 + 1 * q.val = q.val; rw [e1]; omega

/-- The up-projection's one block is the whole array. -/
theorem upblk (c : Dev nD) (t : Fin cfg2.N) : (iblk2 V c 1 t : Mat 2048 2816) = V c main_v29 := by
  obtain ⟨-, -, e0, e1, -⟩ := idx_facts t
  funext y
  unfold iblk2
  rw [View.read_apply]
  show V c main_v29 _ = V c main_v29 _
  refine congrArg (V c main_v29) (funext fun a => Fin.ext ?_)
  match a with
  | ⟨0, _⟩ => show win2_1.index t (0 : Fin 2) * 2048 + 1 * (y 0).val = (y 0).val; rw [e0]; omega
  | ⟨1, _⟩ => show win2_1.index t (1 : Fin 2) * 2816 + 1 * (y 1).val = (y 1).val; rw [e1]; omega

/-- The down-projection's one block is the whole array. -/
theorem dnblk (c : Dev nD) (t : Fin cfg2.N) : (iblk2 V c 2 t : Mat 1408 2048) = V c main_v31 := by
  obtain ⟨-, -, -, -, e0, e1, -⟩ := idx_facts t
  funext y
  unfold iblk2
  rw [View.read_apply]
  show V c main_v31 _ = V c main_v31 _
  refine congrArg (V c main_v31) (funext fun a => Fin.ext ?_)
  match a with
  | ⟨0, _⟩ => show win2_2.index t (0 : Fin 2) * 1408 + 1 * (y 0).val = (y 0).val; rw [e0]; omega
  | ⟨1, _⟩ => show win2_2.index t (1 : Fin 2) * 2048 + 1 * (y 1).val = (y 1).val; rw [e1]; omega

/-- What point t writes back is block t of G. -/
theorem flushed_eq (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  unfold out2_5
  rw [View.canon_unit_zero hz]
  simp only [View.ld_unit_zero (S := S256x2048) hz, View.ld_unit_zero (S := S2048x2816) hz,
    View.ld_unit_zero (S := S1408x2048) hz, View.ld_unit_zero (S := S256x1) hz]
  funext j
  obtain ⟨r, q, rfl⟩ : ∃ (r : Fin 256) (q : Fin 2048), j = ix2 r q := ⟨j 0, j 1, eq_ix2 j⟩
  obtain ⟨-, -, -, -, -, -, -, -, -, -, e0, e1⟩ := idx_facts t
  have he : ((cfg2.win 5).blk t).view.emb (ix2 r q) = ix2 (rowOf t r) q := by
    funext a
    apply Fin.ext
    match a with
    | ⟨0, _⟩ => show win2_5.index t (0 : Fin 2) * 256 + 1 * r.val = 256 * t.val + r.val; rw [e0]; omega
    | ⟨1, _⟩ => show win2_5.index t (1 : Fin 2) * 2048 + 1 * q.val = q.val; rw [e1]; omega
  rw [View.read_apply, he]
  show k2_pay1 (F := Ideal) (iblk2 V c 0 t) (iblk2 V c 1 t) (iblk2 V c 2 t) (iblk2 V c 4 t) (iblk2 V c 3 t) (ix2 r q)
      = expertAt (n := 8192) (V c main_v11) (V c main_v29) (V c main_v31) (V c main_v27) (V c main_v26) (rowOf t r) q
  refine (Cert.KernelIdeal.MoeBody.body_at (iblk2 V c 0 t) (iblk2 V c 1 t) (iblk2 V c 2 t) (iblk2 V c 4 t) (iblk2 V c 3 t) r q).trans ?_
  rw [upblk V c t, dnblk V c t]
  exact expertAt_rows (n := 256) (n' := 8192) _ _ _ _ _ _ _ _ r (rowOf t r) q
    (fun cc => xblk_at V c t r cc) (wblk_at V c t r) (accblk_at V c t r q)

/-- An index of the result lies in point t's block iff each coordinate lies in the block's range on its axis. -/
theorem mem_blk (t : Fin cfg2.N) (i : S8192x2048.Idx) :
    i ∈ ((cfg2.win 5).blk t).view.set ↔ ∀ a : Fin 2, win2_5.index t a * S256x2048.size a ≤ (i a).val ∧ (i a).val < win2_5.index t a * S256x2048.size a + S256x2048.size a := by
  show i ∈ ((View.whole main_v32).slice (win2_5.rect t)).set ↔ _
  rw [View.set_slice_whole, Rect.mem_set_unit]
  exact Iff.rfl

/-- The result array after the call. -/
theorem final (c : Dev nD) : (dat2 V c).arrAt 5 cfg2.N = G V c :=
  (dat2 V c).arrAt_eq_of_cover 5 (G V c) (fun t _ => flushed_eq V c t) fun i => by
    have hi0 : (i 0).val < 8192 := (i 0).isLt
    have hi1 : (i 1).val < 2048 := (i 1).isLt
    have hN : cfg2.N = 32 := N_2
    refine ⟨⟨(i 0).val / 256, by rw [hN]; omega⟩, flush2_5 _, ?_⟩
    rw [mem_blk]
    obtain ⟨-, -, -, -, -, -, -, -, -, -, e0, e1⟩ := idx_facts ⟨(i 0).val / 256, by rw [hN]; omega⟩
    intro a
    match a with
    | ⟨0, _⟩ =>
      show win2_5.index _ (0 : Fin 2) * 256 ≤ (i 0).val ∧ (i 0).val < win2_5.index _ (0 : Fin 2) * 256 + 256
      rw [e0]; show (i 0).val / 256 * 256 ≤ (i 0).val ∧ (i 0).val < (i 0).val / 256 * 256 + 256; omega
    | ⟨1, _⟩ =>
      show win2_5.index _ (1 : Fin 2) * 2048 ≤ (i 1).val ∧ (i 1).val < win2_5.index _ (1 : Fin 2) * 2048 + 2048
      rw [e1]; omega

end Cert.KernelIdeal.MoeRegion2

end
-- ==== Proof.MoeRegion3.lean ====
/-
  Call 3 of the expert kernel, read as ONE array function. The grid has 32 points; point t takes rows 256 t ... 256 t + 255
  of the token array, of the routing-weight column and of the running output, the whole up- and down-projection, and
  writes the same rows of the result. Its stored block is the expert step on those 256 rows, and a row of the expert
  step reads only that row of the row operands, so the block is the block of the expert step on all 8192 rows. The 32
  blocks tile the result (row i lies in block i / 256), so the result array ends holding the expert step of the five
  arrays as the call found them.
-/
import proofs.«121777_j6605659701457_1_alg».proof.Proof.Gen.KernelIdeal.Frame
import proofs.«121777_j6605659701457_1_alg».proof.Proof.MoeBody
import Idealize.ShloMosaic.Lib.Pipeline.Value

noncomputable section

namespace Cert.KernelIdeal.MoeRegion3

open Cert.KernelIdeal Cert.KernelIdeal.Gen Idealize.ShloMosaic Idealize.ShloMosaic.TcCoe Idealize.ShloMosaic.ValueIdx
open Idealize.SL.Sem Cert.Moe
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row windows sit at block row t, the projections at block (0, 0). -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0
    ∧ win3_5.index t (0 : Fin 2) = t.val ∧ win3_5.index t (1 : Fin 2) = 0 :=
  (by decide +kernel : ∀ t : Fin grid3.N, _)

theorem lt32 (t : Fin cfg3.N) : t.val < 32 := by
  have hN : cfg3.N = 32 := N_3
  have := t.isLt
  omega

/-- Row 256 t + r of an 8192-row array. -/
abbrev rowOf (t : Fin cfg3.N) (r : Fin 256) : Fin 8192 := ⟨256 * t.val + r.val, by have := lt32 t; have := r.isLt; omega⟩

/-- The result array after the call: the expert step of the five arrays as the call finds them. -/
def G (c : Dev nD) : Mat 8192 2048 :=
  expertStep (n := 8192) (V c main_v11) (V c main_v35) (V c main_v37) (V c main_v33) (V c main_v32)

/-- Row r of the token block at point t is row 256 t + r of the token array. -/
theorem xblk_at (c : Dev nD) (t : Fin cfg3.N) (r : Fin 256) (q : Fin 2048) :
    (iblk3 V c 0 t : Mat 256 2048) (ix2 r q) = (V c main_v11 : Mat 8192 2048) (ix2 (rowOf t r) q) := by
  obtain ⟨e0, e1, -⟩ := idx_facts t
  unfold iblk3
  rw [View.read_apply]
  show V c main_v11 _ = V c main_v11 _
  refine congrArg (V c main_v11) (funext fun a => Fin.ext ?_)
  match a with
  | ⟨0, _⟩ => show win3_0.index t (0 : Fin 2) * 256 + 1 * r.val = 256 * t.val + r.val; rw [e0]; omega
  | ⟨1, _⟩ => show win3_0.index t (1 : Fin 2) * 2048 + 1 * q.val = q.val; rw [e1]; omega

/-- Row r of the routing-weight block at point t is row 256 t + r of the routing-weight column. -/
theorem wblk_at (c : Dev nD) (t : Fin cfg3.N) (r : Fin 256) :
    (iblk3 V c 3 t : Mat 256 1) (ix2 r (0 : Fin 1)) = (V c main_v33 : Mat 8192 1) (ix2 (rowOf t r) (0 : Fin 1)) := by
  obtain ⟨-, -, -, -, -, -, e0, e1, -⟩ := idx_facts t
  unfold iblk3
  rw [View.read_apply]
  show V c main_v33 _ = V c main_v33 _
  refine congrArg (V c main_v33) (funext fun a => Fin.ext ?_)
  match a with
  | ⟨0, _⟩ => show win3_3.index t (0 : Fin 2) * 256 + 1 * r.val = 256 * t.val + r.val; rw [e0]; omega
  | ⟨1, _⟩ => show win3_3.index t (1 : Fin 2) * 1 + 1 * 0 = 0; rw [e1]

/-- Row r of the running-output block at point t is row 256 t + r of the running output. -/
theorem accblk_at (c : Dev nD) (t : Fin cfg3.N) (r : Fin 256) (q : Fin 2048) :
    (iblk3 V c 4 t : Mat 256 2048) (ix2 r q) = (V c main_v32 : Mat 8192 2048) (ix2 (rowOf t r) q) := by
  obtain ⟨-, -, -, -, -, -, -, -, e0, e1, -⟩ := idx_facts t
  unfold iblk3
  rw [View.read_apply]
  show V c main_v32 _ = V c main_v32 _
  refine congrArg (V c main_v32) (funext fun a => Fin.ext ?_)
  match a with
  | ⟨0, _⟩ => show win3_4.index t (0 : Fin 2) * 256 + 1 * r.val = 256 * t.val + r.val; rw [e0]; omega
  | ⟨1, _⟩ => show win3_4.index t (1 : Fin 2) * 2048 + 1 * q.val = q.val; rw [e1]; omega

/-- The up-projection's one block is the whole array. -/
theorem upblk (c : Dev nD) (t : Fin cfg3.N) : (iblk3 V c 1 t : Mat 2048 2816) = V c main_v35 := by
  obtain ⟨-, -, e0, e1, -⟩ := idx_facts t
  funext y
  unfold iblk3
  rw [View.read_apply]
  show V c main_v35 _ = V c main_v35 _
  refine congrArg (V c main_v35) (funext fun a => Fin.ext ?_)
  match a with
  | ⟨0, _⟩ => show win3_1.index t (0 : Fin 2) * 2048 + 1 * (y 0).val = (y 0).val; rw [e0]; omega
  | ⟨1, _⟩ => show win3_1.index t (1 : Fin 2) * 2816 + 1 * (y 1).val = (y 1).val; rw [e1]; omega

/-- The down-projection's one block is the whole array. -/
theorem dnblk (c : Dev nD) (t : Fin cfg3.N) : (iblk3 V c 2 t : Mat 1408 2048) = V c main_v37 := by
  obtain ⟨-, -, -, -, e0, e1, -⟩ := idx_facts t
  funext y
  unfold iblk3
  rw [View.read_apply]
  show V c main_v37 _ = V c main_v37 _
  refine congrArg (V c main_v37) (funext fun a => Fin.ext ?_)
  match a with
  | ⟨0, _⟩ => show win3_2.index t (0 : Fin 2) * 1408 + 1 * (y 0).val = (y 0).val; rw [e0]; omega
  | ⟨1, _⟩ => show win3_2.index t (1 : Fin 2) * 2048 + 1 * (y 1).val = (y 1).val; rw [e1]; omega

/-- What point t writes back is block t of G. -/
theorem flushed_eq (c : Dev nD) (t : Fin cfg3.N) :
    (dat3 V c).flushed 5 t = ((cfg3.win 5).blk t).view.read (Elt Ideal) (G V c) := by
  show (cfg3.win 5).cut (grid3.coords t) ((dat3 V c).after 5 t) = _
  rw [after3_5]
  unfold out3_5
  rw [View.canon_unit_zero hz]
  simp only [View.ld_unit_zero (S := S256x2048) hz, View.ld_unit_zero (S := S2048x2816) hz,
    View.ld_unit_zero (S := S1408x2048) hz, View.ld_unit_zero (S := S256x1) hz]
  funext j
  obtain ⟨r, q, rfl⟩ : ∃ (r : Fin 256) (q : Fin 2048), j = ix2 r q := ⟨j 0, j 1, eq_ix2 j⟩
  obtain ⟨-, -, -, -, -, -, -, -, -, -, e0, e1⟩ := idx_facts t
  have he : ((cfg3.win 5).blk t).view.emb (ix2 r q) = ix2 (rowOf t r) q := by
    funext a
    apply Fin.ext
    match a with
    | ⟨0, _⟩ => show win3_5.index t (0 : Fin 2) * 256 + 1 * r.val = 256 * t.val + r.val; rw [e0]; omega
    | ⟨1, _⟩ => show win3_5.index t (1 : Fin 2) * 2048 + 1 * q.val = q.val; rw [e1]; omega
  rw [View.read_apply, he]
  show k3_pay1 (F := Ideal) (iblk3 V c 0 t) (iblk3 V c 1 t) (iblk3 V c 2 t) (iblk3 V c 4 t) (iblk3 V c 3 t) (ix2 r q)
      = expertAt (n := 8192) (V c main_v11) (V c main_v35) (V c main_v37) (V c main_v33) (V c main_v32) (rowOf t r) q
  refine (Cert.KernelIdeal.MoeBody.body_at (iblk3 V c 0 t) (iblk3 V c 1 t) (iblk3 V c 2 t) (iblk3 V c 4 t) (iblk3 V c 3 t) r q).trans ?_
  rw [upblk V c t, dnblk V c t]
  exact expertAt_rows (n := 256) (n' := 8192) _ _ _ _ _ _ _ _ r (rowOf t r) q
    (fun cc => xblk_at V c t r cc) (wblk_at V c t r) (accblk_at V c t r q)

/-- An index of the result lies in point t's block iff each coordinate lies in the block's range on its axis. -/
theorem mem_blk (t : Fin cfg3.N) (i : S8192x2048.Idx) :
    i ∈ ((cfg3.win 5).blk t).view.set ↔ ∀ a : Fin 2, win3_5.index t a * S256x2048.size a ≤ (i a).val ∧ (i a).val < win3_5.index t a * S256x2048.size a + S256x2048.size a := by
  show i ∈ ((View.whole main_v38).slice (win3_5.rect t)).set ↔ _
  rw [View.set_slice_whole, Rect.mem_set_unit]
  exact Iff.rfl

/-- The result array after the call. -/
theorem final (c : Dev nD) : (dat3 V c).arrAt 5 cfg3.N = G V c :=
  (dat3 V c).arrAt_eq_of_cover 5 (G V c) (fun t _ => flushed_eq V c t) fun i => by
    have hi0 : (i 0).val < 8192 := (i 0).isLt
    have hi1 : (i 1).val < 2048 := (i 1).isLt
    have hN : cfg3.N = 32 := N_3
    refine ⟨⟨(i 0).val / 256, by rw [hN]; omega⟩, flush3_5 _, ?_⟩
    rw [mem_blk]
    obtain ⟨-, -, -, -, -, -, -, -, -, -, e0, e1⟩ := idx_facts ⟨(i 0).val / 256, by rw [hN]; omega⟩
    intro a
    match a with
    | ⟨0, _⟩ =>
      show win3_5.index _ (0 : Fin 2) * 256 ≤ (i 0).val ∧ (i 0).val < win3_5.index _ (0 : Fin 2) * 256 + 256
      rw [e0]; show (i 0).val / 256 * 256 ≤ (i 0).val ∧ (i 0).val < (i 0).val / 256 * 256 + 256; omega
    | ⟨1, _⟩ =>
      show win3_5.index _ (1 : Fin 2) * 2048 ≤ (i 1).val ∧ (i 1).val < win3_5.index _ (1 : Fin 2) * 2048 + 2048
      rw [e1]; omega

end Cert.KernelIdeal.MoeRegion3

end
-- ==== Proof.MoeRegion4.lean ====
/-
  Call 4 of the expert kernel, read as ONE array function. The grid has 32 points; point t takes rows 256 t ... 256 t + 255
  of the token array, of the routing-weight column and of the running output, the whole up- and down-projection, and
  writes the same rows of the result. Its stored block is the expert step on those 256 rows, and a row of the expert
  step reads only that row of the row operands, so the block is the block of the expert step on all 8192 rows. The 32
  blocks tile the result (row i lies in block i / 256), so the result array ends holding the expert step of the five
  arrays as the call found them.
-/
import proofs.«121777_j6605659701457_1_alg».proof.Proof.Gen.KernelIdeal.Frame
import proofs.«121777_j6605659701457_1_alg».proof.Proof.MoeBody
import Idealize.ShloMosaic.Lib.Pipeline.Value

noncomputable section

namespace Cert.KernelIdeal.MoeRegion4

open Cert.KernelIdeal Cert.KernelIdeal.Gen Idealize.ShloMosaic Idealize.ShloMosaic.TcCoe Idealize.ShloMosaic.ValueIdx
open Idealize.SL.Sem Cert.Moe
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row windows sit at block row t, the projections at block (0, 0). -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0
    ∧ win4_5.index t (0 : Fin 2) = t.val ∧ win4_5.index t (1 : Fin 2) = 0 :=
  (by decide +kernel : ∀ t : Fin grid4.N, _)

theorem lt32 (t : Fin cfg4.N) : t.val < 32 := by
  have hN : cfg4.N = 32 := N_4
  have := t.isLt
  omega

/-- Row 256 t + r of an 8192-row array. -/
abbrev rowOf (t : Fin cfg4.N) (r : Fin 256) : Fin 8192 := ⟨256 * t.val + r.val, by have := lt32 t; have := r.isLt; omega⟩

/-- The result array after the call: the expert step of the five arrays as the call finds them. -/
def G (c : Dev nD) : Mat 8192 2048 :=
  expertStep (n := 8192) (V c main_v11) (V c main_v41) (V c main_v43) (V c main_v39) (V c main_v38)

/-- Row r of the token block at point t is row 256 t + r of the token array. -/
theorem xblk_at (c : Dev nD) (t : Fin cfg4.N) (r : Fin 256) (q : Fin 2048) :
    (iblk4 V c 0 t : Mat 256 2048) (ix2 r q) = (V c main_v11 : Mat 8192 2048) (ix2 (rowOf t r) q) := by
  obtain ⟨e0, e1, -⟩ := idx_facts t
  unfold iblk4
  rw [View.read_apply]
  show V c main_v11 _ = V c main_v11 _
  refine congrArg (V c main_v11) (funext fun a => Fin.ext ?_)
  match a with
  | ⟨0, _⟩ => show win4_0.index t (0 : Fin 2) * 256 + 1 * r.val = 256 * t.val + r.val; rw [e0]; omega
  | ⟨1, _⟩ => show win4_0.index t (1 : Fin 2) * 2048 + 1 * q.val = q.val; rw [e1]; omega

/-- Row r of the routing-weight block at point t is row 256 t + r of the routing-weight column. -/
theorem wblk_at (c : Dev nD) (t : Fin cfg4.N) (r : Fin 256) :
    (iblk4 V c 3 t : Mat 256 1) (ix2 r (0 : Fin 1)) = (V c main_v39 : Mat 8192 1) (ix2 (rowOf t r) (0 : Fin 1)) := by
  obtain ⟨-, -, -, -, -, -, e0, e1, -⟩ := idx_facts t
  unfold iblk4
  rw [View.read_apply]
  show V c main_v39 _ = V c main_v39 _
  refine congrArg (V c main_v39) (funext fun a => Fin.ext ?_)
  match a with
  | ⟨0, _⟩ => show win4_3.index t (0 : Fin 2) * 256 + 1 * r.val = 256 * t.val + r.val; rw [e0]; omega
  | ⟨1, _⟩ => show win4_3.index t (1 : Fin 2) * 1 + 1 * 0 = 0; rw [e1]

/-- Row r of the running-output block at point t is row 256 t + r of the running output. -/
theorem accblk_at (c : Dev nD) (t : Fin cfg4.N) (r : Fin 256) (q : Fin 2048) :
    (iblk4 V c 4 t : Mat 256 2048) (ix2 r q) = (V c main_v38 : Mat 8192 2048) (ix2 (rowOf t r) q) := by
  obtain ⟨-, -, -, -, -, -, -, -, e0, e1, -⟩ := idx_facts t
  unfold iblk4
  rw [View.read_apply]
  show V c main_v38 _ = V c main_v38 _
  refine congrArg (V c main_v38) (funext fun a => Fin.ext ?_)
  match a with
  | ⟨0, _⟩ => show win4_4.index t (0 : Fin 2) * 256 + 1 * r.val = 256 * t.val + r.val; rw [e0]; omega
  | ⟨1, _⟩ => show win4_4.index t (1 : Fin 2) * 2048 + 1 * q.val = q.val; rw [e1]; omega

/-- The up-projection's one block is the whole array. -/
theorem upblk (c : Dev nD) (t : Fin cfg4.N) : (iblk4 V c 1 t : Mat 2048 2816) = V c main_v41 := by
  obtain ⟨-, -, e0, e1, -⟩ := idx_facts t
  funext y
  unfold iblk4
  rw [View.read_apply]
  show V c main_v41 _ = V c main_v41 _
  refine congrArg (V c main_v41) (funext fun a => Fin.ext ?_)
  match a with
  | ⟨0, _⟩ => show win4_1.index t (0 : Fin 2) * 2048 + 1 * (y 0).val = (y 0).val; rw [e0]; omega
  | ⟨1, _⟩ => show win4_1.index t (1 : Fin 2) * 2816 + 1 * (y 1).val = (y 1).val; rw [e1]; omega

/-- The down-projection's one block is the whole array. -/
theorem dnblk (c : Dev nD) (t : Fin cfg4.N) : (iblk4 V c 2 t : Mat 1408 2048) = V c main_v43 := by
  obtain ⟨-, -, -, -, e0, e1, -⟩ := idx_facts t
  funext y
  unfold iblk4
  rw [View.read_apply]
  show V c main_v43 _ = V c main_v43 _
  refine congrArg (V c main_v43) (funext fun a => Fin.ext ?_)
  match a with
  | ⟨0, _⟩ => show win4_2.index t (0 : Fin 2) * 1408 + 1 * (y 0).val = (y 0).val; rw [e0]; omega
  | ⟨1, _⟩ => show win4_2.index t (1 : Fin 2) * 2048 + 1 * (y 1).val = (y 1).val; rw [e1]; omega

/-- What point t writes back is block t of G. -/
theorem flushed_eq (c : Dev nD) (t : Fin cfg4.N) :
    (dat4 V c).flushed 5 t = ((cfg4.win 5).blk t).view.read (Elt Ideal) (G V c) := by
  show (cfg4.win 5).cut (grid4.coords t) ((dat4 V c).after 5 t) = _
  rw [after4_5]
  unfold out4_5
  rw [View.canon_unit_zero hz]
  simp only [View.ld_unit_zero (S := S256x2048) hz, View.ld_unit_zero (S := S2048x2816) hz,
    View.ld_unit_zero (S := S1408x2048) hz, View.ld_unit_zero (S := S256x1) hz]
  funext j
  obtain ⟨r, q, rfl⟩ : ∃ (r : Fin 256) (q : Fin 2048), j = ix2 r q := ⟨j 0, j 1, eq_ix2 j⟩
  obtain ⟨-, -, -, -, -, -, -, -, -, -, e0, e1⟩ := idx_facts t
  have he : ((cfg4.win 5).blk t).view.emb (ix2 r q) = ix2 (rowOf t r) q := by
    funext a
    apply Fin.ext
    match a with
    | ⟨0, _⟩ => show win4_5.index t (0 : Fin 2) * 256 + 1 * r.val = 256 * t.val + r.val; rw [e0]; omega
    | ⟨1, _⟩ => show win4_5.index t (1 : Fin 2) * 2048 + 1 * q.val = q.val; rw [e1]; omega
  rw [View.read_apply, he]
  show k4_pay1 (F := Ideal) (iblk4 V c 0 t) (iblk4 V c 1 t) (iblk4 V c 2 t) (iblk4 V c 4 t) (iblk4 V c 3 t) (ix2 r q)
      = expertAt (n := 8192) (V c main_v11) (V c main_v41) (V c main_v43) (V c main_v39) (V c main_v38) (rowOf t r) q
  refine (Cert.KernelIdeal.MoeBody.body_at (iblk4 V c 0 t) (iblk4 V c 1 t) (iblk4 V c 2 t) (iblk4 V c 4 t) (iblk4 V c 3 t) r q).trans ?_
  rw [upblk V c t, dnblk V c t]
  exact expertAt_rows (n := 256) (n' := 8192) _ _ _ _ _ _ _ _ r (rowOf t r) q
    (fun cc => xblk_at V c t r cc) (wblk_at V c t r) (accblk_at V c t r q)

/-- An index of the result lies in point t's block iff each coordinate lies in the block's range on its axis. -/
theorem mem_blk (t : Fin cfg4.N) (i : S8192x2048.Idx) :
    i ∈ ((cfg4.win 5).blk t).view.set ↔ ∀ a : Fin 2, win4_5.index t a * S256x2048.size a ≤ (i a).val ∧ (i a).val < win4_5.index t a * S256x2048.size a + S256x2048.size a := by
  show i ∈ ((View.whole main_v44).slice (win4_5.rect t)).set ↔ _
  rw [View.set_slice_whole, Rect.mem_set_unit]
  exact Iff.rfl

/-- The result array after the call. -/
theorem final (c : Dev nD) : (dat4 V c).arrAt 5 cfg4.N = G V c :=
  (dat4 V c).arrAt_eq_of_cover 5 (G V c) (fun t _ => flushed_eq V c t) fun i => by
    have hi0 : (i 0).val < 8192 := (i 0).isLt
    have hi1 : (i 1).val < 2048 := (i 1).isLt
    have hN : cfg4.N = 32 := N_4
    refine ⟨⟨(i 0).val / 256, by rw [hN]; omega⟩, flush4_5 _, ?_⟩
    rw [mem_blk]
    obtain ⟨-, -, -, -, -, -, -, -, -, -, e0, e1⟩ := idx_facts ⟨(i 0).val / 256, by rw [hN]; omega⟩
    intro a
    match a with
    | ⟨0, _⟩ =>
      show win4_5.index _ (0 : Fin 2) * 256 ≤ (i 0).val ∧ (i 0).val < win4_5.index _ (0 : Fin 2) * 256 + 256
      rw [e0]; show (i 0).val / 256 * 256 ≤ (i 0).val ∧ (i 0).val < (i 0).val / 256 * 256 + 256; omega
    | ⟨1, _⟩ =>
      show win4_5.index _ (1 : Fin 2) * 2048 ≤ (i 1).val ∧ (i 1).val < win4_5.index _ (1 : Fin 2) * 2048 + 2048
      rw [e1]; omega

end Cert.KernelIdeal.MoeRegion4

end
-- ==== Proof.MoeRegion5.lean ====
/-
  Call 5 of the expert kernel, read as ONE array function. The grid has 32 points; point t takes rows 256 t ... 256 t + 255
  of the token array, of the routing-weight column and of the running output, the whole up- and down-projection, and
  writes the same rows of the result. Its stored block is the expert step on those 256 rows, and a row of the expert
  step reads only that row of the row operands, so the block is the block of the expert step on all 8192 rows. The 32
  blocks tile the result (row i lies in block i / 256), so the result array ends holding the expert step of the five
  arrays as the call found them.
-/
import proofs.«121777_j6605659701457_1_alg».proof.Proof.Gen.KernelIdeal.Frame
import proofs.«121777_j6605659701457_1_alg».proof.Proof.MoeBody
import Idealize.ShloMosaic.Lib.Pipeline.Value

noncomputable section

namespace Cert.KernelIdeal.MoeRegion5

open Cert.KernelIdeal Cert.KernelIdeal.Gen Idealize.ShloMosaic Idealize.ShloMosaic.TcCoe Idealize.ShloMosaic.ValueIdx
open Idealize.SL.Sem Cert.Moe
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row windows sit at block row t, the projections at block (0, 0). -/
theorem idx_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0
    ∧ win5_4.index t (0 : Fin 2) = t.val ∧ win5_4.index t (1 : Fin 2) = 0
    ∧ win5_5.index t (0 : Fin 2) = t.val ∧ win5_5.index t (1 : Fin 2) = 0 :=
  (by decide +kernel : ∀ t : Fin grid5.N, _)

theorem lt32 (t : Fin cfg5.N) : t.val < 32 := by
  have hN : cfg5.N = 32 := N_5
  have := t.isLt
  omega

/-- Row 256 t + r of an 8192-row array. -/
abbrev rowOf (t : Fin cfg5.N) (r : Fin 256) : Fin 8192 := ⟨256 * t.val + r.val, by have := lt32 t; have := r.isLt; omega⟩

/-- The result array after the call: the expert step of the five arrays as the call finds them. -/
def G (c : Dev nD) : Mat 8192 2048 :=
  expertStep (n := 8192) (V c main_v11) (V c main_v47) (V c main_v49) (V c main_v45) (V c main_v44)

/-- Row r of the token block at point t is row 256 t + r of the token array. -/
theorem xblk_at (c : Dev nD) (t : Fin cfg5.N) (r : Fin 256) (q : Fin 2048) :
    (iblk5 V c 0 t : Mat 256 2048) (ix2 r q) = (V c main_v11 : Mat 8192 2048) (ix2 (rowOf t r) q) := by
  obtain ⟨e0, e1, -⟩ := idx_facts t
  unfold iblk5
  rw [View.read_apply]
  show V c main_v11 _ = V c main_v11 _
  refine congrArg (V c main_v11) (funext fun a => Fin.ext ?_)
  match a with
  | ⟨0, _⟩ => show win5_0.index t (0 : Fin 2) * 256 + 1 * r.val = 256 * t.val + r.val; rw [e0]; omega
  | ⟨1, _⟩ => show win5_0.index t (1 : Fin 2) * 2048 + 1 * q.val = q.val; rw [e1]; omega

/-- Row r of the routing-weight block at point t is row 256 t + r of the routing-weight column. -/
theorem wblk_at (c : Dev nD) (t : Fin cfg5.N) (r : Fin 256) :
    (iblk5 V c 3 t : Mat 256 1) (ix2 r (0 : Fin 1)) = (V c main_v45 : Mat 8192 1) (ix2 (rowOf t r) (0 : Fin 1)) := by
  obtain ⟨-, -, -, -, -, -, e0, e1, -⟩ := idx_facts t
  unfold iblk5
  rw [View.read_apply]
  show V c main_v45 _ = V c main_v45 _
  refine congrArg (V c main_v45) (funext fun a => Fin.ext ?_)
  match a with
  | ⟨0, _⟩ => show win5_3.index t (0 : Fin 2) * 256 + 1 * r.val = 256 * t.val + r.val; rw [e0]; omega
  | ⟨1, _⟩ => show win5_3.index t (1 : Fin 2) * 1 + 1 * 0 = 0; rw [e1]

/-- Row r of the running-output block at point t is row 256 t + r of the running output. -/
theorem accblk_at (c : Dev nD) (t : Fin cfg5.N) (r : Fin 256) (q : Fin 2048) :
    (iblk5 V c 4 t : Mat 256 2048) (ix2 r q) = (V c main_v44 : Mat 8192 2048) (ix2 (rowOf t r) q) := by
  obtain ⟨-, -, -, -, -, -, -, -, e0, e1, -⟩ := idx_facts t
  unfold iblk5
  rw [View.read_apply]
  show V c main_v44 _ = V c main_v44 _
  refine congrArg (V c main_v44) (funext fun a => Fin.ext ?_)
  match a with
  | ⟨0, _⟩ => show win5_4.index t (0 : Fin 2) * 256 + 1 * r.val = 256 * t.val + r.val; rw [e0]; omega
  | ⟨1, _⟩ => show win5_4.index t (1 : Fin 2) * 2048 + 1 * q.val = q.val; rw [e1]; omega

/-- The up-projection's one block is the whole array. -/
theorem upblk (c : Dev nD) (t : Fin cfg5.N) : (iblk5 V c 1 t : Mat 2048 2816) = V c main_v47 := by
  obtain ⟨-, -, e0, e1, -⟩ := idx_facts t
  funext y
  unfold iblk5
  rw [View.read_apply]
  show V c main_v47 _ = V c main_v47 _
  refine congrArg (V c main_v47) (funext fun a => Fin.ext ?_)
  match a with
  | ⟨0, _⟩ => show win5_1.index t (0 : Fin 2) * 2048 + 1 * (y 0).val = (y 0).val; rw [e0]; omega
  | ⟨1, _⟩ => show win5_1.index t (1 : Fin 2) * 2816 + 1 * (y 1).val = (y 1).val; rw [e1]; omega

/-- The down-projection's one block is the whole array. -/
theorem dnblk (c : Dev nD) (t : Fin cfg5.N) : (iblk5 V c 2 t : Mat 1408 2048) = V c main_v49 := by
  obtain ⟨-, -, -, -, e0, e1, -⟩ := idx_facts t
  funext y
  unfold iblk5
  rw [View.read_apply]
  show V c main_v49 _ = V c main_v49 _
  refine congrArg (V c main_v49) (funext fun a => Fin.ext ?_)
  match a with
  | ⟨0, _⟩ => show win5_2.index t (0 : Fin 2) * 1408 + 1 * (y 0).val = (y 0).val; rw [e0]; omega
  | ⟨1, _⟩ => show win5_2.index t (1 : Fin 2) * 2048 + 1 * (y 1).val = (y 1).val; rw [e1]; omega

/-- What point t writes back is block t of G. -/
theorem flushed_eq (c : Dev nD) (t : Fin cfg5.N) :
    (dat5 V c).flushed 5 t = ((cfg5.win 5).blk t).view.read (Elt Ideal) (G V c) := by
  show (cfg5.win 5).cut (grid5.coords t) ((dat5 V c).after 5 t) = _
  rw [after5_5]
  unfold out5_5
  rw [View.canon_unit_zero hz]
  simp only [View.ld_unit_zero (S := S256x2048) hz, View.ld_unit_zero (S := S2048x2816) hz,
    View.ld_unit_zero (S := S1408x2048) hz, View.ld_unit_zero (S := S256x1) hz]
  funext j
  obtain ⟨r, q, rfl⟩ : ∃ (r : Fin 256) (q : Fin 2048), j = ix2 r q := ⟨j 0, j 1, eq_ix2 j⟩
  obtain ⟨-, -, -, -, -, -, -, -, -, -, e0, e1⟩ := idx_facts t
  have he : ((cfg5.win 5).blk t).view.emb (ix2 r q) = ix2 (rowOf t r) q := by
    funext a
    apply Fin.ext
    match a with
    | ⟨0, _⟩ => show win5_5.index t (0 : Fin 2) * 256 + 1 * r.val = 256 * t.val + r.val; rw [e0]; omega
    | ⟨1, _⟩ => show win5_5.index t (1 : Fin 2) * 2048 + 1 * q.val = q.val; rw [e1]; omega
  rw [View.read_apply, he]
  show k5_pay1 (F := Ideal) (iblk5 V c 0 t) (iblk5 V c 1 t) (iblk5 V c 2 t) (iblk5 V c 4 t) (iblk5 V c 3 t) (ix2 r q)
      = expertAt (n := 8192) (V c main_v11) (V c main_v47) (V c main_v49) (V c main_v45) (V c main_v44) (rowOf t r) q
  refine (Cert.KernelIdeal.MoeBody.body_at (iblk5 V c 0 t) (iblk5 V c 1 t) (iblk5 V c 2 t) (iblk5 V c 4 t) (iblk5 V c 3 t) r q).trans ?_
  rw [upblk V c t, dnblk V c t]
  exact expertAt_rows (n := 256) (n' := 8192) _ _ _ _ _ _ _ _ r (rowOf t r) q
    (fun cc => xblk_at V c t r cc) (wblk_at V c t r) (accblk_at V c t r q)

/-- An index of the result lies in point t's block iff each coordinate lies in the block's range on its axis. -/
theorem mem_blk (t : Fin cfg5.N) (i : S8192x2048.Idx) :
    i ∈ ((cfg5.win 5).blk t).view.set ↔ ∀ a : Fin 2, win5_5.index t a * S256x2048.size a ≤ (i a).val ∧ (i a).val < win5_5.index t a * S256x2048.size a + S256x2048.size a := by
  show i ∈ ((View.whole main_v50).slice (win5_5.rect t)).set ↔ _
  rw [View.set_slice_whole, Rect.mem_set_unit]
  exact Iff.rfl

/-- The result array after the call. -/
theorem final (c : Dev nD) : (dat5 V c).arrAt 5 cfg5.N = G V c :=
  (dat5 V c).arrAt_eq_of_cover 5 (G V c) (fun t _ => flushed_eq V c t) fun i => by
    have hi0 : (i 0).val < 8192 := (i 0).isLt
    have hi1 : (i 1).val < 2048 := (i 1).isLt
    have hN : cfg5.N = 32 := N_5
    refine ⟨⟨(i 0).val / 256, by rw [hN]; omega⟩, flush5_5 _, ?_⟩
    rw [mem_blk]
    obtain ⟨-, -, -, -, -, -, -, -, -, -, e0, e1⟩ := idx_facts ⟨(i 0).val / 256, by rw [hN]; omega⟩
    intro a
    match a with
    | ⟨0, _⟩ =>
      show win5_5.index _ (0 : Fin 2) * 256 ≤ (i 0).val ∧ (i 0).val < win5_5.index _ (0 : Fin 2) * 256 + 256
      rw [e0]; show (i 0).val / 256 * 256 ≤ (i 0).val ∧ (i 0).val < (i 0).val / 256 * 256 + 256; omega
    | ⟨1, _⟩ =>
      show win5_5.index _ (1 : Fin 2) * 2048 ≤ (i 1).val ∧ (i 1).val < win5_5.index _ (1 : Fin 2) * 2048 + 2048
      rw [e1]; omega

end Cert.KernelIdeal.MoeRegion5

end
-- ==== Proof.MoeRegion6.lean ====
/-
  Call 6 of the expert kernel, read as ONE array function. The grid has 32 points; point t takes rows 256 t ... 256 t + 255
  of the token array, of the routing-weight column and of the running output, the whole up- and down-projection, and
  writes the same rows of the result. Its stored block is the expert step on those 256 rows, and a row of the expert
  step reads only that row of the row operands, so the block is the block of the expert step on all 8192 rows. The 32
  blocks tile the result (row i lies in block i / 256), so the result array ends holding the expert step of the five
  arrays as the call found them.
-/
import proofs.«121777_j6605659701457_1_alg».proof.Proof.Gen.KernelIdeal.Frame
import proofs.«121777_j6605659701457_1_alg».proof.Proof.MoeBody
import Idealize.ShloMosaic.Lib.Pipeline.Value

noncomputable section

namespace Cert.KernelIdeal.MoeRegion6

open Cert.KernelIdeal Cert.KernelIdeal.Gen Idealize.ShloMosaic Idealize.ShloMosaic.TcCoe Idealize.ShloMosaic.ValueIdx
open Idealize.SL.Sem Cert.Moe
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row windows sit at block row t, the projections at block (0, 0). -/
theorem idx_facts : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0
    ∧ win6_4.index t (0 : Fin 2) = t.val ∧ win6_4.index t (1 : Fin 2) = 0
    ∧ win6_5.index t (0 : Fin 2) = t.val ∧ win6_5.index t (1 : Fin 2) = 0 :=
  (by decide +kernel : ∀ t : Fin grid6.N, _)

theorem lt32 (t : Fin cfg6.N) : t.val < 32 := by
  have hN : cfg6.N = 32 := N_6
  have := t.isLt
  omega

/-- Row 256 t + r of an 8192-row array. -/
abbrev rowOf (t : Fin cfg6.N) (r : Fin 256) : Fin 8192 := ⟨256 * t.val + r.val, by have := lt32 t; have := r.isLt; omega⟩

/-- The result array after the call: the expert step of the five arrays as the call finds them. -/
def G (c : Dev nD) : Mat 8192 2048 :=
  expertStep (n := 8192) (V c main_v11) (V c main_v53) (V c main_v55) (V c main_v51) (V c main_v50)

/-- Row r of the token block at point t is row 256 t + r of the token array. -/
theorem xblk_at (c : Dev nD) (t : Fin cfg6.N) (r : Fin 256) (q : Fin 2048) :
    (iblk6 V c 0 t : Mat 256 2048) (ix2 r q) = (V c main_v11 : Mat 8192 2048) (ix2 (rowOf t r) q) := by
  obtain ⟨e0, e1, -⟩ := idx_facts t
  unfold iblk6
  rw [View.read_apply]
  show V c main_v11 _ = V c main_v11 _
  refine congrArg (V c main_v11) (funext fun a => Fin.ext ?_)
  match a with
  | ⟨0, _⟩ => show win6_0.index t (0 : Fin 2) * 256 + 1 * r.val = 256 * t.val + r.val; rw [e0]; omega
  | ⟨1, _⟩ => show win6_0.index t (1 : Fin 2) * 2048 + 1 * q.val = q.val; rw [e1]; omega

/-- Row r of the routing-weight block at point t is row 256 t + r of the routing-weight column. -/
theorem wblk_at (c : Dev nD) (t : Fin cfg6.N) (r : Fin 256) :
    (iblk6 V c 3 t : Mat 256 1) (ix2 r (0 : Fin 1)) = (V c main_v51 : Mat 8192 1) (ix2 (rowOf t r) (0 : Fin 1)) := by
  obtain ⟨-, -, -, -, -, -, e0, e1, -⟩ := idx_facts t
  unfold iblk6
  rw [View.read_apply]
  show V c main_v51 _ = V c main_v51 _
  refine congrArg (V c main_v51) (funext fun a => Fin.ext ?_)
  match a with
  | ⟨0, _⟩ => show win6_3.index t (0 : Fin 2) * 256 + 1 * r.val = 256 * t.val + r.val; rw [e0]; omega
  | ⟨1, _⟩ => show win6_3.index t (1 : Fin 2) * 1 + 1 * 0 = 0; rw [e1]

/-- Row r of the running-output block at point t is row 256 t + r of the running output. -/
theorem accblk_at (c : Dev nD) (t : Fin cfg6.N) (r : Fin 256) (q : Fin 2048) :
    (iblk6 V c 4 t : Mat 256 2048) (ix2 r q) = (V c main_v50 : Mat 8192 2048) (ix2 (rowOf t r) q) := by
  obtain ⟨-, -, -, -, -, -, -, -, e0, e1, -⟩ := idx_facts t
  unfold iblk6
  rw [View.read_apply]
  show V c main_v50 _ = V c main_v50 _
  refine congrArg (V c main_v50) (funext fun a => Fin.ext ?_)
  match a with
  | ⟨0, _⟩ => show win6_4.index t (0 : Fin 2) * 256 + 1 * r.val = 256 * t.val + r.val; rw [e0]; omega
  | ⟨1, _⟩ => show win6_4.index t (1 : Fin 2) * 2048 + 1 * q.val = q.val; rw [e1]; omega

/-- The up-projection's one block is the whole array. -/
theorem upblk (c : Dev nD) (t : Fin cfg6.N) : (iblk6 V c 1 t : Mat 2048 2816) = V c main_v53 := by
  obtain ⟨-, -, e0, e1, -⟩ := idx_facts t
  funext y
  unfold iblk6
  rw [View.read_apply]
  show V c main_v53 _ = V c main_v53 _
  refine congrArg (V c main_v53) (funext fun a => Fin.ext ?_)
  match a with
  | ⟨0, _⟩ => show win6_1.index t (0 : Fin 2) * 2048 + 1 * (y 0).val = (y 0).val; rw [e0]; omega
  | ⟨1, _⟩ => show win6_1.index t (1 : Fin 2) * 2816 + 1 * (y 1).val = (y 1).val; rw [e1]; omega

/-- The down-projection's one block is the whole array. -/
theorem dnblk (c : Dev nD) (t : Fin cfg6.N) : (iblk6 V c 2 t : Mat 1408 2048) = V c main_v55 := by
  obtain ⟨-, -, -, -, e0, e1, -⟩ := idx_facts t
  funext y
  unfold iblk6
  rw [View.read_apply]
  show V c main_v55 _ = V c main_v55 _
  refine congrArg (V c main_v55) (funext fun a => Fin.ext ?_)
  match a with
  | ⟨0, _⟩ => show win6_2.index t (0 : Fin 2) * 1408 + 1 * (y 0).val = (y 0).val; rw [e0]; omega
  | ⟨1, _⟩ => show win6_2.index t (1 : Fin 2) * 2048 + 1 * (y 1).val = (y 1).val; rw [e1]; omega

/-- What point t writes back is block t of G. -/
theorem flushed_eq (c : Dev nD) (t : Fin cfg6.N) :
    (dat6 V c).flushed 5 t = ((cfg6.win 5).blk t).view.read (Elt Ideal) (G V c) := by
  show (cfg6.win 5).cut (grid6.coords t) ((dat6 V c).after 5 t) = _
  rw [after6_5]
  unfold out6_5
  rw [View.canon_unit_zero hz]
  simp only [View.ld_unit_zero (S := S256x2048) hz, View.ld_unit_zero (S := S2048x2816) hz,
    View.ld_unit_zero (S := S1408x2048) hz, View.ld_unit_zero (S := S256x1) hz]
  funext j
  obtain ⟨r, q, rfl⟩ : ∃ (r : Fin 256) (q : Fin 2048), j = ix2 r q := ⟨j 0, j 1, eq_ix2 j⟩
  obtain ⟨-, -, -, -, -, -, -, -, -, -, e0, e1⟩ := idx_facts t
  have he : ((cfg6.win 5).blk t).view.emb (ix2 r q) = ix2 (rowOf t r) q := by
    funext a
    apply Fin.ext
    match a with
    | ⟨0, _⟩ => show win6_5.index t (0 : Fin 2) * 256 + 1 * r.val = 256 * t.val + r.val; rw [e0]; omega
    | ⟨1, _⟩ => show win6_5.index t (1 : Fin 2) * 2048 + 1 * q.val = q.val; rw [e1]; omega
  rw [View.read_apply, he]
  show k6_pay1 (F := Ideal) (iblk6 V c 0 t) (iblk6 V c 1 t) (iblk6 V c 2 t) (iblk6 V c 4 t) (iblk6 V c 3 t) (ix2 r q)
      = expertAt (n := 8192) (V c main_v11) (V c main_v53) (V c main_v55) (V c main_v51) (V c main_v50) (rowOf t r) q
  refine (Cert.KernelIdeal.MoeBody.body_at (iblk6 V c 0 t) (iblk6 V c 1 t) (iblk6 V c 2 t) (iblk6 V c 4 t) (iblk6 V c 3 t) r q).trans ?_
  rw [upblk V c t, dnblk V c t]
  exact expertAt_rows (n := 256) (n' := 8192) _ _ _ _ _ _ _ _ r (rowOf t r) q
    (fun cc => xblk_at V c t r cc) (wblk_at V c t r) (accblk_at V c t r q)

/-- An index of the result lies in point t's block iff each coordinate lies in the block's range on its axis. -/
theorem mem_blk (t : Fin cfg6.N) (i : S8192x2048.Idx) :
    i ∈ ((cfg6.win 5).blk t).view.set ↔ ∀ a : Fin 2, win6_5.index t a * S256x2048.size a ≤ (i a).val ∧ (i a).val < win6_5.index t a * S256x2048.size a + S256x2048.size a := by
  show i ∈ ((View.whole main_v56).slice (win6_5.rect t)).set ↔ _
  rw [View.set_slice_whole, Rect.mem_set_unit]
  exact Iff.rfl

/-- The result array after the call. -/
theorem final (c : Dev nD) : (dat6 V c).arrAt 5 cfg6.N = G V c :=
  (dat6 V c).arrAt_eq_of_cover 5 (G V c) (fun t _ => flushed_eq V c t) fun i => by
    have hi0 : (i 0).val < 8192 := (i 0).isLt
    have hi1 : (i 1).val < 2048 := (i 1).isLt
    have hN : cfg6.N = 32 := N_6
    refine ⟨⟨(i 0).val / 256, by rw [hN]; omega⟩, flush6_5 _, ?_⟩
    rw [mem_blk]
    obtain ⟨-, -, -, -, -, -, -, -, -, -, e0, e1⟩ := idx_facts ⟨(i 0).val / 256, by rw [hN]; omega⟩
    intro a
    match a with
    | ⟨0, _⟩ =>
      show win6_5.index _ (0 : Fin 2) * 256 ≤ (i 0).val ∧ (i 0).val < win6_5.index _ (0 : Fin 2) * 256 + 256
      rw [e0]; show (i 0).val / 256 * 256 ≤ (i 0).val ∧ (i 0).val < (i 0).val / 256 * 256 + 256; omega
    | ⟨1, _⟩ =>
      show win6_5.index _ (1 : Fin 2) * 2048 ≤ (i 1).val ∧ (i 1).val < win6_5.index _ (1 : Fin 2) * 2048 + 2048
      rw [e1]; omega

end Cert.KernelIdeal.MoeRegion6

end
-- ==== Proof.MoeRegion7.lean ====
/-
  Call 7 of the expert kernel, read as ONE array function. The grid has 32 points; point t takes rows 256 t ... 256 t + 255
  of the token array, of the routing-weight column and of the running output, the whole up- and down-projection, and
  writes the same rows of the result. Its stored block is the expert step on those 256 rows, and a row of the expert
  step reads only that row of the row operands, so the block is the block of the expert step on all 8192 rows. The 32
  blocks tile the result (row i lies in block i / 256), so the result array ends holding the expert step of the five
  arrays as the call found them.
-/
import proofs.«121777_j6605659701457_1_alg».proof.Proof.Gen.KernelIdeal.Frame
import proofs.«121777_j6605659701457_1_alg».proof.Proof.MoeBody
import Idealize.ShloMosaic.Lib.Pipeline.Value

noncomputable section

namespace Cert.KernelIdeal.MoeRegion7

open Cert.KernelIdeal Cert.KernelIdeal.Gen Idealize.ShloMosaic Idealize.ShloMosaic.TcCoe Idealize.ShloMosaic.ValueIdx
open Idealize.SL.Sem Cert.Moe
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row windows sit at block row t, the projections at block (0, 0). -/
theorem idx_facts : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0
    ∧ win7_4.index t (0 : Fin 2) = t.val ∧ win7_4.index t (1 : Fin 2) = 0
    ∧ win7_5.index t (0 : Fin 2) = t.val ∧ win7_5.index t (1 : Fin 2) = 0 :=
  (by decide +kernel : ∀ t : Fin grid7.N, _)

theorem lt32 (t : Fin cfg7.N) : t.val < 32 := by
  have hN : cfg7.N = 32 := N_7
  have := t.isLt
  omega

/-- Row 256 t + r of an 8192-row array. -/
abbrev rowOf (t : Fin cfg7.N) (r : Fin 256) : Fin 8192 := ⟨256 * t.val + r.val, by have := lt32 t; have := r.isLt; omega⟩

/-- The result array after the call: the expert step of the five arrays as the call finds them. -/
def G (c : Dev nD) : Mat 8192 2048 :=
  expertStep (n := 8192) (V c main_v11) (V c main_v59) (V c main_v61) (V c main_v57) (V c main_v56)

/-- Row r of the token block at point t is row 256 t + r of the token array. -/
theorem xblk_at (c : Dev nD) (t : Fin cfg7.N) (r : Fin 256) (q : Fin 2048) :
    (iblk7 V c 0 t : Mat 256 2048) (ix2 r q) = (V c main_v11 : Mat 8192 2048) (ix2 (rowOf t r) q) := by
  obtain ⟨e0, e1, -⟩ := idx_facts t
  unfold iblk7
  rw [View.read_apply]
  show V c main_v11 _ = V c main_v11 _
  refine congrArg (V c main_v11) (funext fun a => Fin.ext ?_)
  match a with
  | ⟨0, _⟩ => show win7_0.index t (0 : Fin 2) * 256 + 1 * r.val = 256 * t.val + r.val; rw [e0]; omega
  | ⟨1, _⟩ => show win7_0.index t (1 : Fin 2) * 2048 + 1 * q.val = q.val; rw [e1]; omega

/-- Row r of the routing-weight block at point t is row 256 t + r of the routing-weight column. -/
theorem wblk_at (c : Dev nD) (t : Fin cfg7.N) (r : Fin 256) :
    (iblk7 V c 3 t : Mat 256 1) (ix2 r (0 : Fin 1)) = (V c main_v57 : Mat 8192 1) (ix2 (rowOf t r) (0 : Fin 1)) := by
  obtain ⟨-, -, -, -, -, -, e0, e1, -⟩ := idx_facts t
  unfold iblk7
  rw [View.read_apply]
  show V c main_v57 _ = V c main_v57 _
  refine congrArg (V c main_v57) (funext fun a => Fin.ext ?_)
  match a with
  | ⟨0, _⟩ => show win7_3.index t (0 : Fin 2) * 256 + 1 * r.val = 256 * t.val + r.val; rw [e0]; omega
  | ⟨1, _⟩ => show win7_3.index t (1 : Fin 2) * 1 + 1 * 0 = 0; rw [e1]

/-- Row r of the running-output block at point t is row 256 t + r of the running output. -/
theorem accblk_at (c : Dev nD) (t : Fin cfg7.N) (r : Fin 256) (q : Fin 2048) :
    (iblk7 V c 4 t : Mat 256 2048) (ix2 r q) = (V c main_v56 : Mat 8192 2048) (ix2 (rowOf t r) q) := by
  obtain ⟨-, -, -, -, -, -, -, -, e0, e1, -⟩ := idx_facts t
  unfold iblk7
  rw [View.read_apply]
  show V c main_v56 _ = V c main_v56 _
  refine congrArg (V c main_v56) (funext fun a => Fin.ext ?_)
  match a with
  | ⟨0, _⟩ => show win7_4.index t (0 : Fin 2) * 256 + 1 * r.val = 256 * t.val + r.val; rw [e0]; omega
  | ⟨1, _⟩ => show win7_4.index t (1 : Fin 2) * 2048 + 1 * q.val = q.val; rw [e1]; omega

/-- The up-projection's one block is the whole array. -/
theorem upblk (c : Dev nD) (t : Fin cfg7.N) : (iblk7 V c 1 t : Mat 2048 2816) = V c main_v59 := by
  obtain ⟨-, -, e0, e1, -⟩ := idx_facts t
  funext y
  unfold iblk7
  rw [View.read_apply]
  show V c main_v59 _ = V c main_v59 _
  refine congrArg (V c main_v59) (funext fun a => Fin.ext ?_)
  match a with
  | ⟨0, _⟩ => show win7_1.index t (0 : Fin 2) * 2048 + 1 * (y 0).val = (y 0).val; rw [e0]; omega
  | ⟨1, _⟩ => show win7_1.index t (1 : Fin 2) * 2816 + 1 * (y 1).val = (y 1).val; rw [e1]; omega

/-- The down-projection's one block is the whole array. -/
theorem dnblk (c : Dev nD) (t : Fin cfg7.N) : (iblk7 V c 2 t : Mat 1408 2048) = V c main_v61 := by
  obtain ⟨-, -, -, -, e0, e1, -⟩ := idx_facts t
  funext y
  unfold iblk7
  rw [View.read_apply]
  show V c main_v61 _ = V c main_v61 _
  refine congrArg (V c main_v61) (funext fun a => Fin.ext ?_)
  match a with
  | ⟨0, _⟩ => show win7_2.index t (0 : Fin 2) * 1408 + 1 * (y 0).val = (y 0).val; rw [e0]; omega
  | ⟨1, _⟩ => show win7_2.index t (1 : Fin 2) * 2048 + 1 * (y 1).val = (y 1).val; rw [e1]; omega

/-- What point t writes back is block t of G. -/
theorem flushed_eq (c : Dev nD) (t : Fin cfg7.N) :
    (dat7 V c).flushed 5 t = ((cfg7.win 5).blk t).view.read (Elt Ideal) (G V c) := by
  show (cfg7.win 5).cut (grid7.coords t) ((dat7 V c).after 5 t) = _
  rw [after7_5]
  unfold out7_5
  rw [View.canon_unit_zero hz]
  simp only [View.ld_unit_zero (S := S256x2048) hz, View.ld_unit_zero (S := S2048x2816) hz,
    View.ld_unit_zero (S := S1408x2048) hz, View.ld_unit_zero (S := S256x1) hz]
  funext j
  obtain ⟨r, q, rfl⟩ : ∃ (r : Fin 256) (q : Fin 2048), j = ix2 r q := ⟨j 0, j 1, eq_ix2 j⟩
  obtain ⟨-, -, -, -, -, -, -, -, -, -, e0, e1⟩ := idx_facts t
  have he : ((cfg7.win 5).blk t).view.emb (ix2 r q) = ix2 (rowOf t r) q := by
    funext a
    apply Fin.ext
    match a with
    | ⟨0, _⟩ => show win7_5.index t (0 : Fin 2) * 256 + 1 * r.val = 256 * t.val + r.val; rw [e0]; omega
    | ⟨1, _⟩ => show win7_5.index t (1 : Fin 2) * 2048 + 1 * q.val = q.val; rw [e1]; omega
  rw [View.read_apply, he]
  show k7_pay1 (F := Ideal) (iblk7 V c 0 t) (iblk7 V c 1 t) (iblk7 V c 2 t) (iblk7 V c 4 t) (iblk7 V c 3 t) (ix2 r q)
      = expertAt (n := 8192) (V c main_v11) (V c main_v59) (V c main_v61) (V c main_v57) (V c main_v56) (rowOf t r) q
  refine (Cert.KernelIdeal.MoeBody.body_at (iblk7 V c 0 t) (iblk7 V c 1 t) (iblk7 V c 2 t) (iblk7 V c 4 t) (iblk7 V c 3 t) r q).trans ?_
  rw [upblk V c t, dnblk V c t]
  exact expertAt_rows (n := 256) (n' := 8192) _ _ _ _ _ _ _ _ r (rowOf t r) q
    (fun cc => xblk_at V c t r cc) (wblk_at V c t r) (accblk_at V c t r q)

/-- An index of the result lies in point t's block iff each coordinate lies in the block's range on its axis. -/
theorem mem_blk (t : Fin cfg7.N) (i : S8192x2048.Idx) :
    i ∈ ((cfg7.win 5).blk t).view.set ↔ ∀ a : Fin 2, win7_5.index t a * S256x2048.size a ≤ (i a).val ∧ (i a).val < win7_5.index t a * S256x2048.size a + S256x2048.size a := by
  show i ∈ ((View.whole main_v62).slice (win7_5.rect t)).set ↔ _
  rw [View.set_slice_whole, Rect.mem_set_unit]
  exact Iff.rfl

/-- The result array after the call. -/
theorem final (c : Dev nD) : (dat7 V c).arrAt 5 cfg7.N = G V c :=
  (dat7 V c).arrAt_eq_of_cover 5 (G V c) (fun t _ => flushed_eq V c t) fun i => by
    have hi0 : (i 0).val < 8192 := (i 0).isLt
    have hi1 : (i 1).val < 2048 := (i 1).isLt
    have hN : cfg7.N = 32 := N_7
    refine ⟨⟨(i 0).val / 256, by rw [hN]; omega⟩, flush7_5 _, ?_⟩
    rw [mem_blk]
    obtain ⟨-, -, -, -, -, -, -, -, -, -, e0, e1⟩ := idx_facts ⟨(i 0).val / 256, by rw [hN]; omega⟩
    intro a
    match a with
    | ⟨0, _⟩ =>
      show win7_5.index _ (0 : Fin 2) * 256 ≤ (i 0).val ∧ (i 0).val < win7_5.index _ (0 : Fin 2) * 256 + 256
      rw [e0]; show (i 0).val / 256 * 256 ≤ (i 0).val ∧ (i 0).val < (i 0).val / 256 * 256 + 256; omega
    | ⟨1, _⟩ =>
      show win7_5.index _ (1 : Fin 2) * 2048 ≤ (i 1).val ∧ (i 1).val < win7_5.index _ (1 : Fin 2) * 2048 + 2048
      rw [e1]; omega

end Cert.KernelIdeal.MoeRegion7

end
-- ==== Proof.MoeRouteSpec.lean ====
/-
  A token's routing weight for one expert: over the token's two routing slots, the slot's score where the slot names
  that expert (the comparison's bit as a float), summed from zero. As a column over the 8192 tokens it is what one
  expert step of the layer multiplies the expert's output by.
-/
import proofs.«121777_j6605659701457_1_alg».proof.Proof.MoeSpec

noncomputable section

namespace Cert.Moe

open Idealize.ShloMosaic Idealize.ShloMosaic.ValueIdx

/-- The routing weight of token t for the expert numbered lit. -/
def routeAt (idx : (⟨2, ![8192, 2]⟩ : Shape).Idx → BitVec 32) (sc : Mat 8192 2) (lit : BitVec 32) (t : Fin 8192) : EReal :=
  Ideal.ofBits .f32 0x00000000#32
    + ∑ s : Fin 2, sc (ix2 t s) * FloatOps.uitofp (F := Ideal) .f32 (IntOp.cmpi .eq (idx (ix2 t s)) lit)

/-- The column of routing weights for the expert numbered lit. -/
def routeCol (idx : (⟨2, ![8192, 2]⟩ : Shape).Idx → BitVec 32) (sc : Mat 8192 2) (lit : BitVec 32) : Mat 8192 1 :=
  fun i => routeAt idx sc lit (i 0)

end Cert.Moe

end
-- ==== Proof.MoeRouteK.lean ====
/-
  The kernel program's routing weights. The host computes one [8192, 8] table for all experts: scores and slot indices
  are spread along a new expert axis, the slot indices are compared with the expert numbers 0 ... 7 laid along that axis,
  the comparison's bit is converted to a float, multiplied by the score and summed over the two slots. Column e of the
  table, sliced off as an [8192, 1] array, is the column of routing weights for expert e.
-/
import proofs.«121777_j6605659701457_1_alg».proof.Proof.Gen.KernelIdeal
import proofs.«121777_j6605659701457_1_alg».proof.Proof.MoeRouteSpec
import Idealize.ShloMosaic.Lib.Pipeline.Value
import Idealize.ShloMosaic.Lib.ValueIdx
import Idealize.ShloMosaic.PureOps.Ideal.Laws

noncomputable section

namespace Cert.KernelIdeal.MoeRoute

open Cert.KernelIdeal Cert.KernelIdeal.Facts₀ Cert.KernelIdeal.Facts Idealize.ShloMosaic Idealize.ShloMosaic.ValueIdx Cert.Moe

variable {α : Type}

/-- A per-slot array spread along the expert axis reads, at (t, s, e), the array at (t, s). -/
theorem spread_at (v : S8192x2.Idx → α) (t : Fin 8192) (s : Fin 2) (e : Fin 8) :
    broadcastInDim S8192x2x8 ![0, 1, 2] bcast_S8192x2x1_S8192x2x8_0_1_2
      (broadcastInDim S8192x2x1 ![0, 1] bcast_S8192x2_S8192x2x1_0_1 v) (ix3 t s e) = v (ix2 t s) :=
  (broadcastInDim_apply _ bcast_S8192x2x1_S8192x2x8_0_1_2 _ (ix3 t s e) (ix3 t s (0 : Fin 1)) fun a => by
    match a with
    | ⟨0, _⟩ => show t.val = if (8192 : ℕ) = 1 then 0 else t.val; rw [if_neg (by decide)]
    | ⟨1, _⟩ => show s.val = if (2 : ℕ) = 1 then 0 else s.val; rw [if_neg (by decide)]
    | ⟨2, _⟩ => show (0 : ℕ) = if (1 : ℕ) = 1 then 0 else e.val; rw [if_pos rfl]).trans
  (broadcastInDim_apply _ bcast_S8192x2_S8192x2x1_0_1 v (ix3 t s (0 : Fin 1)) (ix2 t s) fun a => by
    match a with
    | ⟨0, _⟩ => show t.val = if (8192 : ℕ) = 1 then 0 else t.val; rw [if_neg (by decide)]
    | ⟨1, _⟩ => show s.val = if (2 : ℕ) = 1 then 0 else s.val; rw [if_neg (by decide)])

/-- The expert numbers laid along the expert axis read, at (t, s, e), the number e. -/
theorem numbers_at (t : Fin 8192) (s : Fin 2) (e : Fin 8) :
    broadcastInDim S8192x2x8 ![0, 1, 2] bcast_S1x1x8_S8192x2x8_0_1_2
      (broadcastInDim S1x1x8 ![2] bcast_S8_S1x1x8_2 (iotaInDim S8 32 0)) (ix3 t s e) = BitVec.ofNat 32 e.val :=
  ((broadcastInDim_apply _ bcast_S1x1x8_S8192x2x8_0_1_2 _ (ix3 t s e) (ix3 (0 : Fin 1) (0 : Fin 1) e) fun a => by
    match a with
    | ⟨0, _⟩ => show (0 : ℕ) = if (1 : ℕ) = 1 then 0 else t.val; rw [if_pos rfl]
    | ⟨1, _⟩ => show (0 : ℕ) = if (1 : ℕ) = 1 then 0 else s.val; rw [if_pos rfl]
    | ⟨2, _⟩ => show e.val = if (8 : ℕ) = 1 then 0 else e.val; rw [if_neg (by decide)]).trans
  (broadcastInDim_apply _ bcast_S8_S1x1x8_2 (iotaInDim S8 32 0) (ix3 (0 : Fin 1) (0 : Fin 1) e) (ix1 e) fun a => by
    match a with
    | ⟨0, _⟩ => show e.val = if (8 : ℕ) = 1 then 0 else e.val; rw [if_neg (by decide)])).trans rfl

/-- The table of routing weights, as the host computes it. -/
abbrev table (a1 : IVec S8192x2 32) (a2 : FVec Ideal S8192x2 .f32) : FVec Ideal S8192x8 .f32 :=
  Host.reduceAdd (F := Ideal)
    (mulf (broadcastInDim S8192x2x8 ![0, 1, 2] bcast_S8192x2x1_S8192x2x8_0_1_2 (broadcastInDim S8192x2x1 ![0, 1] bcast_S8192x2_S8192x2x1_0_1 a2))
      (uitofp .f32 (cmpi .eq
        (broadcastInDim S8192x2x8 ![0, 1, 2] bcast_S8192x2x1_S8192x2x8_0_1_2 (broadcastInDim S8192x2x1 ![0, 1] bcast_S8192x2_S8192x2x1_0_1 a1))
        (broadcastInDim S8192x2x8 ![0, 1, 2] bcast_S1x1x8_S8192x2x8_0_1_2 (broadcastInDim S1x1x8 ![2] bcast_S8_S1x1x8_2 (iotaInDim S8 32 0))))))
    (constant S_ .f32 0x00000000#32) reducesTo_S8192x2x8_S8192x8_d1 h_S_

/-- The table at (t, e) is token t's routing weight for expert e. -/
theorem table_at (a1 : IVec S8192x2 32) (a2 : FVec Ideal S8192x2 .f32) (t : Fin 8192) (e : Fin 8) :
    table a1 a2 (ix2 t e) = routeAt a1 a2 (BitVec.ofNat 32 e.val) t := by
  simp only [table, Host.reduceAdd, Ideal.hostReduceAdd_def]
  rw [Ideal.hostReduceAdd_single reducesTo_S8192x2x8_S8192x8_d1 (by decide)]
  unfold routeAt
  refine congrArg₂ (· + ·) rfl (Finset.sum_congr rfl fun s _ => ?_)
  have hl : (by decide : S8192x2x8.Reduces [1] S8192x8).lift (ix2 t e) s = ix3 t s e :=
    funext fun a => Fin.ext (by
      match a with
      | ⟨0, _⟩ => rfl
      | ⟨1, _⟩ => rfl
      | ⟨2, _⟩ => rfl)
  rw [hl]
  exact congrArg₂ (· * ·) (spread_at a2 t s e)
    (congrArg (FloatOps.uitofp (F := Ideal) .f32) (congrArg₂ (IntOp.cmpi .eq) (spread_at a1 t s e) (numbers_at t s e)))

/-- Column e of a table with 8 columns, sliced off as a one-column array, reads the table at (t, e). -/
theorem column_at (T : FVec Ideal S8192x8 .f32) (e : ℕ) (he : e < 8) (h : S8192x8.Slices ![0, e] S8192x1) (t : Fin 8192) :
    extractStridedSlice S8192x1 ![0, e] T h (ix2 t (0 : Fin 1)) = T (ix2 t (⟨e, he⟩ : Fin 8)) :=
  extractStridedSlice_apply _ T h (ix2 t (0 : Fin 1)) (ix2 t (⟨e, he⟩ : Fin 8)) fun a => by
    match a with
    | ⟨0, _⟩ => show t.val = 0 + t.val; omega
    | ⟨1, _⟩ => show e = e + 0; omega

/-- Column e of the table is the column of routing weights for expert e. -/
theorem column_eq (a1 : IVec S8192x2 32) (a2 : FVec Ideal S8192x2 .f32) (e : ℕ) (he : e < 8) (h : S8192x8.Slices ![0, e] S8192x1) :
    extractStridedSlice S8192x1 ![0, e] (table a1 a2) h = routeCol a1 a2 (BitVec.ofNat 32 e) := by
  funext i
  obtain ⟨t, u, rfl⟩ : ∃ (t : Fin 8192) (u : Fin 1), i = ix2 t u := ⟨i 0, i 1, eq_ix2 i⟩
  obtain rfl : u = 0 := Subsingleton.elim _ _
  exact (column_at _ e he h t).trans (table_at a1 a2 t ⟨e, he⟩)

/-- Column e of an 8-column table, as a one-column array. -/
def colOf (T : Mat 8192 8) (e : ℕ) (h : (⟨2, ![8192, 8]⟩ : Shape).Slices ![0, e] ⟨2, ![8192, 1]⟩) : Mat 8192 1 :=
  extractStridedSlice ⟨2, ![8192, 1]⟩ ![0, e] T h

/-- Column e of the table of routing weights is the column of routing weights for expert e. -/
theorem colOf_table (a1 : IVec S8192x2 32) (a2 : FVec Ideal S8192x2 .f32) (e : ℕ) (he : e < 8)
    (h : (⟨2, ![8192, 8]⟩ : Shape).Slices ![0, e] ⟨2, ![8192, 1]⟩) :
    colOf (table a1 a2) e h = routeCol a1 a2 (BitVec.ofNat 32 e) := column_eq a1 a2 e he h

end Cert.KernelIdeal.MoeRoute

end
-- ==== Proof.MoeSlabs.lean ====
/-
  The stacked projections of the eight experts, one expert's slab at a time: slab e of the [8, 2048, 2816] up-projections
  (of the [8, 1408, 2048] down-projections) is cut out along the first axis and its unit axis dropped. The shape facts
  the cut and the reshape need are arguments: two programs that spell them by their own names cut the same slab.
  Also the zero array the layer starts from.
-/
import proofs.«121777_j6605659701457_1_alg».proof.Proof.MoeRouteSpec
import Idealize.ShloMosaic.PureOps.Ideal

noncomputable section

namespace Cert.Moe

open Idealize.ShloMosaic Idealize.ShloMosaic.ValueIdx

/-- Slab e of the stacked up-projections, as a [2048, 2816] array. -/
def upSlab (a3 : (⟨3, ![8, 2048, 2816]⟩ : Shape).Idx → EReal) (e : ℕ)
    (h : (⟨3, ![8, 2048, 2816]⟩ : Shape).Slices ![e, 0, 0] ⟨3, ![1, 2048, 2816]⟩)
    (h' : (⟨3, ![1, 2048, 2816]⟩ : Shape).ShapeCasts ⟨2, ![2048, 2816]⟩) : Mat 2048 2816 :=
  shapeCast ⟨2, ![2048, 2816]⟩ (extractStridedSlice ⟨3, ![1, 2048, 2816]⟩ ![e, 0, 0] a3 h) h'

/-- Slab e of the stacked down-projections, as a [1408, 2048] array. -/
def dnSlab (a4 : (⟨3, ![8, 1408, 2048]⟩ : Shape).Idx → EReal) (e : ℕ)
    (h : (⟨3, ![8, 1408, 2048]⟩ : Shape).Slices ![e, 0, 0] ⟨3, ![1, 1408, 2048]⟩)
    (h' : (⟨3, ![1, 1408, 2048]⟩ : Shape).ShapeCasts ⟨2, ![1408, 2048]⟩) : Mat 1408 2048 :=
  shapeCast ⟨2, ![1408, 2048]⟩ (extractStridedSlice ⟨3, ![1, 1408, 2048]⟩ ![e, 0, 0] a4 h) h'

/-- The all-zero running output the layer starts from. -/
def zeros (h : (⟨0, ![]⟩ : Shape).BroadcastsInDim ⟨2, ![8192, 2048]⟩ ![]) : Mat 8192 2048 :=
  broadcastInDim ⟨2, ![8192, 2048]⟩ ![] h (constant (F := Ideal) ⟨0, ![]⟩ .f32 0x00000000#32)

/-- Expert e's step of the layer on the five argument arrays: slab e of both stacked projections, the routing-weight
    column of the expert numbered e. -/
def layerStep (x : Mat 8192 2048) (a1 : (⟨2, ![8192, 2]⟩ : Shape).Idx → BitVec 32) (a2 : Mat 8192 2)
    (a3 : (⟨3, ![8, 2048, 2816]⟩ : Shape).Idx → EReal) (a4 : (⟨3, ![8, 1408, 2048]⟩ : Shape).Idx → EReal) (e : ℕ)
    (hu : (⟨3, ![8, 2048, 2816]⟩ : Shape).Slices ![e, 0, 0] ⟨3, ![1, 2048, 2816]⟩)
    (hu' : (⟨3, ![1, 2048, 2816]⟩ : Shape).ShapeCasts ⟨2, ![2048, 2816]⟩)
    (hd : (⟨3, ![8, 1408, 2048]⟩ : Shape).Slices ![e, 0, 0] ⟨3, ![1, 1408, 2048]⟩)
    (hd' : (⟨3, ![1, 1408, 2048]⟩ : Shape).ShapeCasts ⟨2, ![1408, 2048]⟩) (acc : Mat 8192 2048) : Mat 8192 2048 :=
  expertStep x (upSlab a3 e hu hu') (dnSlab a4 e hd hd') (routeCol a1 a2 (BitVec.ofNat 32 e)) acc

end Cert.Moe

end
-- ==== Proof.MoeFold.lean ====
/-
  The kernel program's result array as eight expert steps of the five argument arrays. The fold through the program's
  sixteen segments is read one boundary at a time. The first stretch of host operations leaves the token array, the two
  stacked projections (each only changed in float format, which is the identity on the extended reals), the [8192, 8]
  table of routing weights and the zero array; no later stretch and no call writes any of the first four, so every call
  finds them as the first stretch left them. Before call e the host cuts slab e of each stacked projection and column e
  of the table; the call's running output is the previous call's result (the zero array for call 0). Each call's result
  is the expert step of the five arrays it finds, so the last result is the eight steps chained from zero.
-/
import proofs.«121777_j6605659701457_1_alg».proof.Proof.Gen.KernelIdeal.Frame
import proofs.«121777_j6605659701457_1_alg».proof.Proof.MoeRegion0
import proofs.«121777_j6605659701457_1_alg».proof.Proof.MoeRegion1
import proofs.«121777_j6605659701457_1_alg».proof.Proof.MoeRegion2
import proofs.«121777_j6605659701457_1_alg».proof.Proof.MoeRegion3
import proofs.«121777_j6605659701457_1_alg».proof.Proof.MoeRegion4
import proofs.«121777_j6605659701457_1_alg».proof.Proof.MoeRegion5
import proofs.«121777_j6605659701457_1_alg».proof.Proof.MoeRegion6
import proofs.«121777_j6605659701457_1_alg».proof.Proof.MoeRegion7
import proofs.«121777_j6605659701457_1_alg».proof.Proof.MoeRouteK
import proofs.«121777_j6605659701457_1_alg».proof.Proof.MoeSlabs
import Idealize.ShloMosaic.Lib.StableHlo.Run

set_option maxRecDepth 16384

noncomputable section

namespace Cert.KernelIdeal.MoeFold

open Cert.KernelIdeal Cert.KernelIdeal.Gen Idealize.ShloMosaic Idealize.ShloMosaic.TcCoe Idealize.ShloMosaic.ValueIdx
open Idealize.SL.Sem Idealize.ShloMosaic.StableHlo Cert.Moe

variable (m : (ℓ : Loc nD τ sig) → Buf (Elt Ideal) ℓ) (ρ : Dev nD → PrngReg) (c : Dev nD)

/-- The five argument arrays at launch. -/
abbrev A0 : Mat 8192 2048 := m ((c : Thread nD τ).loc main_arg0)
abbrev A1 : (⟨2, ![8192, 2]⟩ : Shape).Idx → BitVec 32 := m ((c : Thread nD τ).loc main_arg1)
abbrev A2 : Mat 8192 2 := m ((c : Thread nD τ).loc main_arg2)
abbrev A3 : (⟨3, ![8, 2048, 2816]⟩ : Shape).Idx → EReal := m ((c : Thread nD τ).loc main_arg3)
abbrev A4 : (⟨3, ![8, 1408, 2048]⟩ : Shape).Idx → EReal := m ((c : Thread nD τ).loc main_arg4)

/-! ## What the first stretch leaves -/

theorem base_v11 : (W1 m ρ c (Proc.devRef .tc main_v11) : Mat 8192 2048) = A0 m c := by
  show StableHlo.after hostOps0 (W0 m ρ c) (Proc.devRef .tc main_v11) = _
  dsimp only [hostOps0]
  after_results <;> rfl
theorem base_v12 : (W1 m ρ c (Proc.devRef .tc main_v12) : (⟨3, ![8, 2048, 2816]⟩ : Shape).Idx → EReal) = A3 m c := by
  show StableHlo.after hostOps0 (W0 m ρ c) (Proc.devRef .tc main_v12) = _
  dsimp only [hostOps0]
  after_results <;> rfl
theorem base_v13 : (W1 m ρ c (Proc.devRef .tc main_v13) : (⟨3, ![8, 1408, 2048]⟩ : Shape).Idx → EReal) = A4 m c := by
  show StableHlo.after hostOps0 (W0 m ρ c) (Proc.devRef .tc main_v13) = _
  dsimp only [hostOps0]
  after_results <;> rfl
theorem base_v10 : (W1 m ρ c (Proc.devRef .tc main_v10) : Mat 8192 8) = Cert.KernelIdeal.MoeRoute.table (A1 m c) (A2 m c) := by
  show StableHlo.after hostOps0 (W0 m ρ c) (Proc.devRef .tc main_v10) = _
  dsimp only [hostOps0]
  after_results <;> rfl

/-! ## The token array through a call: it is the array of an input window, left as the call finds it -/

theorem thru0_v11 : W2 m ρ c (Proc.devRef .tc main_v11) = W1 m ρ c (Proc.devRef .tc main_v11) :=
  (W2_arr m ρ c 0).trans (((dat0 (V1 m ρ) c).arrAt_in 0 rfl _).trans (A_eq0 (V1 m ρ) c 0))

theorem thru1_v11 : W4 m ρ c (Proc.devRef .tc main_v11) = W3 m ρ c (Proc.devRef .tc main_v11) :=
  (W4_arr m ρ c 0).trans (((dat1 (V3 m ρ) c).arrAt_in 0 rfl _).trans (A_eq1 (V3 m ρ) c 0))

theorem thru2_v11 : W6 m ρ c (Proc.devRef .tc main_v11) = W5 m ρ c (Proc.devRef .tc main_v11) :=
  (W6_arr m ρ c 0).trans (((dat2 (V5 m ρ) c).arrAt_in 0 rfl _).trans (A_eq2 (V5 m ρ) c 0))

theorem thru3_v11 : W8 m ρ c (Proc.devRef .tc main_v11) = W7 m ρ c (Proc.devRef .tc main_v11) :=
  (W8_arr m ρ c 0).trans (((dat3 (V7 m ρ) c).arrAt_in 0 rfl _).trans (A_eq3 (V7 m ρ) c 0))

theorem thru4_v11 : W10 m ρ c (Proc.devRef .tc main_v11) = W9 m ρ c (Proc.devRef .tc main_v11) :=
  (W10_arr m ρ c 0).trans (((dat4 (V9 m ρ) c).arrAt_in 0 rfl _).trans (A_eq4 (V9 m ρ) c 0))

theorem thru5_v11 : W12 m ρ c (Proc.devRef .tc main_v11) = W11 m ρ c (Proc.devRef .tc main_v11) :=
  (W12_arr m ρ c 0).trans (((dat5 (V11 m ρ) c).arrAt_in 0 rfl _).trans (A_eq5 (V11 m ρ) c 0))

theorem thru6_v11 : W14 m ρ c (Proc.devRef .tc main_v11) = W13 m ρ c (Proc.devRef .tc main_v11) :=
  (W14_arr m ρ c 0).trans (((dat6 (V13 m ρ) c).arrAt_in 0 rfl _).trans (A_eq6 (V13 m ρ) c 0))

/-! ## The four persistent arrays at every later call's entry -/

theorem keep1_v10 : W3 m ρ c (Proc.devRef .tc main_v10) = W1 m ρ c (Proc.devRef .tc main_v10) :=
  calc W3 m ρ c (Proc.devRef .tc main_v10)
    _ = W2 m ρ c (Proc.devRef .tc main_v10) := StableHlo.after_of_forall_not_mem (b := Proc.devRef .tc main_v10) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_v10) := W2_of_ne m ρ c main_v10 (by decide)
    _ = W1 m ρ c (Proc.devRef .tc main_v10) := rfl

theorem keep1_v11 : W3 m ρ c (Proc.devRef .tc main_v11) = W1 m ρ c (Proc.devRef .tc main_v11) :=
  calc W3 m ρ c (Proc.devRef .tc main_v11)
    _ = W2 m ρ c (Proc.devRef .tc main_v11) := StableHlo.after_of_forall_not_mem (b := Proc.devRef .tc main_v11) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_v11) := thru0_v11 m ρ c
    _ = W1 m ρ c (Proc.devRef .tc main_v11) := rfl

theorem keep1_v12 : W3 m ρ c (Proc.devRef .tc main_v12) = W1 m ρ c (Proc.devRef .tc main_v12) :=
  calc W3 m ρ c (Proc.devRef .tc main_v12)
    _ = W2 m ρ c (Proc.devRef .tc main_v12) := StableHlo.after_of_forall_not_mem (b := Proc.devRef .tc main_v12) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_v12) := W2_of_ne m ρ c main_v12 (by decide)
    _ = W1 m ρ c (Proc.devRef .tc main_v12) := rfl

theorem keep1_v13 : W3 m ρ c (Proc.devRef .tc main_v13) = W1 m ρ c (Proc.devRef .tc main_v13) :=
  calc W3 m ρ c (Proc.devRef .tc main_v13)
    _ = W2 m ρ c (Proc.devRef .tc main_v13) := StableHlo.after_of_forall_not_mem (b := Proc.devRef .tc main_v13) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_v13) := W2_of_ne m ρ c main_v13 (by decide)
    _ = W1 m ρ c (Proc.devRef .tc main_v13) := rfl

theorem keep2_v10 : W5 m ρ c (Proc.devRef .tc main_v10) = W1 m ρ c (Proc.devRef .tc main_v10) :=
  calc W5 m ρ c (Proc.devRef .tc main_v10)
    _ = W4 m ρ c (Proc.devRef .tc main_v10) := StableHlo.after_of_forall_not_mem (b := Proc.devRef .tc main_v10) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_v10) := W4_of_ne m ρ c main_v10 (by decide)
    _ = W1 m ρ c (Proc.devRef .tc main_v10) := keep1_v10 m ρ c

theorem keep2_v11 : W5 m ρ c (Proc.devRef .tc main_v11) = W1 m ρ c (Proc.devRef .tc main_v11) :=
  calc W5 m ρ c (Proc.devRef .tc main_v11)
    _ = W4 m ρ c (Proc.devRef .tc main_v11) := StableHlo.after_of_forall_not_mem (b := Proc.devRef .tc main_v11) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_v11) := thru1_v11 m ρ c
    _ = W1 m ρ c (Proc.devRef .tc main_v11) := keep1_v11 m ρ c

theorem keep2_v12 : W5 m ρ c (Proc.devRef .tc main_v12) = W1 m ρ c (Proc.devRef .tc main_v12) :=
  calc W5 m ρ c (Proc.devRef .tc main_v12)
    _ = W4 m ρ c (Proc.devRef .tc main_v12) := StableHlo.after_of_forall_not_mem (b := Proc.devRef .tc main_v12) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_v12) := W4_of_ne m ρ c main_v12 (by decide)
    _ = W1 m ρ c (Proc.devRef .tc main_v12) := keep1_v12 m ρ c

theorem keep2_v13 : W5 m ρ c (Proc.devRef .tc main_v13) = W1 m ρ c (Proc.devRef .tc main_v13) :=
  calc W5 m ρ c (Proc.devRef .tc main_v13)
    _ = W4 m ρ c (Proc.devRef .tc main_v13) := StableHlo.after_of_forall_not_mem (b := Proc.devRef .tc main_v13) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_v13) := W4_of_ne m ρ c main_v13 (by decide)
    _ = W1 m ρ c (Proc.devRef .tc main_v13) := keep1_v13 m ρ c

theorem keep3_v10 : W7 m ρ c (Proc.devRef .tc main_v10) = W1 m ρ c (Proc.devRef .tc main_v10) :=
  calc W7 m ρ c (Proc.devRef .tc main_v10)
    _ = W6 m ρ c (Proc.devRef .tc main_v10) := StableHlo.after_of_forall_not_mem (b := Proc.devRef .tc main_v10) _ _ (List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W5 m ρ c (Proc.devRef .tc main_v10) := W6_of_ne m ρ c main_v10 (by decide)
    _ = W1 m ρ c (Proc.devRef .tc main_v10) := keep2_v10 m ρ c

theorem keep3_v11 : W7 m ρ c (Proc.devRef .tc main_v11) = W1 m ρ c (Proc.devRef .tc main_v11) :=
  calc W7 m ρ c (Proc.devRef .tc main_v11)
    _ = W6 m ρ c (Proc.devRef .tc main_v11) := StableHlo.after_of_forall_not_mem (b := Proc.devRef .tc main_v11) _ _ (List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W5 m ρ c (Proc.devRef .tc main_v11) := thru2_v11 m ρ c
    _ = W1 m ρ c (Proc.devRef .tc main_v11) := keep2_v11 m ρ c

theorem keep3_v12 : W7 m ρ c (Proc.devRef .tc main_v12) = W1 m ρ c (Proc.devRef .tc main_v12) :=
  calc W7 m ρ c (Proc.devRef .tc main_v12)
    _ = W6 m ρ c (Proc.devRef .tc main_v12) := StableHlo.after_of_forall_not_mem (b := Proc.devRef .tc main_v12) _ _ (List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W5 m ρ c (Proc.devRef .tc main_v12) := W6_of_ne m ρ c main_v12 (by decide)
    _ = W1 m ρ c (Proc.devRef .tc main_v12) := keep2_v12 m ρ c

theorem keep3_v13 : W7 m ρ c (Proc.devRef .tc main_v13) = W1 m ρ c (Proc.devRef .tc main_v13) :=
  calc W7 m ρ c (Proc.devRef .tc main_v13)
    _ = W6 m ρ c (Proc.devRef .tc main_v13) := StableHlo.after_of_forall_not_mem (b := Proc.devRef .tc main_v13) _ _ (List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W5 m ρ c (Proc.devRef .tc main_v13) := W6_of_ne m ρ c main_v13 (by decide)
    _ = W1 m ρ c (Proc.devRef .tc main_v13) := keep2_v13 m ρ c

theorem keep4_v10 : W9 m ρ c (Proc.devRef .tc main_v10) = W1 m ρ c (Proc.devRef .tc main_v10) :=
  calc W9 m ρ c (Proc.devRef .tc main_v10)
    _ = W8 m ρ c (Proc.devRef .tc main_v10) := StableHlo.after_of_forall_not_mem (b := Proc.devRef .tc main_v10) _ _ (List.forall_iff_forall_mem.mp (by
      simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W7 m ρ c (Proc.devRef .tc main_v10) := W8_of_ne m ρ c main_v10 (by decide)
    _ = W1 m ρ c (Proc.devRef .tc main_v10) := keep3_v10 m ρ c

theorem keep4_v11 : W9 m ρ c (Proc.devRef .tc main_v11) = W1 m ρ c (Proc.devRef .tc main_v11) :=
  calc W9 m ρ c (Proc.devRef .tc main_v11)
    _ = W8 m ρ c (Proc.devRef .tc main_v11) := StableHlo.after_of_forall_not_mem (b := Proc.devRef .tc main_v11) _ _ (List.forall_iff_forall_mem.mp (by
      simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W7 m ρ c (Proc.devRef .tc main_v11) := thru3_v11 m ρ c
    _ = W1 m ρ c (Proc.devRef .tc main_v11) := keep3_v11 m ρ c

theorem keep4_v12 : W9 m ρ c (Proc.devRef .tc main_v12) = W1 m ρ c (Proc.devRef .tc main_v12) :=
  calc W9 m ρ c (Proc.devRef .tc main_v12)
    _ = W8 m ρ c (Proc.devRef .tc main_v12) := StableHlo.after_of_forall_not_mem (b := Proc.devRef .tc main_v12) _ _ (List.forall_iff_forall_mem.mp (by
      simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W7 m ρ c (Proc.devRef .tc main_v12) := W8_of_ne m ρ c main_v12 (by decide)
    _ = W1 m ρ c (Proc.devRef .tc main_v12) := keep3_v12 m ρ c

theorem keep4_v13 : W9 m ρ c (Proc.devRef .tc main_v13) = W1 m ρ c (Proc.devRef .tc main_v13) :=
  calc W9 m ρ c (Proc.devRef .tc main_v13)
    _ = W8 m ρ c (Proc.devRef .tc main_v13) := StableHlo.after_of_forall_not_mem (b := Proc.devRef .tc main_v13) _ _ (List.forall_iff_forall_mem.mp (by
      simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W7 m ρ c (Proc.devRef .tc main_v13) := W8_of_ne m ρ c main_v13 (by decide)
    _ = W1 m ρ c (Proc.devRef .tc main_v13) := keep3_v13 m ρ c

theorem keep5_v10 : W11 m ρ c (Proc.devRef .tc main_v10) = W1 m ρ c (Proc.devRef .tc main_v10) :=
  calc W11 m ρ c (Proc.devRef .tc main_v10)
    _ = W10 m ρ c (Proc.devRef .tc main_v10) := StableHlo.after_of_forall_not_mem (b := Proc.devRef .tc main_v10) _ _ (List.forall_iff_forall_mem.mp (by
      simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W9 m ρ c (Proc.devRef .tc main_v10) := W10_of_ne m ρ c main_v10 (by decide)
    _ = W1 m ρ c (Proc.devRef .tc main_v10) := keep4_v10 m ρ c

theorem keep5_v11 : W11 m ρ c (Proc.devRef .tc main_v11) = W1 m ρ c (Proc.devRef .tc main_v11) :=
  calc W11 m ρ c (Proc.devRef .tc main_v11)
    _ = W10 m ρ c (Proc.devRef .tc main_v11) := StableHlo.after_of_forall_not_mem (b := Proc.devRef .tc main_v11) _ _ (List.forall_iff_forall_mem.mp (by
      simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W9 m ρ c (Proc.devRef .tc main_v11) := thru4_v11 m ρ c
    _ = W1 m ρ c (Proc.devRef .tc main_v11) := keep4_v11 m ρ c

theorem keep5_v12 : W11 m ρ c (Proc.devRef .tc main_v12) = W1 m ρ c (Proc.devRef .tc main_v12) :=
  calc W11 m ρ c (Proc.devRef .tc main_v12)
    _ = W10 m ρ c (Proc.devRef .tc main_v12) := StableHlo.after_of_forall_not_mem (b := Proc.devRef .tc main_v12) _ _ (List.forall_iff_forall_mem.mp (by
      simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W9 m ρ c (Proc.devRef .tc main_v12) := W10_of_ne m ρ c main_v12 (by decide)
    _ = W1 m ρ c (Proc.devRef .tc main_v12) := keep4_v12 m ρ c

theorem keep5_v13 : W11 m ρ c (Proc.devRef .tc main_v13) = W1 m ρ c (Proc.devRef .tc main_v13) :=
  calc W11 m ρ c (Proc.devRef .tc main_v13)
    _ = W10 m ρ c (Proc.devRef .tc main_v13) := StableHlo.after_of_forall_not_mem (b := Proc.devRef .tc main_v13) _ _ (List.forall_iff_forall_mem.mp (by
      simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W9 m ρ c (Proc.devRef .tc main_v13) := W10_of_ne m ρ c main_v13 (by decide)
    _ = W1 m ρ c (Proc.devRef .tc main_v13) := keep4_v13 m ρ c

theorem keep6_v10 : W13 m ρ c (Proc.devRef .tc main_v10) = W1 m ρ c (Proc.devRef .tc main_v10) :=
  calc W13 m ρ c (Proc.devRef .tc main_v10)
    _ = W12 m ρ c (Proc.devRef .tc main_v10) := StableHlo.after_of_forall_not_mem (b := Proc.devRef .tc main_v10) _ _ (List.forall_iff_forall_mem.mp (by
      simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W11 m ρ c (Proc.devRef .tc main_v10) := W12_of_ne m ρ c main_v10 (by decide)
    _ = W1 m ρ c (Proc.devRef .tc main_v10) := keep5_v10 m ρ c

theorem keep6_v11 : W13 m ρ c (Proc.devRef .tc main_v11) = W1 m ρ c (Proc.devRef .tc main_v11) :=
  calc W13 m ρ c (Proc.devRef .tc main_v11)
    _ = W12 m ρ c (Proc.devRef .tc main_v11) := StableHlo.after_of_forall_not_mem (b := Proc.devRef .tc main_v11) _ _ (List.forall_iff_forall_mem.mp (by
      simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W11 m ρ c (Proc.devRef .tc main_v11) := thru5_v11 m ρ c
    _ = W1 m ρ c (Proc.devRef .tc main_v11) := keep5_v11 m ρ c

theorem keep6_v12 : W13 m ρ c (Proc.devRef .tc main_v12) = W1 m ρ c (Proc.devRef .tc main_v12) :=
  calc W13 m ρ c (Proc.devRef .tc main_v12)
    _ = W12 m ρ c (Proc.devRef .tc main_v12) := StableHlo.after_of_forall_not_mem (b := Proc.devRef .tc main_v12) _ _ (List.forall_iff_forall_mem.mp (by
      simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W11 m ρ c (Proc.devRef .tc main_v12) := W12_of_ne m ρ c main_v12 (by decide)
    _ = W1 m ρ c (Proc.devRef .tc main_v12) := keep5_v12 m ρ c

theorem keep6_v13 : W13 m ρ c (Proc.devRef .tc main_v13) = W1 m ρ c (Proc.devRef .tc main_v13) :=
  calc W13 m ρ c (Proc.devRef .tc main_v13)
    _ = W12 m ρ c (Proc.devRef .tc main_v13) := StableHlo.after_of_forall_not_mem (b := Proc.devRef .tc main_v13) _ _ (List.forall_iff_forall_mem.mp (by
      simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W11 m ρ c (Proc.devRef .tc main_v13) := W12_of_ne m ρ c main_v13 (by decide)
    _ = W1 m ρ c (Proc.devRef .tc main_v13) := keep5_v13 m ρ c

theorem keep7_v10 : W15 m ρ c (Proc.devRef .tc main_v10) = W1 m ρ c (Proc.devRef .tc main_v10) :=
  calc W15 m ρ c (Proc.devRef .tc main_v10)
    _ = W14 m ρ c (Proc.devRef .tc main_v10) := StableHlo.after_of_forall_not_mem (b := Proc.devRef .tc main_v10) _ _ (List.forall_iff_forall_mem.mp (by
      simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W13 m ρ c (Proc.devRef .tc main_v10) := W14_of_ne m ρ c main_v10 (by decide)
    _ = W1 m ρ c (Proc.devRef .tc main_v10) := keep6_v10 m ρ c

theorem keep7_v11 : W15 m ρ c (Proc.devRef .tc main_v11) = W1 m ρ c (Proc.devRef .tc main_v11) :=
  calc W15 m ρ c (Proc.devRef .tc main_v11)
    _ = W14 m ρ c (Proc.devRef .tc main_v11) := StableHlo.after_of_forall_not_mem (b := Proc.devRef .tc main_v11) _ _ (List.forall_iff_forall_mem.mp (by
      simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W13 m ρ c (Proc.devRef .tc main_v11) := thru6_v11 m ρ c
    _ = W1 m ρ c (Proc.devRef .tc main_v11) := keep6_v11 m ρ c

theorem keep7_v12 : W15 m ρ c (Proc.devRef .tc main_v12) = W1 m ρ c (Proc.devRef .tc main_v12) :=
  calc W15 m ρ c (Proc.devRef .tc main_v12)
    _ = W14 m ρ c (Proc.devRef .tc main_v12) := StableHlo.after_of_forall_not_mem (b := Proc.devRef .tc main_v12) _ _ (List.forall_iff_forall_mem.mp (by
      simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W13 m ρ c (Proc.devRef .tc main_v12) := W14_of_ne m ρ c main_v12 (by decide)
    _ = W1 m ρ c (Proc.devRef .tc main_v12) := keep6_v12 m ρ c

theorem keep7_v13 : W15 m ρ c (Proc.devRef .tc main_v13) = W1 m ρ c (Proc.devRef .tc main_v13) :=
  calc W15 m ρ c (Proc.devRef .tc main_v13)
    _ = W14 m ρ c (Proc.devRef .tc main_v13) := StableHlo.after_of_forall_not_mem (b := Proc.devRef .tc main_v13) _ _ (List.forall_iff_forall_mem.mp (by
      simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W13 m ρ c (Proc.devRef .tc main_v13) := W14_of_ne m ρ c main_v13 (by decide)
    _ = W1 m ρ c (Proc.devRef .tc main_v13) := keep6_v13 m ρ c

/-! ## Call 0 -/

theorem x0 : (V1 m ρ c main_v11 : Mat 8192 2048) = A0 m c := base_v11 m ρ c
theorem up0 : (V1 m ρ c main_v17 : Mat 2048 2816) = upSlab (A3 m c) 0 slices_S8x2048x2816_S1x2048x2816_0_0_0 shapeCasts_S1x2048x2816_S2048x2816 := by
  show StableHlo.after hostOps0 (W0 m ρ c) (Proc.devRef .tc main_v17) = _
  dsimp only [hostOps0]
  after_results <;> rfl
theorem dn0 : (V1 m ρ c main_v19 : Mat 1408 2048) = dnSlab (A4 m c) 0 slices_S8x1408x2048_S1x1408x2048_0_0_0 shapeCasts_S1x1408x2048_S1408x2048 := by
  show StableHlo.after hostOps0 (W0 m ρ c) (Proc.devRef .tc main_v19) = _
  dsimp only [hostOps0]
  after_results <;> rfl
theorem w0 : (V1 m ρ c main_v15 : Mat 8192 1) = routeCol (A1 m c) (A2 m c) (BitVec.ofNat 32 0) := by
  have h : (V1 m ρ c main_v15 : Mat 8192 1)
      = Cert.KernelIdeal.MoeRoute.colOf (Cert.KernelIdeal.MoeRoute.table (A1 m c) (A2 m c)) 0 slices_S8192x8_S8192x1_0_0 := by
    show StableHlo.after hostOps0 (W0 m ρ c) (Proc.devRef .tc main_v15) = _
    dsimp only [hostOps0]
    after_results <;> rfl
  exact h.trans (Cert.KernelIdeal.MoeRoute.colOf_table (A1 m c) (A2 m c) 0 (by decide) _)
theorem acc0 : (V1 m ρ c main_v14 : Mat 8192 2048) = zeros bcast_S_S8192x2048 := by
  show StableHlo.after hostOps0 (W0 m ρ c) (Proc.devRef .tc main_v14) = _
  dsimp only [hostOps0]
  after_results <;> rfl
theorem out0 : (W2 m ρ c (Proc.devRef .tc main_v20) : Mat 8192 2048) = (layerStep (A0 m c) (A1 m c) (A2 m c) (A3 m c) (A4 m c) 0 slices_S8x2048x2816_S1x2048x2816_0_0_0 shapeCasts_S1x2048x2816_S2048x2816 slices_S8x1408x2048_S1x1408x2048_0_0_0 shapeCasts_S1x1408x2048_S1408x2048
      (zeros bcast_S_S8192x2048)) := by
  refine (W2_arr m ρ c 5).trans ((Cert.KernelIdeal.MoeRegion0.final (V1 m ρ) c).trans ?_)
  exact congr (congr (congr (congr (congrArg (expertStep (n := 8192)) (x0 m ρ c)) (up0 m ρ c)) (dn0 m ρ c)) (w0 m ρ c)) (acc0 m ρ c)

/-! ## Call 1 -/

theorem x1 : (V3 m ρ c main_v11 : Mat 8192 2048) = A0 m c := (keep1_v11 m ρ c).trans (base_v11 m ρ c)
theorem pre1_v12 : (W2 m ρ c (Proc.devRef .tc main_v12) : (⟨3, ![8, 2048, 2816]⟩ : Shape).Idx → EReal) = A3 m c :=
  (W2_of_ne m ρ c main_v12 (by decide)).trans (base_v12 m ρ c)
theorem pre1_v13 : (W2 m ρ c (Proc.devRef .tc main_v13) : (⟨3, ![8, 1408, 2048]⟩ : Shape).Idx → EReal) = A4 m c :=
  (W2_of_ne m ρ c main_v13 (by decide)).trans (base_v13 m ρ c)
theorem pre1_v10 : (W2 m ρ c (Proc.devRef .tc main_v10) : Mat 8192 8) = Cert.KernelIdeal.MoeRoute.table (A1 m c) (A2 m c) :=
  (W2_of_ne m ρ c main_v10 (by decide)).trans (base_v10 m ρ c)
theorem up1 : (V3 m ρ c main_v23 : Mat 2048 2816) = upSlab (A3 m c) 1 slices_S8x2048x2816_S1x2048x2816_1_0_0 shapeCasts_S1x2048x2816_S2048x2816 := by
  have h : (V3 m ρ c main_v23 : Mat 2048 2816) = upSlab (W2 m ρ c (Proc.devRef .tc main_v12)) 1 slices_S8x2048x2816_S1x2048x2816_1_0_0 shapeCasts_S1x2048x2816_S2048x2816 := by
    show StableHlo.after hostOps1 (W2 m ρ c) (Proc.devRef .tc main_v23) = _
    dsimp only [hostOps1]
    after_results <;> rfl
  exact h.trans (congrArg (fun z => upSlab z 1 slices_S8x2048x2816_S1x2048x2816_1_0_0 shapeCasts_S1x2048x2816_S2048x2816) (pre1_v12 m ρ c))
theorem dn1 : (V3 m ρ c main_v25 : Mat 1408 2048) = dnSlab (A4 m c) 1 slices_S8x1408x2048_S1x1408x2048_1_0_0 shapeCasts_S1x1408x2048_S1408x2048 := by
  have h : (V3 m ρ c main_v25 : Mat 1408 2048) = dnSlab (W2 m ρ c (Proc.devRef .tc main_v13)) 1 slices_S8x1408x2048_S1x1408x2048_1_0_0 shapeCasts_S1x1408x2048_S1408x2048 := by
    show StableHlo.after hostOps1 (W2 m ρ c) (Proc.devRef .tc main_v25) = _
    dsimp only [hostOps1]
    after_results <;> rfl
  exact h.trans (congrArg (fun z => dnSlab z 1 slices_S8x1408x2048_S1x1408x2048_1_0_0 shapeCasts_S1x1408x2048_S1408x2048) (pre1_v13 m ρ c))
theorem w1 : (V3 m ρ c main_v21 : Mat 8192 1) = routeCol (A1 m c) (A2 m c) (BitVec.ofNat 32 1) := by
  have h : (V3 m ρ c main_v21 : Mat 8192 1)
      = Cert.KernelIdeal.MoeRoute.colOf (W2 m ρ c (Proc.devRef .tc main_v10)) 1 slices_S8192x8_S8192x1_0_1 := by
    show StableHlo.after hostOps1 (W2 m ρ c) (Proc.devRef .tc main_v21) = _
    dsimp only [hostOps1]
    after_results <;> rfl
  exact (h.trans (congrArg (fun z => Cert.KernelIdeal.MoeRoute.colOf z 1 slices_S8192x8_S8192x1_0_1) (pre1_v10 m ρ c))).trans
    (Cert.KernelIdeal.MoeRoute.colOf_table (A1 m c) (A2 m c) 1 (by decide) _)
theorem acc1 : (V3 m ρ c main_v20 : Mat 8192 2048) = (layerStep (A0 m c) (A1 m c) (A2 m c) (A3 m c) (A4 m c) 0 slices_S8x2048x2816_S1x2048x2816_0_0_0 shapeCasts_S1x2048x2816_S2048x2816 slices_S8x1408x2048_S1x1408x2048_0_0_0 shapeCasts_S1x1408x2048_S1408x2048
      (zeros bcast_S_S8192x2048)) :=
  (StableHlo.after_of_forall_not_mem (b := Proc.devRef .tc main_v20) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (out0 m ρ c)
theorem out1 : (W4 m ρ c (Proc.devRef .tc main_v26) : Mat 8192 2048) = (layerStep (A0 m c) (A1 m c) (A2 m c) (A3 m c) (A4 m c) 1 slices_S8x2048x2816_S1x2048x2816_1_0_0 shapeCasts_S1x2048x2816_S2048x2816 slices_S8x1408x2048_S1x1408x2048_1_0_0 shapeCasts_S1x1408x2048_S1408x2048
      (layerStep (A0 m c) (A1 m c) (A2 m c) (A3 m c) (A4 m c) 0 slices_S8x2048x2816_S1x2048x2816_0_0_0 shapeCasts_S1x2048x2816_S2048x2816 slices_S8x1408x2048_S1x1408x2048_0_0_0 shapeCasts_S1x1408x2048_S1408x2048
      (zeros bcast_S_S8192x2048))) := by
  refine (W4_arr m ρ c 5).trans ((Cert.KernelIdeal.MoeRegion1.final (V3 m ρ) c).trans ?_)
  exact congr (congr (congr (congr (congrArg (expertStep (n := 8192)) (x1 m ρ c)) (up1 m ρ c)) (dn1 m ρ c)) (w1 m ρ c)) (acc1 m ρ c)

/-! ## Call 2 -/

theorem x2 : (V5 m ρ c main_v11 : Mat 8192 2048) = A0 m c := (keep2_v11 m ρ c).trans (base_v11 m ρ c)
theorem pre2_v12 : (W4 m ρ c (Proc.devRef .tc main_v12) : (⟨3, ![8, 2048, 2816]⟩ : Shape).Idx → EReal) = A3 m c :=
  (W4_of_ne m ρ c main_v12 (by decide)).trans ((keep1_v12 m ρ c).trans (base_v12 m ρ c))
theorem pre2_v13 : (W4 m ρ c (Proc.devRef .tc main_v13) : (⟨3, ![8, 1408, 2048]⟩ : Shape).Idx → EReal) = A4 m c :=
  (W4_of_ne m ρ c main_v13 (by decide)).trans ((keep1_v13 m ρ c).trans (base_v13 m ρ c))
theorem pre2_v10 : (W4 m ρ c (Proc.devRef .tc main_v10) : Mat 8192 8) = Cert.KernelIdeal.MoeRoute.table (A1 m c) (A2 m c) :=
  (W4_of_ne m ρ c main_v10 (by decide)).trans ((keep1_v10 m ρ c).trans (base_v10 m ρ c))
theorem up2 : (V5 m ρ c main_v29 : Mat 2048 2816) = upSlab (A3 m c) 2 slices_S8x2048x2816_S1x2048x2816_2_0_0 shapeCasts_S1x2048x2816_S2048x2816 := by
  have h : (V5 m ρ c main_v29 : Mat 2048 2816) = upSlab (W4 m ρ c (Proc.devRef .tc main_v12)) 2 slices_S8x2048x2816_S1x2048x2816_2_0_0 shapeCasts_S1x2048x2816_S2048x2816 := by
    show StableHlo.after hostOps2 (W4 m ρ c) (Proc.devRef .tc main_v29) = _
    dsimp only [hostOps2]
    after_results <;> rfl
  exact h.trans (congrArg (fun z => upSlab z 2 slices_S8x2048x2816_S1x2048x2816_2_0_0 shapeCasts_S1x2048x2816_S2048x2816) (pre2_v12 m ρ c))
theorem dn2 : (V5 m ρ c main_v31 : Mat 1408 2048) = dnSlab (A4 m c) 2 slices_S8x1408x2048_S1x1408x2048_2_0_0 shapeCasts_S1x1408x2048_S1408x2048 := by
  have h : (V5 m ρ c main_v31 : Mat 1408 2048) = dnSlab (W4 m ρ c (Proc.devRef .tc main_v13)) 2 slices_S8x1408x2048_S1x1408x2048_2_0_0 shapeCasts_S1x1408x2048_S1408x2048 := by
    show StableHlo.after hostOps2 (W4 m ρ c) (Proc.devRef .tc main_v31) = _
    dsimp only [hostOps2]
    after_results <;> rfl
  exact h.trans (congrArg (fun z => dnSlab z 2 slices_S8x1408x2048_S1x1408x2048_2_0_0 shapeCasts_S1x1408x2048_S1408x2048) (pre2_v13 m ρ c))
theorem w2 : (V5 m ρ c main_v27 : Mat 8192 1) = routeCol (A1 m c) (A2 m c) (BitVec.ofNat 32 2) := by
  have h : (V5 m ρ c main_v27 : Mat 8192 1)
      = Cert.KernelIdeal.MoeRoute.colOf (W4 m ρ c (Proc.devRef .tc main_v10)) 2 slices_S8192x8_S8192x1_0_2 := by
    show StableHlo.after hostOps2 (W4 m ρ c) (Proc.devRef .tc main_v27) = _
    dsimp only [hostOps2]
    after_results <;> rfl
  exact (h.trans (congrArg (fun z => Cert.KernelIdeal.MoeRoute.colOf z 2 slices_S8192x8_S8192x1_0_2) (pre2_v10 m ρ c))).trans
    (Cert.KernelIdeal.MoeRoute.colOf_table (A1 m c) (A2 m c) 2 (by decide) _)
theorem acc2 : (V5 m ρ c main_v26 : Mat 8192 2048) = (layerStep (A0 m c) (A1 m c) (A2 m c) (A3 m c) (A4 m c) 1 slices_S8x2048x2816_S1x2048x2816_1_0_0 shapeCasts_S1x2048x2816_S2048x2816 slices_S8x1408x2048_S1x1408x2048_1_0_0 shapeCasts_S1x1408x2048_S1408x2048
      (layerStep (A0 m c) (A1 m c) (A2 m c) (A3 m c) (A4 m c) 0 slices_S8x2048x2816_S1x2048x2816_0_0_0 shapeCasts_S1x2048x2816_S2048x2816 slices_S8x1408x2048_S1x1408x2048_0_0_0 shapeCasts_S1x1408x2048_S1408x2048
      (zeros bcast_S_S8192x2048))) :=
  (StableHlo.after_of_forall_not_mem (b := Proc.devRef .tc main_v26) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (out1 m ρ c)
theorem out2 : (W6 m ρ c (Proc.devRef .tc main_v32) : Mat 8192 2048) = (layerStep (A0 m c) (A1 m c) (A2 m c) (A3 m c) (A4 m c) 2 slices_S8x2048x2816_S1x2048x2816_2_0_0 shapeCasts_S1x2048x2816_S2048x2816 slices_S8x1408x2048_S1x1408x2048_2_0_0 shapeCasts_S1x1408x2048_S1408x2048
      (layerStep (A0 m c) (A1 m c) (A2 m c) (A3 m c) (A4 m c) 1 slices_S8x2048x2816_S1x2048x2816_1_0_0 shapeCasts_S1x2048x2816_S2048x2816 slices_S8x1408x2048_S1x1408x2048_1_0_0 shapeCasts_S1x1408x2048_S1408x2048
      (layerStep (A0 m c) (A1 m c) (A2 m c) (A3 m c) (A4 m c) 0 slices_S8x2048x2816_S1x2048x2816_0_0_0 shapeCasts_S1x2048x2816_S2048x2816 slices_S8x1408x2048_S1x1408x2048_0_0_0 shapeCasts_S1x1408x2048_S1408x2048
      (zeros bcast_S_S8192x2048)))) := by
  refine (W6_arr m ρ c 5).trans ((Cert.KernelIdeal.MoeRegion2.final (V5 m ρ) c).trans ?_)
  exact congr (congr (congr (congr (congrArg (expertStep (n := 8192)) (x2 m ρ c)) (up2 m ρ c)) (dn2 m ρ c)) (w2 m ρ c)) (acc2 m ρ c)

/-! ## Call 3 -/

theorem x3 : (V7 m ρ c main_v11 : Mat 8192 2048) = A0 m c := (keep3_v11 m ρ c).trans (base_v11 m ρ c)
theorem pre3_v12 : (W6 m ρ c (Proc.devRef .tc main_v12) : (⟨3, ![8, 2048, 2816]⟩ : Shape).Idx → EReal) = A3 m c :=
  (W6_of_ne m ρ c main_v12 (by decide)).trans ((keep2_v12 m ρ c).trans (base_v12 m ρ c))
theorem pre3_v13 : (W6 m ρ c (Proc.devRef .tc main_v13) : (⟨3, ![8, 1408, 2048]⟩ : Shape).Idx → EReal) = A4 m c :=
  (W6_of_ne m ρ c main_v13 (by decide)).trans ((keep2_v13 m ρ c).trans (base_v13 m ρ c))
theorem pre3_v10 : (W6 m ρ c (Proc.devRef .tc main_v10) : Mat 8192 8) = Cert.KernelIdeal.MoeRoute.table (A1 m c) (A2 m c) :=
  (W6_of_ne m ρ c main_v10 (by decide)).trans ((keep2_v10 m ρ c).trans (base_v10 m ρ c))
theorem up3 : (V7 m ρ c main_v35 : Mat 2048 2816) = upSlab (A3 m c) 3 slices_S8x2048x2816_S1x2048x2816_3_0_0 shapeCasts_S1x2048x2816_S2048x2816 := by
  have h : (V7 m ρ c main_v35 : Mat 2048 2816) = upSlab (W6 m ρ c (Proc.devRef .tc main_v12)) 3 slices_S8x2048x2816_S1x2048x2816_3_0_0 shapeCasts_S1x2048x2816_S2048x2816 := by
    show StableHlo.after hostOps3 (W6 m ρ c) (Proc.devRef .tc main_v35) = _
    dsimp only [hostOps3]
    after_results <;> rfl
  exact h.trans (congrArg (fun z => upSlab z 3 slices_S8x2048x2816_S1x2048x2816_3_0_0 shapeCasts_S1x2048x2816_S2048x2816) (pre3_v12 m ρ c))
theorem dn3 : (V7 m ρ c main_v37 : Mat 1408 2048) = dnSlab (A4 m c) 3 slices_S8x1408x2048_S1x1408x2048_3_0_0 shapeCasts_S1x1408x2048_S1408x2048 := by
  have h : (V7 m ρ c main_v37 : Mat 1408 2048) = dnSlab (W6 m ρ c (Proc.devRef .tc main_v13)) 3 slices_S8x1408x2048_S1x1408x2048_3_0_0 shapeCasts_S1x1408x2048_S1408x2048 := by
    show StableHlo.after hostOps3 (W6 m ρ c) (Proc.devRef .tc main_v37) = _
    dsimp only [hostOps3]
    after_results <;> rfl
  exact h.trans (congrArg (fun z => dnSlab z 3 slices_S8x1408x2048_S1x1408x2048_3_0_0 shapeCasts_S1x1408x2048_S1408x2048) (pre3_v13 m ρ c))
theorem w3 : (V7 m ρ c main_v33 : Mat 8192 1) = routeCol (A1 m c) (A2 m c) (BitVec.ofNat 32 3) := by
  have h : (V7 m ρ c main_v33 : Mat 8192 1)
      = Cert.KernelIdeal.MoeRoute.colOf (W6 m ρ c (Proc.devRef .tc main_v10)) 3 slices_S8192x8_S8192x1_0_3 := by
    show StableHlo.after hostOps3 (W6 m ρ c) (Proc.devRef .tc main_v33) = _
    dsimp only [hostOps3]
    after_results <;> rfl
  exact (h.trans (congrArg (fun z => Cert.KernelIdeal.MoeRoute.colOf z 3 slices_S8192x8_S8192x1_0_3) (pre3_v10 m ρ c))).trans
    (Cert.KernelIdeal.MoeRoute.colOf_table (A1 m c) (A2 m c) 3 (by decide) _)
theorem acc3 : (V7 m ρ c main_v32 : Mat 8192 2048) = (layerStep (A0 m c) (A1 m c) (A2 m c) (A3 m c) (A4 m c) 2 slices_S8x2048x2816_S1x2048x2816_2_0_0 shapeCasts_S1x2048x2816_S2048x2816 slices_S8x1408x2048_S1x1408x2048_2_0_0 shapeCasts_S1x1408x2048_S1408x2048
      (layerStep (A0 m c) (A1 m c) (A2 m c) (A3 m c) (A4 m c) 1 slices_S8x2048x2816_S1x2048x2816_1_0_0 shapeCasts_S1x2048x2816_S2048x2816 slices_S8x1408x2048_S1x1408x2048_1_0_0 shapeCasts_S1x1408x2048_S1408x2048
      (layerStep (A0 m c) (A1 m c) (A2 m c) (A3 m c) (A4 m c) 0 slices_S8x2048x2816_S1x2048x2816_0_0_0 shapeCasts_S1x2048x2816_S2048x2816 slices_S8x1408x2048_S1x1408x2048_0_0_0 shapeCasts_S1x1408x2048_S1408x2048
      (zeros bcast_S_S8192x2048)))) :=
  (StableHlo.after_of_forall_not_mem (b := Proc.devRef .tc main_v32) _ _ (List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (out2 m ρ c)
theorem out3 : (W8 m ρ c (Proc.devRef .tc main_v38) : Mat 8192 2048) = (layerStep (A0 m c) (A1 m c) (A2 m c) (A3 m c) (A4 m c) 3 slices_S8x2048x2816_S1x2048x2816_3_0_0 shapeCasts_S1x2048x2816_S2048x2816 slices_S8x1408x2048_S1x1408x2048_3_0_0 shapeCasts_S1x1408x2048_S1408x2048
      (layerStep (A0 m c) (A1 m c) (A2 m c) (A3 m c) (A4 m c) 2 slices_S8x2048x2816_S1x2048x2816_2_0_0 shapeCasts_S1x2048x2816_S2048x2816 slices_S8x1408x2048_S1x1408x2048_2_0_0 shapeCasts_S1x1408x2048_S1408x2048
      (layerStep (A0 m c) (A1 m c) (A2 m c) (A3 m c) (A4 m c) 1 slices_S8x2048x2816_S1x2048x2816_1_0_0 shapeCasts_S1x2048x2816_S2048x2816 slices_S8x1408x2048_S1x1408x2048_1_0_0 shapeCasts_S1x1408x2048_S1408x2048
      (layerStep (A0 m c) (A1 m c) (A2 m c) (A3 m c) (A4 m c) 0 slices_S8x2048x2816_S1x2048x2816_0_0_0 shapeCasts_S1x2048x2816_S2048x2816 slices_S8x1408x2048_S1x1408x2048_0_0_0 shapeCasts_S1x1408x2048_S1408x2048
      (zeros bcast_S_S8192x2048))))) := by
  refine (W8_arr m ρ c 5).trans ((Cert.KernelIdeal.MoeRegion3.final (V7 m ρ) c).trans ?_)
  exact congr (congr (congr (congr (congrArg (expertStep (n := 8192)) (x3 m ρ c)) (up3 m ρ c)) (dn3 m ρ c)) (w3 m ρ c)) (acc3 m ρ c)

/-! ## Call 4 -/

theorem x4 : (V9 m ρ c main_v11 : Mat 8192 2048) = A0 m c := (keep4_v11 m ρ c).trans (base_v11 m ρ c)
theorem pre4_v12 : (W8 m ρ c (Proc.devRef .tc main_v12) : (⟨3, ![8, 2048, 2816]⟩ : Shape).Idx → EReal) = A3 m c :=
  (W8_of_ne m ρ c main_v12 (by decide)).trans ((keep3_v12 m ρ c).trans (base_v12 m ρ c))
theorem pre4_v13 : (W8 m ρ c (Proc.devRef .tc main_v13) : (⟨3, ![8, 1408, 2048]⟩ : Shape).Idx → EReal) = A4 m c :=
  (W8_of_ne m ρ c main_v13 (by decide)).trans ((keep3_v13 m ρ c).trans (base_v13 m ρ c))
theorem pre4_v10 : (W8 m ρ c (Proc.devRef .tc main_v10) : Mat 8192 8) = Cert.KernelIdeal.MoeRoute.table (A1 m c) (A2 m c) :=
  (W8_of_ne m ρ c main_v10 (by decide)).trans ((keep3_v10 m ρ c).trans (base_v10 m ρ c))
theorem up4 : (V9 m ρ c main_v41 : Mat 2048 2816) = upSlab (A3 m c) 4 slices_S8x2048x2816_S1x2048x2816_4_0_0 shapeCasts_S1x2048x2816_S2048x2816 := by
  have h : (V9 m ρ c main_v41 : Mat 2048 2816) = upSlab (W8 m ρ c (Proc.devRef .tc main_v12)) 4 slices_S8x2048x2816_S1x2048x2816_4_0_0 shapeCasts_S1x2048x2816_S2048x2816 := by
    show StableHlo.after hostOps4 (W8 m ρ c) (Proc.devRef .tc main_v41) = _
    dsimp only [hostOps4]
    after_results <;> rfl
  exact h.trans (congrArg (fun z => upSlab z 4 slices_S8x2048x2816_S1x2048x2816_4_0_0 shapeCasts_S1x2048x2816_S2048x2816) (pre4_v12 m ρ c))
theorem dn4 : (V9 m ρ c main_v43 : Mat 1408 2048) = dnSlab (A4 m c) 4 slices_S8x1408x2048_S1x1408x2048_4_0_0 shapeCasts_S1x1408x2048_S1408x2048 := by
  have h : (V9 m ρ c main_v43 : Mat 1408 2048) = dnSlab (W8 m ρ c (Proc.devRef .tc main_v13)) 4 slices_S8x1408x2048_S1x1408x2048_4_0_0 shapeCasts_S1x1408x2048_S1408x2048 := by
    show StableHlo.after hostOps4 (W8 m ρ c) (Proc.devRef .tc main_v43) = _
    dsimp only [hostOps4]
    after_results <;> rfl
  exact h.trans (congrArg (fun z => dnSlab z 4 slices_S8x1408x2048_S1x1408x2048_4_0_0 shapeCasts_S1x1408x2048_S1408x2048) (pre4_v13 m ρ c))
theorem w4 : (V9 m ρ c main_v39 : Mat 8192 1) = routeCol (A1 m c) (A2 m c) (BitVec.ofNat 32 4) := by
  have h : (V9 m ρ c main_v39 : Mat 8192 1)
      = Cert.KernelIdeal.MoeRoute.colOf (W8 m ρ c (Proc.devRef .tc main_v10)) 4 slices_S8192x8_S8192x1_0_4 := by
    show StableHlo.after hostOps4 (W8 m ρ c) (Proc.devRef .tc main_v39) = _
    dsimp only [hostOps4]
    after_results <;> rfl
  exact (h.trans (congrArg (fun z => Cert.KernelIdeal.MoeRoute.colOf z 4 slices_S8192x8_S8192x1_0_4) (pre4_v10 m ρ c))).trans
    (Cert.KernelIdeal.MoeRoute.colOf_table (A1 m c) (A2 m c) 4 (by decide) _)
theorem acc4 : (V9 m ρ c main_v38 : Mat 8192 2048) = (layerStep (A0 m c) (A1 m c) (A2 m c) (A3 m c) (A4 m c) 3 slices_S8x2048x2816_S1x2048x2816_3_0_0 shapeCasts_S1x2048x2816_S2048x2816 slices_S8x1408x2048_S1x1408x2048_3_0_0 shapeCasts_S1x1408x2048_S1408x2048
      (layerStep (A0 m c) (A1 m c) (A2 m c) (A3 m c) (A4 m c) 2 slices_S8x2048x2816_S1x2048x2816_2_0_0 shapeCasts_S1x2048x2816_S2048x2816 slices_S8x1408x2048_S1x1408x2048_2_0_0 shapeCasts_S1x1408x2048_S1408x2048
      (layerStep (A0 m c) (A1 m c) (A2 m c) (A3 m c) (A4 m c) 1 slices_S8x2048x2816_S1x2048x2816_1_0_0 shapeCasts_S1x2048x2816_S2048x2816 slices_S8x1408x2048_S1x1408x2048_1_0_0 shapeCasts_S1x1408x2048_S1408x2048
      (layerStep (A0 m c) (A1 m c) (A2 m c) (A3 m c) (A4 m c) 0 slices_S8x2048x2816_S1x2048x2816_0_0_0 shapeCasts_S1x2048x2816_S2048x2816 slices_S8x1408x2048_S1x1408x2048_0_0_0 shapeCasts_S1x1408x2048_S1408x2048
      (zeros bcast_S_S8192x2048))))) :=
  (StableHlo.after_of_forall_not_mem (b := Proc.devRef .tc main_v38) _ _ (List.forall_iff_forall_mem.mp (by
      simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (out3 m ρ c)
theorem out4 : (W10 m ρ c (Proc.devRef .tc main_v44) : Mat 8192 2048) = (layerStep (A0 m c) (A1 m c) (A2 m c) (A3 m c) (A4 m c) 4 slices_S8x2048x2816_S1x2048x2816_4_0_0 shapeCasts_S1x2048x2816_S2048x2816 slices_S8x1408x2048_S1x1408x2048_4_0_0 shapeCasts_S1x1408x2048_S1408x2048
      (layerStep (A0 m c) (A1 m c) (A2 m c) (A3 m c) (A4 m c) 3 slices_S8x2048x2816_S1x2048x2816_3_0_0 shapeCasts_S1x2048x2816_S2048x2816 slices_S8x1408x2048_S1x1408x2048_3_0_0 shapeCasts_S1x1408x2048_S1408x2048
      (layerStep (A0 m c) (A1 m c) (A2 m c) (A3 m c) (A4 m c) 2 slices_S8x2048x2816_S1x2048x2816_2_0_0 shapeCasts_S1x2048x2816_S2048x2816 slices_S8x1408x2048_S1x1408x2048_2_0_0 shapeCasts_S1x1408x2048_S1408x2048
      (layerStep (A0 m c) (A1 m c) (A2 m c) (A3 m c) (A4 m c) 1 slices_S8x2048x2816_S1x2048x2816_1_0_0 shapeCasts_S1x2048x2816_S2048x2816 slices_S8x1408x2048_S1x1408x2048_1_0_0 shapeCasts_S1x1408x2048_S1408x2048
      (layerStep (A0 m c) (A1 m c) (A2 m c) (A3 m c) (A4 m c) 0 slices_S8x2048x2816_S1x2048x2816_0_0_0 shapeCasts_S1x2048x2816_S2048x2816 slices_S8x1408x2048_S1x1408x2048_0_0_0 shapeCasts_S1x1408x2048_S1408x2048
      (zeros bcast_S_S8192x2048)))))) := by
  refine (W10_arr m ρ c 5).trans ((Cert.KernelIdeal.MoeRegion4.final (V9 m ρ) c).trans ?_)
  exact congr (congr (congr (congr (congrArg (expertStep (n := 8192)) (x4 m ρ c)) (up4 m ρ c)) (dn4 m ρ c)) (w4 m ρ c)) (acc4 m ρ c)

/-! ## Call 5 -/

theorem x5 : (V11 m ρ c main_v11 : Mat 8192 2048) = A0 m c := (keep5_v11 m ρ c).trans (base_v11 m ρ c)
theorem pre5_v12 : (W10 m ρ c (Proc.devRef .tc main_v12) : (⟨3, ![8, 2048, 2816]⟩ : Shape).Idx → EReal) = A3 m c :=
  (W10_of_ne m ρ c main_v12 (by decide)).trans ((keep4_v12 m ρ c).trans (base_v12 m ρ c))
theorem pre5_v13 : (W10 m ρ c (Proc.devRef .tc main_v13) : (⟨3, ![8, 1408, 2048]⟩ : Shape).Idx → EReal) = A4 m c :=
  (W10_of_ne m ρ c main_v13 (by decide)).trans ((keep4_v13 m ρ c).trans (base_v13 m ρ c))
theorem pre5_v10 : (W10 m ρ c (Proc.devRef .tc main_v10) : Mat 8192 8) = Cert.KernelIdeal.MoeRoute.table (A1 m c) (A2 m c) :=
  (W10_of_ne m ρ c main_v10 (by decide)).trans ((keep4_v10 m ρ c).trans (base_v10 m ρ c))
theorem up5 : (V11 m ρ c main_v47 : Mat 2048 2816) = upSlab (A3 m c) 5 slices_S8x2048x2816_S1x2048x2816_5_0_0 shapeCasts_S1x2048x2816_S2048x2816 := by
  have h : (V11 m ρ c main_v47 : Mat 2048 2816) = upSlab (W10 m ρ c (Proc.devRef .tc main_v12)) 5 slices_S8x2048x2816_S1x2048x2816_5_0_0 shapeCasts_S1x2048x2816_S2048x2816 := by
    show StableHlo.after hostOps5 (W10 m ρ c) (Proc.devRef .tc main_v47) = _
    dsimp only [hostOps5]
    after_results <;> rfl
  exact h.trans (congrArg (fun z => upSlab z 5 slices_S8x2048x2816_S1x2048x2816_5_0_0 shapeCasts_S1x2048x2816_S2048x2816) (pre5_v12 m ρ c))
theorem dn5 : (V11 m ρ c main_v49 : Mat 1408 2048) = dnSlab (A4 m c) 5 slices_S8x1408x2048_S1x1408x2048_5_0_0 shapeCasts_S1x1408x2048_S1408x2048 := by
  have h : (V11 m ρ c main_v49 : Mat 1408 2048) = dnSlab (W10 m ρ c (Proc.devRef .tc main_v13)) 5 slices_S8x1408x2048_S1x1408x2048_5_0_0 shapeCasts_S1x1408x2048_S1408x2048 := by
    show StableHlo.after hostOps5 (W10 m ρ c) (Proc.devRef .tc main_v49) = _
    dsimp only [hostOps5]
    after_results <;> rfl
  exact h.trans (congrArg (fun z => dnSlab z 5 slices_S8x1408x2048_S1x1408x2048_5_0_0 shapeCasts_S1x1408x2048_S1408x2048) (pre5_v13 m ρ c))
theorem w5 : (V11 m ρ c main_v45 : Mat 8192 1) = routeCol (A1 m c) (A2 m c) (BitVec.ofNat 32 5) := by
  have h : (V11 m ρ c main_v45 : Mat 8192 1)
      = Cert.KernelIdeal.MoeRoute.colOf (W10 m ρ c (Proc.devRef .tc main_v10)) 5 slices_S8192x8_S8192x1_0_5 := by
    show StableHlo.after hostOps5 (W10 m ρ c) (Proc.devRef .tc main_v45) = _
    dsimp only [hostOps5]
    after_results <;> rfl
  exact (h.trans (congrArg (fun z => Cert.KernelIdeal.MoeRoute.colOf z 5 slices_S8192x8_S8192x1_0_5) (pre5_v10 m ρ c))).trans
    (Cert.KernelIdeal.MoeRoute.colOf_table (A1 m c) (A2 m c) 5 (by decide) _)
theorem acc5 : (V11 m ρ c main_v44 : Mat 8192 2048) = (layerStep (A0 m c) (A1 m c) (A2 m c) (A3 m c) (A4 m c) 4 slices_S8x2048x2816_S1x2048x2816_4_0_0 shapeCasts_S1x2048x2816_S2048x2816 slices_S8x1408x2048_S1x1408x2048_4_0_0 shapeCasts_S1x1408x2048_S1408x2048
      (layerStep (A0 m c) (A1 m c) (A2 m c) (A3 m c) (A4 m c) 3 slices_S8x2048x2816_S1x2048x2816_3_0_0 shapeCasts_S1x2048x2816_S2048x2816 slices_S8x1408x2048_S1x1408x2048_3_0_0 shapeCasts_S1x1408x2048_S1408x2048
      (layerStep (A0 m c) (A1 m c) (A2 m c) (A3 m c) (A4 m c) 2 slices_S8x2048x2816_S1x2048x2816_2_0_0 shapeCasts_S1x2048x2816_S2048x2816 slices_S8x1408x2048_S1x1408x2048_2_0_0 shapeCasts_S1x1408x2048_S1408x2048
      (layerStep (A0 m c) (A1 m c) (A2 m c) (A3 m c) (A4 m c) 1 slices_S8x2048x2816_S1x2048x2816_1_0_0 shapeCasts_S1x2048x2816_S2048x2816 slices_S8x1408x2048_S1x1408x2048_1_0_0 shapeCasts_S1x1408x2048_S1408x2048
      (layerStep (A0 m c) (A1 m c) (A2 m c) (A3 m c) (A4 m c) 0 slices_S8x2048x2816_S1x2048x2816_0_0_0 shapeCasts_S1x2048x2816_S2048x2816 slices_S8x1408x2048_S1x1408x2048_0_0_0 shapeCasts_S1x1408x2048_S1408x2048
      (zeros bcast_S_S8192x2048)))))) :=
  (StableHlo.after_of_forall_not_mem (b := Proc.devRef .tc main_v44) _ _ (List.forall_iff_forall_mem.mp (by
      simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (out4 m ρ c)
theorem out5 : (W12 m ρ c (Proc.devRef .tc main_v50) : Mat 8192 2048) = (layerStep (A0 m c) (A1 m c) (A2 m c) (A3 m c) (A4 m c) 5 slices_S8x2048x2816_S1x2048x2816_5_0_0 shapeCasts_S1x2048x2816_S2048x2816 slices_S8x1408x2048_S1x1408x2048_5_0_0 shapeCasts_S1x1408x2048_S1408x2048
      (layerStep (A0 m c) (A1 m c) (A2 m c) (A3 m c) (A4 m c) 4 slices_S8x2048x2816_S1x2048x2816_4_0_0 shapeCasts_S1x2048x2816_S2048x2816 slices_S8x1408x2048_S1x1408x2048_4_0_0 shapeCasts_S1x1408x2048_S1408x2048
      (layerStep (A0 m c) (A1 m c) (A2 m c) (A3 m c) (A4 m c) 3 slices_S8x2048x2816_S1x2048x2816_3_0_0 shapeCasts_S1x2048x2816_S2048x2816 slices_S8x1408x2048_S1x1408x2048_3_0_0 shapeCasts_S1x1408x2048_S1408x2048
      (layerStep (A0 m c) (A1 m c) (A2 m c) (A3 m c) (A4 m c) 2 slices_S8x2048x2816_S1x2048x2816_2_0_0 shapeCasts_S1x2048x2816_S2048x2816 slices_S8x1408x2048_S1x1408x2048_2_0_0 shapeCasts_S1x1408x2048_S1408x2048
      (layerStep (A0 m c) (A1 m c) (A2 m c) (A3 m c) (A4 m c) 1 slices_S8x2048x2816_S1x2048x2816_1_0_0 shapeCasts_S1x2048x2816_S2048x2816 slices_S8x1408x2048_S1x1408x2048_1_0_0 shapeCasts_S1x1408x2048_S1408x2048
      (layerStep (A0 m c) (A1 m c) (A2 m c) (A3 m c) (A4 m c) 0 slices_S8x2048x2816_S1x2048x2816_0_0_0 shapeCasts_S1x2048x2816_S2048x2816 slices_S8x1408x2048_S1x1408x2048_0_0_0 shapeCasts_S1x1408x2048_S1408x2048
      (zeros bcast_S_S8192x2048))))))) := by
  refine (W12_arr m ρ c 5).trans ((Cert.KernelIdeal.MoeRegion5.final (V11 m ρ) c).trans ?_)
  exact congr (congr (congr (congr (congrArg (expertStep (n := 8192)) (x5 m ρ c)) (up5 m ρ c)) (dn5 m ρ c)) (w5 m ρ c)) (acc5 m ρ c)

/-! ## Call 6 -/

theorem x6 : (V13 m ρ c main_v11 : Mat 8192 2048) = A0 m c := (keep6_v11 m ρ c).trans (base_v11 m ρ c)
theorem pre6_v12 : (W12 m ρ c (Proc.devRef .tc main_v12) : (⟨3, ![8, 2048, 2816]⟩ : Shape).Idx → EReal) = A3 m c :=
  (W12_of_ne m ρ c main_v12 (by decide)).trans ((keep5_v12 m ρ c).trans (base_v12 m ρ c))
theorem pre6_v13 : (W12 m ρ c (Proc.devRef .tc main_v13) : (⟨3, ![8, 1408, 2048]⟩ : Shape).Idx → EReal) = A4 m c :=
  (W12_of_ne m ρ c main_v13 (by decide)).trans ((keep5_v13 m ρ c).trans (base_v13 m ρ c))
theorem pre6_v10 : (W12 m ρ c (Proc.devRef .tc main_v10) : Mat 8192 8) = Cert.KernelIdeal.MoeRoute.table (A1 m c) (A2 m c) :=
  (W12_of_ne m ρ c main_v10 (by decide)).trans ((keep5_v10 m ρ c).trans (base_v10 m ρ c))
theorem up6 : (V13 m ρ c main_v53 : Mat 2048 2816) = upSlab (A3 m c) 6 slices_S8x2048x2816_S1x2048x2816_6_0_0 shapeCasts_S1x2048x2816_S2048x2816 := by
  have h : (V13 m ρ c main_v53 : Mat 2048 2816) = upSlab (W12 m ρ c (Proc.devRef .tc main_v12)) 6 slices_S8x2048x2816_S1x2048x2816_6_0_0 shapeCasts_S1x2048x2816_S2048x2816 := by
    show StableHlo.after hostOps6 (W12 m ρ c) (Proc.devRef .tc main_v53) = _
    dsimp only [hostOps6]
    after_results <;> rfl
  exact h.trans (congrArg (fun z => upSlab z 6 slices_S8x2048x2816_S1x2048x2816_6_0_0 shapeCasts_S1x2048x2816_S2048x2816) (pre6_v12 m ρ c))
theorem dn6 : (V13 m ρ c main_v55 : Mat 1408 2048) = dnSlab (A4 m c) 6 slices_S8x1408x2048_S1x1408x2048_6_0_0 shapeCasts_S1x1408x2048_S1408x2048 := by
  have h : (V13 m ρ c main_v55 : Mat 1408 2048) = dnSlab (W12 m ρ c (Proc.devRef .tc main_v13)) 6 slices_S8x1408x2048_S1x1408x2048_6_0_0 shapeCasts_S1x1408x2048_S1408x2048 := by
    show StableHlo.after hostOps6 (W12 m ρ c) (Proc.devRef .tc main_v55) = _
    dsimp only [hostOps6]
    after_results <;> rfl
  exact h.trans (congrArg (fun z => dnSlab z 6 slices_S8x1408x2048_S1x1408x2048_6_0_0 shapeCasts_S1x1408x2048_S1408x2048) (pre6_v13 m ρ c))
theorem w6 : (V13 m ρ c main_v51 : Mat 8192 1) = routeCol (A1 m c) (A2 m c) (BitVec.ofNat 32 6) := by
  have h : (V13 m ρ c main_v51 : Mat 8192 1)
      = Cert.KernelIdeal.MoeRoute.colOf (W12 m ρ c (Proc.devRef .tc main_v10)) 6 slices_S8192x8_S8192x1_0_6 := by
    show StableHlo.after hostOps6 (W12 m ρ c) (Proc.devRef .tc main_v51) = _
    dsimp only [hostOps6]
    after_results <;> rfl
  exact (h.trans (congrArg (fun z => Cert.KernelIdeal.MoeRoute.colOf z 6 slices_S8192x8_S8192x1_0_6) (pre6_v10 m ρ c))).trans
    (Cert.KernelIdeal.MoeRoute.colOf_table (A1 m c) (A2 m c) 6 (by decide) _)
theorem acc6 : (V13 m ρ c main_v50 : Mat 8192 2048) = (layerStep (A0 m c) (A1 m c) (A2 m c) (A3 m c) (A4 m c) 5 slices_S8x2048x2816_S1x2048x2816_5_0_0 shapeCasts_S1x2048x2816_S2048x2816 slices_S8x1408x2048_S1x1408x2048_5_0_0 shapeCasts_S1x1408x2048_S1408x2048
      (layerStep (A0 m c) (A1 m c) (A2 m c) (A3 m c) (A4 m c) 4 slices_S8x2048x2816_S1x2048x2816_4_0_0 shapeCasts_S1x2048x2816_S2048x2816 slices_S8x1408x2048_S1x1408x2048_4_0_0 shapeCasts_S1x1408x2048_S1408x2048
      (layerStep (A0 m c) (A1 m c) (A2 m c) (A3 m c) (A4 m c) 3 slices_S8x2048x2816_S1x2048x2816_3_0_0 shapeCasts_S1x2048x2816_S2048x2816 slices_S8x1408x2048_S1x1408x2048_3_0_0 shapeCasts_S1x1408x2048_S1408x2048
      (layerStep (A0 m c) (A1 m c) (A2 m c) (A3 m c) (A4 m c) 2 slices_S8x2048x2816_S1x2048x2816_2_0_0 shapeCasts_S1x2048x2816_S2048x2816 slices_S8x1408x2048_S1x1408x2048_2_0_0 shapeCasts_S1x1408x2048_S1408x2048
      (layerStep (A0 m c) (A1 m c) (A2 m c) (A3 m c) (A4 m c) 1 slices_S8x2048x2816_S1x2048x2816_1_0_0 shapeCasts_S1x2048x2816_S2048x2816 slices_S8x1408x2048_S1x1408x2048_1_0_0 shapeCasts_S1x1408x2048_S1408x2048
      (layerStep (A0 m c) (A1 m c) (A2 m c) (A3 m c) (A4 m c) 0 slices_S8x2048x2816_S1x2048x2816_0_0_0 shapeCasts_S1x2048x2816_S2048x2816 slices_S8x1408x2048_S1x1408x2048_0_0_0 shapeCasts_S1x1408x2048_S1408x2048
      (zeros bcast_S_S8192x2048))))))) :=
  (StableHlo.after_of_forall_not_mem (b := Proc.devRef .tc main_v50) _ _ (List.forall_iff_forall_mem.mp (by
      simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (out5 m ρ c)
theorem out6 : (W14 m ρ c (Proc.devRef .tc main_v56) : Mat 8192 2048) = (layerStep (A0 m c) (A1 m c) (A2 m c) (A3 m c) (A4 m c) 6 slices_S8x2048x2816_S1x2048x2816_6_0_0 shapeCasts_S1x2048x2816_S2048x2816 slices_S8x1408x2048_S1x1408x2048_6_0_0 shapeCasts_S1x1408x2048_S1408x2048
      (layerStep (A0 m c) (A1 m c) (A2 m c) (A3 m c) (A4 m c) 5 slices_S8x2048x2816_S1x2048x2816_5_0_0 shapeCasts_S1x2048x2816_S2048x2816 slices_S8x1408x2048_S1x1408x2048_5_0_0 shapeCasts_S1x1408x2048_S1408x2048
      (layerStep (A0 m c) (A1 m c) (A2 m c) (A3 m c) (A4 m c) 4 slices_S8x2048x2816_S1x2048x2816_4_0_0 shapeCasts_S1x2048x2816_S2048x2816 slices_S8x1408x2048_S1x1408x2048_4_0_0 shapeCasts_S1x1408x2048_S1408x2048
      (layerStep (A0 m c) (A1 m c) (A2 m c) (A3 m c) (A4 m c) 3 slices_S8x2048x2816_S1x2048x2816_3_0_0 shapeCasts_S1x2048x2816_S2048x2816 slices_S8x1408x2048_S1x1408x2048_3_0_0 shapeCasts_S1x1408x2048_S1408x2048
      (layerStep (A0 m c) (A1 m c) (A2 m c) (A3 m c) (A4 m c) 2 slices_S8x2048x2816_S1x2048x2816_2_0_0 shapeCasts_S1x2048x2816_S2048x2816 slices_S8x1408x2048_S1x1408x2048_2_0_0 shapeCasts_S1x1408x2048_S1408x2048
      (layerStep (A0 m c) (A1 m c) (A2 m c) (A3 m c) (A4 m c) 1 slices_S8x2048x2816_S1x2048x2816_1_0_0 shapeCasts_S1x2048x2816_S2048x2816 slices_S8x1408x2048_S1x1408x2048_1_0_0 shapeCasts_S1x1408x2048_S1408x2048
      (layerStep (A0 m c) (A1 m c) (A2 m c) (A3 m c) (A4 m c) 0 slices_S8x2048x2816_S1x2048x2816_0_0_0 shapeCasts_S1x2048x2816_S2048x2816 slices_S8x1408x2048_S1x1408x2048_0_0_0 shapeCasts_S1x1408x2048_S1408x2048
      (zeros bcast_S_S8192x2048)))))))) := by
  refine (W14_arr m ρ c 5).trans ((Cert.KernelIdeal.MoeRegion6.final (V13 m ρ) c).trans ?_)
  exact congr (congr (congr (congr (congrArg (expertStep (n := 8192)) (x6 m ρ c)) (up6 m ρ c)) (dn6 m ρ c)) (w6 m ρ c)) (acc6 m ρ c)

/-! ## Call 7 -/

theorem x7 : (V15 m ρ c main_v11 : Mat 8192 2048) = A0 m c := (keep7_v11 m ρ c).trans (base_v11 m ρ c)
theorem pre7_v12 : (W14 m ρ c (Proc.devRef .tc main_v12) : (⟨3, ![8, 2048, 2816]⟩ : Shape).Idx → EReal) = A3 m c :=
  (W14_of_ne m ρ c main_v12 (by decide)).trans ((keep6_v12 m ρ c).trans (base_v12 m ρ c))
theorem pre7_v13 : (W14 m ρ c (Proc.devRef .tc main_v13) : (⟨3, ![8, 1408, 2048]⟩ : Shape).Idx → EReal) = A4 m c :=
  (W14_of_ne m ρ c main_v13 (by decide)).trans ((keep6_v13 m ρ c).trans (base_v13 m ρ c))
theorem pre7_v10 : (W14 m ρ c (Proc.devRef .tc main_v10) : Mat 8192 8) = Cert.KernelIdeal.MoeRoute.table (A1 m c) (A2 m c) :=
  (W14_of_ne m ρ c main_v10 (by decide)).trans ((keep6_v10 m ρ c).trans (base_v10 m ρ c))
theorem up7 : (V15 m ρ c main_v59 : Mat 2048 2816) = upSlab (A3 m c) 7 slices_S8x2048x2816_S1x2048x2816_7_0_0 shapeCasts_S1x2048x2816_S2048x2816 := by
  have h : (V15 m ρ c main_v59 : Mat 2048 2816) = upSlab (W14 m ρ c (Proc.devRef .tc main_v12)) 7 slices_S8x2048x2816_S1x2048x2816_7_0_0 shapeCasts_S1x2048x2816_S2048x2816 := by
    show StableHlo.after hostOps7 (W14 m ρ c) (Proc.devRef .tc main_v59) = _
    dsimp only [hostOps7]
    after_results <;> rfl
  exact h.trans (congrArg (fun z => upSlab z 7 slices_S8x2048x2816_S1x2048x2816_7_0_0 shapeCasts_S1x2048x2816_S2048x2816) (pre7_v12 m ρ c))
theorem dn7 : (V15 m ρ c main_v61 : Mat 1408 2048) = dnSlab (A4 m c) 7 slices_S8x1408x2048_S1x1408x2048_7_0_0 shapeCasts_S1x1408x2048_S1408x2048 := by
  have h : (V15 m ρ c main_v61 : Mat 1408 2048) = dnSlab (W14 m ρ c (Proc.devRef .tc main_v13)) 7 slices_S8x1408x2048_S1x1408x2048_7_0_0 shapeCasts_S1x1408x2048_S1408x2048 := by
    show StableHlo.after hostOps7 (W14 m ρ c) (Proc.devRef .tc main_v61) = _
    dsimp only [hostOps7]
    after_results <;> rfl
  exact h.trans (congrArg (fun z => dnSlab z 7 slices_S8x1408x2048_S1x1408x2048_7_0_0 shapeCasts_S1x1408x2048_S1408x2048) (pre7_v13 m ρ c))
theorem w7 : (V15 m ρ c main_v57 : Mat 8192 1) = routeCol (A1 m c) (A2 m c) (BitVec.ofNat 32 7) := by
  have h : (V15 m ρ c main_v57 : Mat 8192 1)
      = Cert.KernelIdeal.MoeRoute.colOf (W14 m ρ c (Proc.devRef .tc main_v10)) 7 slices_S8192x8_S8192x1_0_7 := by
    show StableHlo.after hostOps7 (W14 m ρ c) (Proc.devRef .tc main_v57) = _
    dsimp only [hostOps7]
    after_results <;> rfl
  exact (h.trans (congrArg (fun z => Cert.KernelIdeal.MoeRoute.colOf z 7 slices_S8192x8_S8192x1_0_7) (pre7_v10 m ρ c))).trans
    (Cert.KernelIdeal.MoeRoute.colOf_table (A1 m c) (A2 m c) 7 (by decide) _)
theorem acc7 : (V15 m ρ c main_v56 : Mat 8192 2048) = (layerStep (A0 m c) (A1 m c) (A2 m c) (A3 m c) (A4 m c) 6 slices_S8x2048x2816_S1x2048x2816_6_0_0 shapeCasts_S1x2048x2816_S2048x2816 slices_S8x1408x2048_S1x1408x2048_6_0_0 shapeCasts_S1x1408x2048_S1408x2048
      (layerStep (A0 m c) (A1 m c) (A2 m c) (A3 m c) (A4 m c) 5 slices_S8x2048x2816_S1x2048x2816_5_0_0 shapeCasts_S1x2048x2816_S2048x2816 slices_S8x1408x2048_S1x1408x2048_5_0_0 shapeCasts_S1x1408x2048_S1408x2048
      (layerStep (A0 m c) (A1 m c) (A2 m c) (A3 m c) (A4 m c) 4 slices_S8x2048x2816_S1x2048x2816_4_0_0 shapeCasts_S1x2048x2816_S2048x2816 slices_S8x1408x2048_S1x1408x2048_4_0_0 shapeCasts_S1x1408x2048_S1408x2048
      (layerStep (A0 m c) (A1 m c) (A2 m c) (A3 m c) (A4 m c) 3 slices_S8x2048x2816_S1x2048x2816_3_0_0 shapeCasts_S1x2048x2816_S2048x2816 slices_S8x1408x2048_S1x1408x2048_3_0_0 shapeCasts_S1x1408x2048_S1408x2048
      (layerStep (A0 m c) (A1 m c) (A2 m c) (A3 m c) (A4 m c) 2 slices_S8x2048x2816_S1x2048x2816_2_0_0 shapeCasts_S1x2048x2816_S2048x2816 slices_S8x1408x2048_S1x1408x2048_2_0_0 shapeCasts_S1x1408x2048_S1408x2048
      (layerStep (A0 m c) (A1 m c) (A2 m c) (A3 m c) (A4 m c) 1 slices_S8x2048x2816_S1x2048x2816_1_0_0 shapeCasts_S1x2048x2816_S2048x2816 slices_S8x1408x2048_S1x1408x2048_1_0_0 shapeCasts_S1x1408x2048_S1408x2048
      (layerStep (A0 m c) (A1 m c) (A2 m c) (A3 m c) (A4 m c) 0 slices_S8x2048x2816_S1x2048x2816_0_0_0 shapeCasts_S1x2048x2816_S2048x2816 slices_S8x1408x2048_S1x1408x2048_0_0_0 shapeCasts_S1x1408x2048_S1408x2048
      (zeros bcast_S_S8192x2048)))))))) :=
  (StableHlo.after_of_forall_not_mem (b := Proc.devRef .tc main_v56) _ _ (List.forall_iff_forall_mem.mp (by
      simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (out6 m ρ c)
theorem out7 : (W16 m ρ c (Proc.devRef .tc main_v62) : Mat 8192 2048) = (layerStep (A0 m c) (A1 m c) (A2 m c) (A3 m c) (A4 m c) 7 slices_S8x2048x2816_S1x2048x2816_7_0_0 shapeCasts_S1x2048x2816_S2048x2816 slices_S8x1408x2048_S1x1408x2048_7_0_0 shapeCasts_S1x1408x2048_S1408x2048
      (layerStep (A0 m c) (A1 m c) (A2 m c) (A3 m c) (A4 m c) 6 slices_S8x2048x2816_S1x2048x2816_6_0_0 shapeCasts_S1x2048x2816_S2048x2816 slices_S8x1408x2048_S1x1408x2048_6_0_0 shapeCasts_S1x1408x2048_S1408x2048
      (layerStep (A0 m c) (A1 m c) (A2 m c) (A3 m c) (A4 m c) 5 slices_S8x2048x2816_S1x2048x2816_5_0_0 shapeCasts_S1x2048x2816_S2048x2816 slices_S8x1408x2048_S1x1408x2048_5_0_0 shapeCasts_S1x1408x2048_S1408x2048
      (layerStep (A0 m c) (A1 m c) (A2 m c) (A3 m c) (A4 m c) 4 slices_S8x2048x2816_S1x2048x2816_4_0_0 shapeCasts_S1x2048x2816_S2048x2816 slices_S8x1408x2048_S1x1408x2048_4_0_0 shapeCasts_S1x1408x2048_S1408x2048
      (layerStep (A0 m c) (A1 m c) (A2 m c) (A3 m c) (A4 m c) 3 slices_S8x2048x2816_S1x2048x2816_3_0_0 shapeCasts_S1x2048x2816_S2048x2816 slices_S8x1408x2048_S1x1408x2048_3_0_0 shapeCasts_S1x1408x2048_S1408x2048
      (layerStep (A0 m c) (A1 m c) (A2 m c) (A3 m c) (A4 m c) 2 slices_S8x2048x2816_S1x2048x2816_2_0_0 shapeCasts_S1x2048x2816_S2048x2816 slices_S8x1408x2048_S1x1408x2048_2_0_0 shapeCasts_S1x1408x2048_S1408x2048
      (layerStep (A0 m c) (A1 m c) (A2 m c) (A3 m c) (A4 m c) 1 slices_S8x2048x2816_S1x2048x2816_1_0_0 shapeCasts_S1x2048x2816_S2048x2816 slices_S8x1408x2048_S1x1408x2048_1_0_0 shapeCasts_S1x1408x2048_S1408x2048
      (layerStep (A0 m c) (A1 m c) (A2 m c) (A3 m c) (A4 m c) 0 slices_S8x2048x2816_S1x2048x2816_0_0_0 shapeCasts_S1x2048x2816_S2048x2816 slices_S8x1408x2048_S1x1408x2048_0_0_0 shapeCasts_S1x1408x2048_S1408x2048
      (zeros bcast_S_S8192x2048))))))))) := by
  refine (W16_arr m ρ c 5).trans ((Cert.KernelIdeal.MoeRegion7.final (V15 m ρ) c).trans ?_)
  exact congr (congr (congr (congr (congrArg (expertStep (n := 8192)) (x7 m ρ c)) (up7 m ρ c)) (dn7 m ρ c)) (w7 m ρ c)) (acc7 m ρ c)

/-- The program's result array: the eight expert steps chained from zero. -/
theorem result : (W16 m ρ c (Proc.devRef .tc main_v62) : Mat 8192 2048) = (layerStep (A0 m c) (A1 m c) (A2 m c) (A3 m c) (A4 m c) 7 slices_S8x2048x2816_S1x2048x2816_7_0_0 shapeCasts_S1x2048x2816_S2048x2816 slices_S8x1408x2048_S1x1408x2048_7_0_0 shapeCasts_S1x1408x2048_S1408x2048
      (layerStep (A0 m c) (A1 m c) (A2 m c) (A3 m c) (A4 m c) 6 slices_S8x2048x2816_S1x2048x2816_6_0_0 shapeCasts_S1x2048x2816_S2048x2816 slices_S8x1408x2048_S1x1408x2048_6_0_0 shapeCasts_S1x1408x2048_S1408x2048
      (layerStep (A0 m c) (A1 m c) (A2 m c) (A3 m c) (A4 m c) 5 slices_S8x2048x2816_S1x2048x2816_5_0_0 shapeCasts_S1x2048x2816_S2048x2816 slices_S8x1408x2048_S1x1408x2048_5_0_0 shapeCasts_S1x1408x2048_S1408x2048
      (layerStep (A0 m c) (A1 m c) (A2 m c) (A3 m c) (A4 m c) 4 slices_S8x2048x2816_S1x2048x2816_4_0_0 shapeCasts_S1x2048x2816_S2048x2816 slices_S8x1408x2048_S1x1408x2048_4_0_0 shapeCasts_S1x1408x2048_S1408x2048
      (layerStep (A0 m c) (A1 m c) (A2 m c) (A3 m c) (A4 m c) 3 slices_S8x2048x2816_S1x2048x2816_3_0_0 shapeCasts_S1x2048x2816_S2048x2816 slices_S8x1408x2048_S1x1408x2048_3_0_0 shapeCasts_S1x1408x2048_S1408x2048
      (layerStep (A0 m c) (A1 m c) (A2 m c) (A3 m c) (A4 m c) 2 slices_S8x2048x2816_S1x2048x2816_2_0_0 shapeCasts_S1x2048x2816_S2048x2816 slices_S8x1408x2048_S1x1408x2048_2_0_0 shapeCasts_S1x1408x2048_S1408x2048
      (layerStep (A0 m c) (A1 m c) (A2 m c) (A3 m c) (A4 m c) 1 slices_S8x2048x2816_S1x2048x2816_1_0_0 shapeCasts_S1x2048x2816_S2048x2816 slices_S8x1408x2048_S1x1408x2048_1_0_0 shapeCasts_S1x1408x2048_S1408x2048
      (layerStep (A0 m c) (A1 m c) (A2 m c) (A3 m c) (A4 m c) 0 slices_S8x2048x2816_S1x2048x2816_0_0_0 shapeCasts_S1x2048x2816_S2048x2816 slices_S8x1408x2048_S1x1408x2048_0_0_0 shapeCasts_S1x1408x2048_S1408x2048
      (zeros bcast_S_S8192x2048))))))))) := out7 m ρ c

end Cert.KernelIdeal.MoeFold

end
-- ==== Proof.LibHostDot.lean ====
/-
  A matrix product on the host, read at an index given by coordinates, at the extended reals: a dot_general of an
  [m, k] by a [k, n] array with the plain dimension numbers (the first operand's columns contracted with the second's
  rows, no batch axis) reads, at (r, c), the sum over q of A (r, q) * B (q, c) — the same sum as the vector unit's
  product into the zero splat. Also the two f32 words a spelled-out sigmoid meets: the pattern of 1.0 is the real 1.
  All general in the extents.
-/
import proofs.«121777_j6605659701457_1_alg».proof.Proof.LibLayoutCols
import Idealize.ShloMosaic.PureOps.Ideal.Laws
import Idealize.ShloMosaic.Lib.ValueIdx

noncomputable section

namespace Cert.LibHostDot

open Idealize.ShloMosaic Idealize.ShloMosaic.ValueIdx Cert.LayoutCols

section Plain
variable {m k n : ℕ}
variable (wf : DotDims.WF ⟨2, ![m, k]⟩ ⟨2, ![k, n]⟩ ⟨2, ![m, n]⟩ [1] [0] [0] [1] [] [])

/-- The host's plain product at (r, c): the sum over q of A (r, q) * B (q, c). -/
theorem dotGeneral_plainOf_apply {φ₁ φ₂ : FTy} (prec : Option ContractPrecision) (A : FVec Ideal ⟨2, ![m, k]⟩ φ₁)
    (B : FVec Ideal ⟨2, ![k, n]⟩ φ₂) (r : Fin m) (c : Fin n) :
    Host.dotGeneral (plainOf wf) prec A B (ix2 r c) = ∑ q : Fin k, A (ix2 r q) * B (ix2 q c) := by
  simp only [Host.dotGeneral]
  rw [Ideal.dotGeneral_apply, ← Equiv.sum_comp (contrEquiv1 (plainOf wf) k rfl rfl).symm]
  refine Finset.sum_congr rfl fun q _ => ?_
  have hq := contrEquiv1_symm_val (plainOf wf) k rfl rfl q
  have el : (plainOf wf).lhsIdx (ix2 r c) ((contrEquiv1 (plainOf wf) k rfl rfl).symm q) = ix2 r q :=
    funext fun a => Fin.ext (by
      match a with
      | ⟨0, _⟩ => exact plain_lhs0 wf _ _
      | ⟨1, _⟩ => exact (plain_lhs1 wf _ _).trans hq)
  have er : (plainOf wf).rhsIdx (ix2 r c) ((contrEquiv1 (plainOf wf) k rfl rfl).symm q) = ix2 q c :=
    funext fun a => Fin.ext (by
      match a with
      | ⟨0, _⟩ => exact (plain_rhs0 wf _ _).trans hq
      | ⟨1, _⟩ => exact plain_rhs1 wf _ _)
  rw [el, er]

end Plain

/-- A host dot_general of an [m, k] by a [k, n] array whose dimension numbers are the plain ones reads, at (r, c),
    the sum over q of A (r, q) * B (q, c). -/
theorem dotGeneral_plain_apply {m k n : ℕ} {φ₁ φ₂ : FTy} (D : DotDims ⟨2, ![m, k]⟩ ⟨2, ![k, n]⟩ ⟨2, ![m, n]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (A : FVec Ideal ⟨2, ![m, k]⟩ φ₁) (B : FVec Ideal ⟨2, ![k, n]⟩ φ₂) (r : Fin m) (c : Fin n) :
    Host.dotGeneral D prec A B (ix2 r c) = ∑ q : Fin k, A (ix2 r q) * B (ix2 q c) := by
  obtain ⟨lc, rc, ln, rn, lb, rb, wf⟩ := D
  dsimp only at hlc hrc hln hrn hlb hrb
  subst hlc hrc hln hrn hlb hrb
  exact dotGeneral_plainOf_apply wf prec A B r c

/-- The f32 pattern of 1.0 is the real 1. -/
theorem ofBits_one_f32 : Ideal.ofBits .f32 0x3F800000#32 = 1 := by
  simp [Ideal.ofBits, Ideal.ieee]
  rw [← EReal.coe_mul]
  norm_num

end Cert.LibHostDot

end
-- ==== Proof.MoeRefStep.lean ====
/-
  One expert of the reference, as the host spells it on whole arrays, is the expert step of the specification: the
  hidden array is x against the up-projection; its first and last 1408 columns are sliced off; the first goes through
  x * (1 / (1 + exp (-x))), which on the extended reals is x * logistic x, and multiplies the second; that goes
  against the down-projection; the routing-weight column is spread over the 2048 columns, multiplies it, and the
  product is added to the running output. Read at row p and column q this is the specification's entry, the two
  products being plain sums over the contracted coordinate.

-/
import proofs.«121777_j6605659701457_1_alg».proof.Proof.Gen.ReferenceIdeal
import proofs.«121777_j6605659701457_1_alg».proof.Proof.LibHostDot
import proofs.«121777_j6605659701457_1_alg».proof.Proof.MoeSpec
import Idealize.ShloMosaic.Lib.Pipeline.Value
import Idealize.ShloMosaic.Lib.ValueIdx

noncomputable section

namespace Cert.ReferenceIdeal.MoeRef

open Cert.ReferenceIdeal Cert.ReferenceIdeal.Facts₀ Cert.ReferenceIdeal.Facts Idealize.ShloMosaic Idealize.ShloMosaic.ValueIdx Cert.Moe

/-- The splat of 1.0 the spelled-out sigmoid uses. -/
abbrev ones : FVec Ideal S8192x1408 .f32 :=
  broadcastInDim S8192x1408 ![] bcast_S_S8192x1408 (constant (F := Ideal) S_ .f32 0x3F800000#32)

/-- The hidden array: x against the up-projection. -/
abbrev hidden (x : FVec Ideal S8192x2048 .f32) (up : FVec Ideal S2048x2816 .f32) : FVec Ideal S8192x2816 .f32 :=
  Host.dotGeneral dot_S8192x2048_S2048x2816_S8192x2816_1_0_0_1_n_n none x up

/-- Its first 1408 columns. -/
abbrev gate (x : FVec Ideal S8192x2048 .f32) (up : FVec Ideal S2048x2816 .f32) : FVec Ideal S8192x1408 .f32 :=
  extractStridedSlice S8192x1408 ![0, 0] (hidden x up) slices_S8192x2816_S8192x1408_0_0

/-- One expert of the reference on whole arrays, as the host spells it. -/
def hostStep (x : FVec Ideal S8192x2048 .f32) (up : FVec Ideal S2048x2816 .f32) (down : FVec Ideal S1408x2048 .f32)
    (w : FVec Ideal S8192x1 .f32) (acc : FVec Ideal S8192x2048 .f32) : FVec Ideal S8192x2048 .f32 :=
  addf acc (mulf (broadcastInDim S8192x2048 ![0, 1] bcast_S8192x1_S8192x2048_0_1 w)
    (Host.dotGeneral dot_S8192x1408_S1408x2048_S8192x2048_1_0_0_1_n_n none
      (mulf (mulf (gate x up) (Host.divf ones (addf ones (Host.exp (Host.negf (gate x up))))))
        (extractStridedSlice S8192x1408 ![0, 1408] (hidden x up) slices_S8192x2816_S8192x1408_0_1408))
      down))

theorem hidden_at (x : FVec Ideal S8192x2048 .f32) (up : FVec Ideal S2048x2816 .f32) (p : Fin 8192) (j : Fin 2816) :
    hidden x up (ix2 p j) = hid (n := 8192) x up p j :=
  Cert.LibHostDot.dotGeneral_plain_apply _ rfl rfl rfl rfl rfl rfl none x up p j

theorem gate_at (x : FVec Ideal S8192x2048 .f32) (up : FVec Ideal S2048x2816 .f32) (p : Fin 8192) (d : Fin 1408) :
    gate x up (ix2 p d) = hid (n := 8192) x up p (colLo d) :=
  (extractStridedSlice_apply _ (hidden x up) _ (ix2 p d) (ix2 p (colLo d)) fun a => by
    match a with
    | ⟨0, _⟩ => show p.val = 0 + p.val; omega
    | ⟨1, _⟩ => show d.val = 0 + d.val; omega).trans (hidden_at x up p (colLo d))

theorem upper_at (x : FVec Ideal S8192x2048 .f32) (up : FVec Ideal S2048x2816 .f32) (p : Fin 8192) (d : Fin 1408) :
    extractStridedSlice S8192x1408 ![0, 1408] (hidden x up) slices_S8192x2816_S8192x1408_0_1408 (ix2 p d)
      = hid (n := 8192) x up p (colHi d) :=
  (extractStridedSlice_apply _ (hidden x up) _ (ix2 p d) (ix2 p (colHi d)) fun a => by
    match a with
    | ⟨0, _⟩ => show p.val = 0 + p.val; omega
    | ⟨1, _⟩ => rfl).trans (hidden_at x up p (colHi d))

theorem ones_at (i : S8192x1408.Idx) : ones i = 1 :=
  (broadcastInDim_apply _ bcast_S_S8192x1408 (constant (F := Ideal) S_ .f32 0x3F800000#32) i ix0 fun a => a.elim0).trans
    Cert.LibHostDot.ofBits_one_f32

/-- The host's spelling is the expert step. -/
theorem hostStep_eq (x : FVec Ideal S8192x2048 .f32) (up : FVec Ideal S2048x2816 .f32) (down : FVec Ideal S1408x2048 .f32)
    (w : FVec Ideal S8192x1 .f32) (acc : FVec Ideal S8192x2048 .f32) :
    hostStep x up down w acc = expertStep (n := 8192) x up down w acc := by
  funext i
  obtain ⟨p, q, rfl⟩ : ∃ (p : Fin 8192) (q : Fin 2048), i = ix2 p q := ⟨i 0, i 1, eq_ix2 i⟩
  rw [expertStep_apply]
  unfold hostStep expertAt
  refine congrArg₂ (· + ·) rfl (congrArg₂ (· * ·) ?_ ?_)
  · refine broadcastInDim_apply _ bcast_S8192x1_S8192x2048_0_1 w (ix2 p q) (ix2 p (0 : Fin 1)) fun a => ?_
    match a with
    | ⟨0, _⟩ => show p.val = if (8192 : ℕ) = 1 then 0 else p.val; rw [if_neg (by decide)]
    | ⟨1, _⟩ => show (0 : ℕ) = if (1 : ℕ) = 1 then 0 else q.val; rw [if_pos rfl]
  · refine (Cert.LibHostDot.dotGeneral_plain_apply _ rfl rfl rfl rfl rfl rfl none _ down p q).trans ?_
    refine Finset.sum_congr rfl fun d _ => congrArg (· * down (ix2 d q)) ?_
    show gate x up (ix2 p d) * Ideal.div (ones (ix2 p d)) (ones (ix2 p d) + Ideal.exp (-(gate x up (ix2 p d))))
        * extractStridedSlice S8192x1408 ![0, 1408] (hidden x up) slices_S8192x2816_S8192x1408_0_1408 (ix2 p d) = _
    rw [ones_at, gate_at, upper_at]
    rfl

end Cert.ReferenceIdeal.MoeRef

end
-- ==== Proof.MoeRouteR.lean ====
/-
  The reference's routing weights. For each expert the host compares the slot indices with the expert's number,
  converts the bit to a float, multiplies by the scores and sums over the two slots; the [8192] result is laid out as
  an [8192, 1] column. That column is the column of routing weights for the expert.
-/
import proofs.«121777_j6605659701457_1_alg».proof.Proof.Gen.ReferenceIdeal
import proofs.«121777_j6605659701457_1_alg».proof.Proof.MoeRouteSpec
import Idealize.ShloMosaic.Lib.Pipeline.Value
import Idealize.ShloMosaic.Lib.ValueIdx
import Idealize.ShloMosaic.PureOps.Ideal.Laws

noncomputable section

namespace Cert.ReferenceIdeal.MoeRoute

open Cert.ReferenceIdeal Cert.ReferenceIdeal.Facts₀ Cert.ReferenceIdeal.Facts Idealize.ShloMosaic Idealize.ShloMosaic.ValueIdx Cert.Moe

/-- The routing weights of one expert, as the host computes them, laid out as a column. -/
abbrev column (a1 : IVec S8192x2 32) (a2 : FVec Ideal S8192x2 .f32) (lit : BitVec 32) : FVec Ideal S8192x1 .f32 :=
  broadcastInDim S8192x1 ![0] bcast_S8192_S8192x1_0
    (Host.reduceAdd (F := Ideal)
      (mulf a2 (uitofp .f32 (cmpi .eq a1 (broadcastInDim S8192x2 ![] bcast_S_S8192x2 (constantI S_ 32 lit)))))
      (constant S_ .f32 0x00000000#32) reducesTo_S8192x2_S8192_d1 h_S_)

/-- It is the column of routing weights for the expert numbered lit. -/
theorem column_eq (a1 : IVec S8192x2 32) (a2 : FVec Ideal S8192x2 .f32) (lit : BitVec 32) :
    column a1 a2 lit = routeCol a1 a2 lit := by
  funext i
  obtain ⟨t, u, rfl⟩ : ∃ (t : Fin 8192) (u : Fin 1), i = ix2 t u := ⟨i 0, i 1, eq_ix2 i⟩
  refine (broadcastInDim_apply _ bcast_S8192_S8192x1_0 _ (ix2 t u) (ix1 t) fun a => by
    match a with
    | ⟨0, _⟩ => show t.val = if (8192 : ℕ) = 1 then 0 else t.val; rw [if_neg (by decide)]).trans ?_
  simp only [Host.reduceAdd, Ideal.hostReduceAdd_def]
  rw [Ideal.hostReduceAdd_single reducesTo_S8192x2_S8192_d1 (by decide)]
  show _ = routeAt a1 a2 lit t
  unfold routeAt
  refine congrArg₂ (· + ·) rfl (Finset.sum_congr rfl fun s _ => ?_)
  have hl : (by decide : S8192x2.Reduces [1] S8192).lift (ix1 t) s = ix2 t s :=
    funext fun a => Fin.ext (by
      match a with
      | ⟨0, _⟩ => rfl
      | ⟨1, _⟩ => rfl)
  rw [hl]
  show a2 (ix2 t s) * FloatOps.uitofp (F := Ideal) .f32 (IntOp.cmpi .eq (a1 (ix2 t s))
      (broadcastInDim S8192x2 ![] bcast_S_S8192x2 (constantI S_ 32 lit) (ix2 t s))) = _
  rw [broadcastInDim_apply _ bcast_S_S8192x2 (constantI S_ 32 lit) (ix2 t s) ix0 fun a => a.elim0]
  rfl

end Cert.ReferenceIdeal.MoeRoute

end
-- ==== Proof.MoeRefFold.lean ====
/-
  The reference's result as eight expert steps of the five argument arrays. Its run ends with the result buffer at one
  composed term of the arguments: eight times over, the running output plus the routing-weight column, spread over the
  columns, times the expert's output. Grouped by expert that term is the host's spelling of the expert step applied
  eight times from the zero array, with slab e of each stacked projection and the routing-weight column of the expert
  numbered e; each host step is the specification's expert step.
-/
import proofs.«121777_j6605659701457_1_alg».proof.Proof.RefRunPatched
import proofs.«121777_j6605659701457_1_alg».proof.Proof.MoeRefStep
import proofs.«121777_j6605659701457_1_alg».proof.Proof.MoeRouteR
import proofs.«121777_j6605659701457_1_alg».proof.Proof.MoeSlabs

set_option maxRecDepth 16384

noncomputable section

namespace Cert.ReferenceIdeal.MoeRefFold

open Cert.ReferenceIdeal Cert.ReferenceIdeal.Facts₀ Cert.ReferenceIdeal.Facts Idealize.ShloMosaic Idealize.ShloMosaic.TcCoe Idealize.ShloMosaic.ValueIdx Idealize.SL.Sem
open Cert.Moe Cert.ReferenceIdeal.MoeRef

variable (m : (ℓ : Loc nD τ sig) → Buf (Elt Ideal) ℓ) (c : Dev nD)

/-- The five argument arrays at launch. -/
abbrev A0 : Mat 8192 2048 := m ((c : Thread nD τ).loc main_arg0)
abbrev A1 : (⟨2, ![8192, 2]⟩ : Shape).Idx → BitVec 32 := m ((c : Thread nD τ).loc main_arg1)
abbrev A2 : Mat 8192 2 := m ((c : Thread nD τ).loc main_arg2)
abbrev A3 : (⟨3, ![8, 2048, 2816]⟩ : Shape).Idx → EReal := m ((c : Thread nD τ).loc main_arg3)
abbrev A4 : (⟨3, ![8, 1408, 2048]⟩ : Shape).Idx → EReal := m ((c : Thread nD τ).loc main_arg4)

/-- The run's term, grouped by expert: eight host steps from the zero array. -/
theorem res_host : (Cert.ReferenceIdeal.ValueP.res_main_v152 (F := Ideal) m c : Mat 8192 2048)
    = (hostStep (A0 m c) (upSlab (A3 m c) 7 slices_S8x2048x2816_S1x2048x2816_7_0_0 shapeCasts_S1x2048x2816_S2048x2816) (dnSlab (A4 m c) 7 slices_S8x1408x2048_S1x1408x2048_7_0_0 shapeCasts_S1x1408x2048_S1408x2048)
      (Cert.ReferenceIdeal.MoeRoute.column (A1 m c) (A2 m c) 7#32)
      (hostStep (A0 m c) (upSlab (A3 m c) 6 slices_S8x2048x2816_S1x2048x2816_6_0_0 shapeCasts_S1x2048x2816_S2048x2816) (dnSlab (A4 m c) 6 slices_S8x1408x2048_S1x1408x2048_6_0_0 shapeCasts_S1x1408x2048_S1408x2048)
      (Cert.ReferenceIdeal.MoeRoute.column (A1 m c) (A2 m c) 6#32)
      (hostStep (A0 m c) (upSlab (A3 m c) 5 slices_S8x2048x2816_S1x2048x2816_5_0_0 shapeCasts_S1x2048x2816_S2048x2816) (dnSlab (A4 m c) 5 slices_S8x1408x2048_S1x1408x2048_5_0_0 shapeCasts_S1x1408x2048_S1408x2048)
      (Cert.ReferenceIdeal.MoeRoute.column (A1 m c) (A2 m c) 5#32)
      (hostStep (A0 m c) (upSlab (A3 m c) 4 slices_S8x2048x2816_S1x2048x2816_4_0_0 shapeCasts_S1x2048x2816_S2048x2816) (dnSlab (A4 m c) 4 slices_S8x1408x2048_S1x1408x2048_4_0_0 shapeCasts_S1x1408x2048_S1408x2048)
      (Cert.ReferenceIdeal.MoeRoute.column (A1 m c) (A2 m c) 4#32)
      (hostStep (A0 m c) (upSlab (A3 m c) 3 slices_S8x2048x2816_S1x2048x2816_3_0_0 shapeCasts_S1x2048x2816_S2048x2816) (dnSlab (A4 m c) 3 slices_S8x1408x2048_S1x1408x2048_3_0_0 shapeCasts_S1x1408x2048_S1408x2048)
      (Cert.ReferenceIdeal.MoeRoute.column (A1 m c) (A2 m c) 3#32)
      (hostStep (A0 m c) (upSlab (A3 m c) 2 slices_S8x2048x2816_S1x2048x2816_2_0_0 shapeCasts_S1x2048x2816_S2048x2816) (dnSlab (A4 m c) 2 slices_S8x1408x2048_S1x1408x2048_2_0_0 shapeCasts_S1x1408x2048_S1408x2048)
      (Cert.ReferenceIdeal.MoeRoute.column (A1 m c) (A2 m c) 2#32)
      (hostStep (A0 m c) (upSlab (A3 m c) 1 slices_S8x2048x2816_S1x2048x2816_1_0_0 shapeCasts_S1x2048x2816_S2048x2816) (dnSlab (A4 m c) 1 slices_S8x1408x2048_S1x1408x2048_1_0_0 shapeCasts_S1x1408x2048_S1408x2048)
      (Cert.ReferenceIdeal.MoeRoute.column (A1 m c) (A2 m c) 1#32)
      (hostStep (A0 m c) (upSlab (A3 m c) 0 slices_S8x2048x2816_S1x2048x2816_0_0_0 shapeCasts_S1x2048x2816_S2048x2816) (dnSlab (A4 m c) 0 slices_S8x1408x2048_S1x1408x2048_0_0_0 shapeCasts_S1x1408x2048_S1408x2048)
      (Cert.ReferenceIdeal.MoeRoute.column (A1 m c) (A2 m c) 0#32)
      (zeros bcast_S_S8192x2048))))))))) := by
  unfold Cert.ReferenceIdeal.ValueP.res_main_v152
  rfl

/-- The run's term as eight expert steps of the specification. -/
theorem res_eq : (Cert.ReferenceIdeal.ValueP.res_main_v152 (F := Ideal) m c : Mat 8192 2048)
    = (layerStep (A0 m c) (A1 m c) (A2 m c) (A3 m c) (A4 m c) 7 slices_S8x2048x2816_S1x2048x2816_7_0_0 shapeCasts_S1x2048x2816_S2048x2816 slices_S8x1408x2048_S1x1408x2048_7_0_0 shapeCasts_S1x1408x2048_S1408x2048
      (layerStep (A0 m c) (A1 m c) (A2 m c) (A3 m c) (A4 m c) 6 slices_S8x2048x2816_S1x2048x2816_6_0_0 shapeCasts_S1x2048x2816_S2048x2816 slices_S8x1408x2048_S1x1408x2048_6_0_0 shapeCasts_S1x1408x2048_S1408x2048
      (layerStep (A0 m c) (A1 m c) (A2 m c) (A3 m c) (A4 m c) 5 slices_S8x2048x2816_S1x2048x2816_5_0_0 shapeCasts_S1x2048x2816_S2048x2816 slices_S8x1408x2048_S1x1408x2048_5_0_0 shapeCasts_S1x1408x2048_S1408x2048
      (layerStep (A0 m c) (A1 m c) (A2 m c) (A3 m c) (A4 m c) 4 slices_S8x2048x2816_S1x2048x2816_4_0_0 shapeCasts_S1x2048x2816_S2048x2816 slices_S8x1408x2048_S1x1408x2048_4_0_0 shapeCasts_S1x1408x2048_S1408x2048
      (layerStep (A0 m c) (A1 m c) (A2 m c) (A3 m c) (A4 m c) 3 slices_S8x2048x2816_S1x2048x2816_3_0_0 shapeCasts_S1x2048x2816_S2048x2816 slices_S8x1408x2048_S1x1408x2048_3_0_0 shapeCasts_S1x1408x2048_S1408x2048
      (layerStep (A0 m c) (A1 m c) (A2 m c) (A3 m c) (A4 m c) 2 slices_S8x2048x2816_S1x2048x2816_2_0_0 shapeCasts_S1x2048x2816_S2048x2816 slices_S8x1408x2048_S1x1408x2048_2_0_0 shapeCasts_S1x1408x2048_S1408x2048
      (layerStep (A0 m c) (A1 m c) (A2 m c) (A3 m c) (A4 m c) 1 slices_S8x2048x2816_S1x2048x2816_1_0_0 shapeCasts_S1x2048x2816_S2048x2816 slices_S8x1408x2048_S1x1408x2048_1_0_0 shapeCasts_S1x1408x2048_S1408x2048
      (layerStep (A0 m c) (A1 m c) (A2 m c) (A3 m c) (A4 m c) 0 slices_S8x2048x2816_S1x2048x2816_0_0_0 shapeCasts_S1x2048x2816_S2048x2816 slices_S8x1408x2048_S1x1408x2048_0_0_0 shapeCasts_S1x1408x2048_S1408x2048
      (zeros bcast_S_S8192x2048))))))))) := by
  rw [res_host]
  simp only [hostStep_eq, Cert.ReferenceIdeal.MoeRoute.column_eq]
  rfl

end Cert.ReferenceIdeal.MoeRefFold

end
-- ==== Proof.lean ====
/-
  Equivalence of a gated mixture-of-experts feed-forward kernel program with its reference, on the extended reals.

  Both programs compute, for 8192 tokens x : [8192, 2048], two routing slots per token (an expert number and a score),
  stacked up-projections [8, 2048, 2816] and down-projections [8, 1408, 2048]:

    out = sum over experts e = 0 ... 7, in that order from zero, of  w_e * ((silu (x U_e)[:, :1408] * (x U_e)[:, 1408:]) D_e)

  where w_e is the token's routing weight for expert e (the scores of its slots that name e), spread over the columns.
  The kernel program runs one call of an expert kernel per expert over 32 blocks of 256 tokens, threading the running
  output from call to call; between calls the host cuts the expert's slabs and routing-weight column. The reference
  does the same arithmetic with whole-array host operations. On the extended reals a change of float format is the
  identity, a matrix product into zero and the host's dot_general are the same sums, and the kernel's logistic is the
  reference's 1 / (1 + exp (-x)); the two results are the same eight expert steps of the arguments, term for term, so
  no finiteness of the inputs is used for the values.

  The three frames: the two kernel programs' by the generated frame certificates, the reference's by its run with the
  result dropped. The idealization rewrote nothing, so it is preserved trivially.
-/
import proofs.«121777_j6605659701457_1_alg».proof.Defs
import proofs.«121777_j6605659701457_1_alg».proof.Proof.Gen.Kernel
import proofs.«121777_j6605659701457_1_alg».proof.Proof.Gen.Kernel.Skeleton
import proofs.«121777_j6605659701457_1_alg».proof.Proof.Gen.Kernel.Launch
import proofs.«121777_j6605659701457_1_alg».proof.Proof.Gen.Kernel.Points
import proofs.«121777_j6605659701457_1_alg».proof.Proof.Gen.Kernel.Frame
import proofs.«121777_j6605659701457_1_alg».proof.Proof.Gen.KernelIdeal
import proofs.«121777_j6605659701457_1_alg».proof.Proof.Gen.KernelIdeal.Skeleton
import proofs.«121777_j6605659701457_1_alg».proof.Proof.Gen.KernelIdeal.Launch
import proofs.«121777_j6605659701457_1_alg».proof.Proof.Gen.KernelIdeal.Points
import proofs.«121777_j6605659701457_1_alg».proof.Proof.Gen.KernelIdeal.Frame
import proofs.«121777_j6605659701457_1_alg».proof.Proof.Gen.ReferenceIdeal
import proofs.«121777_j6605659701457_1_alg».proof.Proof.Gen.Pre_finite_inputs
import proofs.«121777_j6605659701457_1_alg».proof.Proof.RefRunPatched
import proofs.«121777_j6605659701457_1_alg».proof.Proof.MoeRun
import proofs.«121777_j6605659701457_1_alg».proof.Proof.MoeFold
import proofs.«121777_j6605659701457_1_alg».proof.Proof.MoeRefFold
import Idealize.ShloMosaic.Adequacy
import Idealize.ShloMosaic.Init

noncomputable section

namespace Cert.Proof

open Idealize.ShloMosaic Idealize.ShloMosaic.TcCoe Idealize.SL.Sem

theorem frame_k : Cert.frame_Kernel :=
  fun m ρ _ => Cert.Kernel.Gen.frame m ρ

theorem frame_ki : Cert.frame_KernelIdeal :=
  fun m ρ _ => Cert.KernelIdeal.Gen.frame m ρ

/-- The reference's frame: its run, the result dropped. -/
theorem frame_ri : Cert.frame_ReferenceIdeal :=
  fun m ρ _ => (θ_run Cert.ReferenceIdeal.defs _ _).mono (fun _ h c => (h c).2)
    (Cert.ReferenceIdeal.ValueP.run (F := Ideal) m ρ)

/-- Both runs end with the result at the eight expert steps of arguments that agree. -/
theorem algebraic : Cert.algebraic_KernelIdeal_ReferenceIdeal := by
  intro m ρ m' ρ' _ hagree
  refine ⟨fun c => Cert.KernelIdeal.Gen.W16 m ρ c (Proc.devRef .tc Cert.KernelIdeal.main_v62),
    Cert.KernelIdeal.MoeRun.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  refine (Cert.ReferenceIdeal.MoeRefFold.res_eq m' c).trans ((Cert.KernelIdeal.MoeFold.result m ρ c).trans ?_).symm
  unfold Cert.ReferenceIdeal.MoeRefFold.A0 Cert.ReferenceIdeal.MoeRefFold.A1 Cert.ReferenceIdeal.MoeRefFold.A2
    Cert.ReferenceIdeal.MoeRefFold.A3 Cert.ReferenceIdeal.MoeRefFold.A4
  rw [(hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
